-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v148)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v148) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v259) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S4x128x128 : Shape := ⟨3, ![4, 128, 128]⟩
abbrev S4x128 : Shape := ⟨2, ![4, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg8 : FVec F S4x128 .f32) (main_arg16 : FVec F S64 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_cst_34 : FVec F S_ .f32 := constant S_ .f32 0x00000000#32
  let main_v89 : FVec F S4x128 .f32 := broadcastInDim S4x128 ![] bcast_S_S4x128 main_cst_34
  let main_v90 : IVec S4x128 1 := cmpf .oge main_arg8 main_v89
  let main_c_35 : IVec S_ 1 := constantI S_ 1 1#1
  let main_v91 : IVec S_ 1 := (fun x v => Host.reduce IntOp.andi x v reducesTo_S4x128_S_d0_1 h_S_) main_v90 main_c_35
  let main_v92 : IVec S_ 1 := andi main_v88 main_v91
  let main_cst_36 : FVec F S_ .f32 := constant S_ .f32 0x00000000#32
  let main_v93 : FVec F S64 .f32 := broadcastInDim S64 ![] bcast_S_S64 main_cst_36
  let main_v94 : IVec S64 1 := cmpf .oge main_arg16 main_v93
  let main_c_37 : IVec S_ 1 := constantI S_ 1 1#1
  let main_v95 : IVec S_ 1 := (fun x v => Host.reduce IntOp.andi x v reducesTo_S64_S_d0 h_S_) main_v94 main_c_37
  let main_v96 : IVec S_ 1 := andi main_v92 main_v95
  main_v96

def fn_part4 {F : FTy → Type} [FloatOps F] (main_arg8 : FVec F S4x128 .f32) (main_arg15 : FVec F S64 .f32) (main_arg16 : FVec F S64 .f32) (main_arg17 : FVec F S64x1 .f32) (main_arg18 : FVec F S1 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x1 .f32 := Host.absf main_arg17
  let main_cst_30 : FVec F S_ .f32 := constant S_ .f32 0x7F800000#32
  let main_v80 : FVec F S64x1 .f32 := broadcastInDim S64x1 ![] bcast_S_S64x1 main_cst_30
  let main_v81 : IVec S64x1 1 := cmpf .olt main_v79 main_v80
  let main_c_31 : IVec S_ 1 := constantI S_ 1 1#1
  let main_v82 : IVec S_ 1 := (fun x v => Host.reduce IntOp.andi x v reducesTo_S64x1_S_d0_1 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_arg8 main_arg16 main_v83 main_v84 main_cst_32

def fn_part3 {F : FTy → Type} [FloatOps F] (main_arg8 : FVec F S4x128 .f32) (main_arg12 : FVec F S64 .f32) (main_arg13 : FVec F S64 .f32) (main_arg14 : FVec F S64 .f32) (main_arg15 : FVec F S64 .f32) (main_arg16 : FVec F S64 .f32) (main_arg17 : FVec F S64x1 .f32) (main_arg18 : FVec F S1 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg8 main_arg15 main_arg16 main_arg17 main_arg18 main_v63 main_v67

def fn_part2 {F : FTy → Type} [FloatOps F] (main_arg8 : FVec F S4x128 .f32) (main_arg9 : FVec F S128 .f32) (main_arg10 : FVec F S128 .f32) (main_arg11 : FVec F S128x64 .f32) (main_arg12 : FVec F S64 .f32) (main_arg13 : FVec F S64 .f32) (main_arg14 : FVec F S64 .f32) (main_arg15 : FVec F S64 .f32) (main_arg16 : FVec F S64 .f32) (main_arg17 : FVec F S64x1 .f32) (main_arg18 : FVec F S1 .f32) (main_v33 : IVec S_ 1) : IVec S_ 1 :=
  let main_v34 : FVec F S4x128 .f32 := Host.absf main_arg8
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg8 main_arg12 main_arg13 main_arg14 main_arg15 main_arg16 main_arg17 main_arg18 main_v48 main_v49 main_v50

def fn_part1 {F : FTy → Type} [FloatOps F] (main_arg5 : FVec F S4x128 .f32) (main_arg6 : FVec F S4x128 .f32) (main_arg7 : FVec F S4x128 .f32) (main_arg8 : FVec F S4x128 .f32) (main_arg9 : FVec F S128 .f32) (main_arg10 : FVec F S128 .f32) (main_arg11 : FVec F S128x64 .f32) (main_arg12 : FVec F S64 .f32) (main_arg13 : FVec F S64 .f32) (main_arg14 : FVec F S64 .f32) (main_arg15 : FVec F S64 .f32) (main_arg16 : FVec F S64 .f32) (main_arg17 : FVec F S64x1 .f32) (main_arg18 : FVec F S1 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg5
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg6
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg7
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x128 .f32) (main_arg1 : IVec S2x1600000 32) (main_arg2 : FVec F S4x128x128 .f32) (main_arg3 : FVec F S4x128x128 .f32) (main_arg4 : FVec F S4x128 .f32) (main_arg5 : FVec F S4x128 .f32) (main_arg6 : FVec F S4x128 .f32) (main_arg7 : FVec F S4x128 .f32) (main_arg8 : FVec F S4x128 .f32) (main_arg9 : FVec F S128 .f32) (main_arg10 : FVec F S128 .f32) (main_arg11 : FVec F S128x64 .f32) (main_arg12 : FVec F S64 .f32) (main_arg13 : FVec F S64 .f32) (main_arg14 : FVec F S64 .f32) (main_arg15 : FVec F S64 .f32) (main_arg16 : FVec F S64 .f32) (main_arg17 : FVec F S64x1 .f32) (main_arg18 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg2
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128 .f32 := Host.absf main_arg4
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x1600000 : Shape := ⟨2, ![2, 1600000]⟩
abbrev S4x128x128 : Shape := ⟨3, ![4, 128, 128]⟩
abbrev S4x128 : Shape := ⟨2, ![4, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S5000x128 : Shape := ⟨2, ![5000, 128]⟩
abbrev S5000x1 : Shape := ⟨2, ![5000, 1]⟩
abbrev S1x64 : Shape := ⟨2, ![1, 64]⟩
abbrev S1x1 : Shape := ⟨2, ![1, 1]⟩
abbrev S5000 : Shape := ⟨1, ![5000]⟩
abbrev S5000x64 : Shape := ⟨2, ![5000, 64]⟩
abbrev S100000 : Shape := ⟨1, ![100000]⟩

abbrev nBuf : Space → Nat
  | .hbm => 184
  | .vmem => 72
  | .smem => 0
  | _ => 0

abbrev hbmTy0_0 (i : Nat) : BufTy := match i % 128 with
  | 0 => ⟨S100000x128, .f32⟩
  | 1 => ⟨S2x1600000, .i32⟩
  | 2 => ⟨S4x128x128, .f32⟩
  | 3 => ⟨S4x128x128, .f32⟩
  | 4 => ⟨S4x128, .f32⟩
  | 5 => ⟨S4x128, .f32⟩
  | 6 => ⟨S4x128, .f32⟩
  | 7 => ⟨S4x128, .f32⟩
  | 8 => ⟨S4x128, .f32⟩
  | 9 => ⟨S128, .f32⟩
  | 10 => ⟨S128, .f32⟩
  | 11 => ⟨S128x64, .f32⟩
  | 12 => ⟨S64, .f32⟩
  | 13 => ⟨S64, .f32⟩
  | 14 => ⟨S64, .f32⟩
  | 15 => ⟨S64, .f32⟩
  | 16 => ⟨S64, .f32⟩
  | 17 => ⟨S64x1, .f32⟩
  | 18 => ⟨S1, .f32⟩
  | 19 => ⟨S1x1600000, .i32⟩
  | 20 => ⟨S1600000, .i32⟩
  | 21 => ⟨S1x1600000, .i32⟩
  | 22 => ⟨S1600000, .i32⟩
  | 23 => ⟨S_, .f32⟩
  | 24 => ⟨S1600000x1, .f32⟩
  | 25 => ⟨S_, .f32⟩
  | 26 => ⟨S100000x1, .f32⟩
  | 27 => ⟨S1600000x1, .i32⟩
  | 28 => ⟨S100000x1, .f32⟩
  | 29 => ⟨S_, .f32⟩
  | 30 => ⟨S100000x1, .f32⟩
  | 31 => ⟨S100000x1, .f32⟩
  | 32 => ⟨S_, .f32⟩
  | 33 => ⟨S100000x1, .f32⟩
  | 34 => ⟨S100000x1, .f32⟩
  | 35 => ⟨S100000x128, .bf16⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x128, .bf16⟩
  | 45 => ⟨S1600000x128, .f32⟩
  | 46 => ⟨S_, .f32⟩
  | 47 => ⟨S100000x128, .f32⟩
  | 48 => ⟨S1600000x1, .i32⟩
  | 49 => ⟨S100000x128, .f32⟩
  | 50 => ⟨S1x128x128, .f32⟩
  | 51 => ⟨S128x128, .f32⟩
  | 52 => ⟨S1x128x128, .f32⟩
  | 53 => ⟨S128x128, .f32⟩
  | 54 => ⟨S1x128, .f32⟩
  | 55 => ⟨S128, .f32⟩
  | 56 => ⟨S1x128, .f32⟩
  | 57 => ⟨S128, .f32⟩
  | 58 => ⟨S1x128, .f32⟩
  | 59 => ⟨S128, .f32⟩
  | 60 => ⟨S1x128, .f32⟩
  | 61 => ⟨S128, .f32⟩
  | 62 => ⟨S1x128, .f32⟩
  | 63 => ⟨S128, .f32⟩
  | 64 => ⟨S1x128, .f32⟩
  | 65 => ⟨S1x128, .f32⟩
  | 66 => ⟨S1x128, .f32⟩
  | 67 => ⟨S1x128, .f32⟩
  | 68 => ⟨S1x128, .f32⟩
  | 69 => ⟨S100000x128, .f32⟩
  | 70 => ⟨S100000x128, .bf16⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .bf16⟩
  | 80 => ⟨S1600000x128, .f32⟩
  | 81 => ⟨S_, .f32⟩
  | 82 => ⟨S100000x128, .f32⟩
  | 83 => ⟨S1600000x1, .i32⟩
  | 84 => ⟨S100000x128, .f32⟩
  | 85 => ⟨S1x128x128, .f32⟩
  | 86 => ⟨S128x128, .f32⟩
  | 87 => ⟨S1x128x128, .f32⟩
  | 88 => ⟨S128x128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S128, .f32⟩
  | 99 => ⟨S1x128, .f32⟩
  | 100 => ⟨S1x128, .f32⟩
  | 101 => ⟨S1x128, .f32⟩
  | 102 => ⟨S1x128, .f32⟩
  | 103 => ⟨S1x128, .f32⟩
  | 104 => ⟨S100000x128, .f32⟩
  | 105 => ⟨S100000x128, .bf16⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x128, .bf16⟩
  | 115 => ⟨S1600000x128, .f32⟩
  | 116 => ⟨S_, .f32⟩
  | 117 => ⟨S100000x128, .f32⟩
  | 118 => ⟨S1600000x1, .i32⟩
  | 119 => ⟨S100000x128, .f32⟩
  | 120 => ⟨S1x128x128, .f32⟩
  | 121 => ⟨S128x128, .f32⟩
  | 122 => ⟨S1x128x128, .f32⟩
  | 123 => ⟨S128x128, .f32⟩
  | 124 => ⟨S1x128, .f32⟩
  | 125 => ⟨S128, .f32⟩
  | 126 => ⟨S1x128, .f32⟩
  | 127 => ⟨S128, .f32⟩
  | _ => ⟨S100000x128, .f32⟩

abbrev hbmTy0_1 (i : Nat) : BufTy := match i % 128 with
  | 0 => ⟨S1x128, .f32⟩
  | 1 => ⟨S128, .f32⟩
  | 2 => ⟨S1x128, .f32⟩
  | 3 => ⟨S128, .f32⟩
  | 4 => ⟨S1x128, .f32⟩
  | 5 => ⟨S128, .f32⟩
  | 6 => ⟨S1x128, .f32⟩
  | 7 => ⟨S1x128, .f32⟩
  | 8 => ⟨S1x128, .f32⟩
  | 9 => ⟨S1x128, .f32⟩
  | 10 => ⟨S1x128, .f32⟩
  | 11 => ⟨S100000x128, .f32⟩
  | 12 => ⟨S100000x128, .bf16⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .bf16⟩
  | 22 => ⟨S1600000x128, .f32⟩
  | 23 => ⟨S_, .f32⟩
  | 24 => ⟨S100000x128, .f32⟩
  | 25 => ⟨S1600000x1, .i32⟩
  | 26 => ⟨S100000x128, .f32⟩
  | 27 => ⟨S1x128x128, .f32⟩
  | 28 => ⟨S128x128, .f32⟩
  | 29 => ⟨S1x128x128, .f32⟩
  | 30 => ⟨S128x128, .f32⟩
  | 31 => ⟨S1x128, .f32⟩
  | 32 => ⟨S128, .f32⟩
  | 33 => ⟨S1x128, .f32⟩
  | 34 => ⟨S128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S128, .f32⟩
  | 41 => ⟨S1x128, .f32⟩
  | 42 => ⟨S1x128, .f32⟩
  | 43 => ⟨S1x128, .f32⟩
  | 44 => ⟨S1x128, .f32⟩
  | 45 => ⟨S1x128, .f32⟩
  | 46 => ⟨S1x128, .f32⟩
  | 47 => ⟨S1x128, .f32⟩
  | 48 => ⟨S1x64, .f32⟩
  | 49 => ⟨S1x64, .f32⟩
  | 50 => ⟨S1x64, .f32⟩
  | 51 => ⟨S1x64, .f32⟩
  | 52 => ⟨S1x64, .f32⟩
  | 53 => ⟨S1x1, .f32⟩
  | 54 => ⟨S100000x1, .f32⟩
  | 55 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x1, .f32⟩
  | .local _ .vmem, ⟨37, _⟩ => ⟨S5000x1, .f32⟩
  | .local _ .vmem, ⟨38, _⟩ => ⟨S128x128, .f32⟩
  | .local _ .vmem, ⟨39, _⟩ => ⟨S128x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x1, .f32⟩
  | .local _ .vmem, ⟨52, _⟩ => ⟨S5000x1, .f32⟩
  | .local _ .vmem, ⟨53, _⟩ => ⟨S128x128, .f32⟩
  | .local _ .vmem, ⟨54, _⟩ => ⟨S128x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S128x64, .f32⟩
  | .local _ .vmem, ⟨63, _⟩ => ⟨S1x64, .f32⟩
  | .local _ .vmem, ⟨64, _⟩ => ⟨S1x64, .f32⟩
  | .local _ .vmem, ⟨65, _⟩ => ⟨S1x64, .f32⟩
  | .local _ .vmem, ⟨66, _⟩ => ⟨S1x64, .f32⟩
  | .local _ .vmem, ⟨67, _⟩ => ⟨S1x64, .f32⟩
  | .local _ .vmem, ⟨68, _⟩ => ⟨S64x1, .f32⟩
  | .local _ .vmem, ⟨69, _⟩ => ⟨S1x1, .f32⟩
  | .local _ .vmem, ⟨70, _⟩ => ⟨S5000x1, .f32⟩
  | .local _ .vmem, ⟨71, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_3 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_5 : Ref sig .tc := ⟨.hbm, 71, rfl⟩
abbrev main_v45 : Ref sig .tc := ⟨.hbm, 72, rfl⟩
abbrev main_v46 : Ref sig .tc := ⟨.hbm, 73, rfl⟩
abbrev main_c_6 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_8 : Ref sig .tc := ⟨.hbm, 106, rfl⟩
abbrev main_v77 : Ref sig .tc := ⟨.hbm, 107, rfl⟩
abbrev main_v78 : Ref sig .tc := ⟨.hbm, 108, rfl⟩
abbrev main_c_9 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_10 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_c_11 : Ref sig .tc := ⟨.hbm, 141, rfl⟩
abbrev main_v109 : Ref sig .tc := ⟨.hbm, 142, rfl⟩
abbrev main_v110 : Ref sig .tc := ⟨.hbm, 143, rfl⟩
abbrev main_c_12 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_13 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg10_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg8_0 : Ref sig .tc := ⟨.vmem, 43, rfl⟩
abbrev cc2_stg9_0 : Ref sig .tc := ⟨.vmem, 44, rfl⟩
abbrev cc2_stg10_0 : Ref sig .tc := ⟨.vmem, 45, rfl⟩
abbrev cc2_stg10_1 : Ref sig .tc := ⟨.vmem, 46, rfl⟩
abbrev cc3_stg0_0 : Ref sig .tc := ⟨.vmem, 47, rfl⟩
abbrev cc3_stg0_1 : Ref sig .tc := ⟨.vmem, 48, rfl⟩
abbrev cc3_stg1_0 : Ref sig .tc := ⟨.vmem, 49, rfl⟩
abbrev cc3_stg1_1 : Ref sig .tc := ⟨.vmem, 50, rfl⟩
abbrev cc3_stg2_0 : Ref sig .tc := ⟨.vmem, 51, rfl⟩
abbrev cc3_stg2_1 : Ref sig .tc := ⟨.vmem, 52, rfl⟩
abbrev cc3_stg3_0 : Ref sig .tc := ⟨.vmem, 53, rfl⟩
abbrev cc3_stg4_0 : Ref sig .tc := ⟨.vmem, 54, rfl⟩
abbrev cc3_stg5_0 : Ref sig .tc := ⟨.vmem, 55, rfl⟩
abbrev cc3_stg6_0 : Ref sig .tc := ⟨.vmem, 56, rfl⟩
abbrev cc3_stg7_0 : Ref sig .tc := ⟨.vmem, 57, rfl⟩
abbrev cc3_stg8_0 : Ref sig .tc := ⟨.vmem, 58, rfl⟩
abbrev cc3_stg9_0 : Ref sig .tc := ⟨.vmem, 59, rfl⟩
abbrev cc3_stg10_0 : Ref sig .tc := ⟨.vmem, 60, rfl⟩
abbrev cc3_stg11_0 : Ref sig .tc := ⟨.vmem, 61, rfl⟩
abbrev cc3_stg12_0 : Ref sig .tc := ⟨.vmem, 62, rfl⟩
abbrev cc3_stg13_0 : Ref sig .tc := ⟨.vmem, 63, rfl⟩
abbrev cc3_stg14_0 : Ref sig .tc := ⟨.vmem, 64, rfl⟩
abbrev cc3_stg15_0 : Ref sig .tc := ⟨.vmem, 65, rfl⟩
abbrev cc3_stg16_0 : Ref sig .tc := ⟨.vmem, 66, rfl⟩
abbrev cc3_stg17_0 : Ref sig .tc := ⟨.vmem, 67, rfl⟩
abbrev cc3_stg18_0 : Ref sig .tc := ⟨.vmem, 68, rfl⟩
abbrev cc3_stg19_0 : Ref sig .tc := ⟨.vmem, 69, rfl⟩
abbrev cc3_stg20_0 : Ref sig .tc := ⟨.vmem, 70, rfl⟩
abbrev cc3_stg20_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem10_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem4_0 : DmaSem sig := 39
abbrev cc2_sem5_0 : DmaSem sig := 40
abbrev cc2_sem6_0 : DmaSem sig := 41
abbrev cc2_sem7_0 : DmaSem sig := 42
abbrev cc2_sem8_0 : DmaSem sig := 43
abbrev cc2_sem9_0 : DmaSem sig := 44
abbrev cc2_sem10_0 : DmaSem sig := 45
abbrev cc2_sem10_1 : DmaSem sig := 46
abbrev cc3_sem0_0 : DmaSem sig := 47
abbrev cc3_sem0_1 : DmaSem sig := 48
abbrev cc3_sem1_0 : DmaSem sig := 49
abbrev cc3_sem1_1 : DmaSem sig := 50
abbrev cc3_sem2_0 : DmaSem sig := 51
abbrev cc3_sem2_1 : DmaSem sig := 52
abbrev cc3_sem3_0 : DmaSem sig := 53
abbrev cc3_sem4_0 : DmaSem sig := 54
abbrev cc3_sem5_0 : DmaSem sig := 55
abbrev cc3_sem6_0 : DmaSem sig := 56
abbrev cc3_sem7_0 : DmaSem sig := 57
abbrev cc3_sem8_0 : DmaSem sig := 58
abbrev cc3_sem9_0 : DmaSem sig := 59
abbrev cc3_sem10_0 : DmaSem sig := 60
abbrev cc3_sem11_0 : DmaSem sig := 61
abbrev cc3_sem12_0 : DmaSem sig := 62
abbrev cc3_sem13_0 : DmaSem sig := 63
abbrev cc3_sem14_0 : DmaSem sig := 64
abbrev cc3_sem15_0 : DmaSem sig := 65
abbrev cc3_sem16_0 : DmaSem sig := 66
abbrev cc3_sem17_0 : DmaSem sig := 67
abbrev cc3_sem18_0 : DmaSem sig := 68
abbrev cc3_sem19_0 : DmaSem sig := 69
abbrev cc3_sem20_0 : DmaSem sig := 70
abbrev cc3_sem20_1 : DmaSem sig := 71

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_18 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_19 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_20 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S128x64 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x64 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x64 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S1x64 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S1x64 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 1 → Memref sig .tc .vmem S1x64 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
abbrev reads3_17 : Fin grid3.rank → Bool := ![false]

abbrev stage3_18 : Fin 1 → Memref sig .tc .vmem S64x1 .f32 := fun | 0 => Memref.whole cc3_stg18_0 | ⟨_ + 1, h⟩ => absurd h (Nat.not_lt.2 (Nat.le_add_left _ _))
abbrev sem3_18 : Fin 1 → DmaSem sig := fun | 0 => cc3_sem18_0 | ⟨_ + 1, h⟩ => absurd h (Nat.not_lt.2 (Nat.le_add_left _ _))
abbrev reads3_18 : Fin grid3.rank → Bool := ![false]

abbrev stage3_19 : Fin 1 → Memref sig .tc .vmem S1x1 .f32 := fun | 0 => Memref.whole cc3_stg19_0 | ⟨_ + 1, h⟩ => absurd h (Nat.not_lt.2 (Nat.le_add_left _ _))
abbrev sem3_19 : Fin 1 → DmaSem sig := fun | 0 => cc3_sem19_0 | ⟨_ + 1, h⟩ => absurd h (Nat.not_lt.2 (Nat.le_add_left _ _))
abbrev reads3_19 : Fin grid3.rank → Bool := ![false]

abbrev stage3_20 : Fin 2 → Memref sig .tc .vmem S5000x1 .f32 := fun | 0 => Memref.whole cc3_stg20_0 | 1 => Memref.whole cc3_stg20_1 | ⟨_ + 2, h⟩ => absurd h (Nat.not_lt.2 (Nat.le_add_left _ _))
abbrev sem3_20 : Fin 2 → DmaSem sig := fun | 0 => cc3_sem20_0 | 1 => cc3_sem20_1 | ⟨_ + 2, h⟩ => absurd h (Nat.not_lt.2 (Nat.le_add_left _ _))
abbrev reads3_20 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bitsLt_bf16_f32 : FTy.bits .bf16 < FTy.bits .f32
  bcast_S_S1600000 : S_.BroadcastsInDim S1600000 (![] : Fin 0 → Fin S1600000.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  shapeCasts_S64_S1x64 : S64.ShapeCasts S1x64
  shapeCasts_S1_S1x1 : S1.ShapeCasts S1x1
  reduces_S5000x128_S5000 : S5000x128.Reduces [1] S5000
  shapeCasts_S5000_S5000x1 : S5000.ShapeCasts S5000x1
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S100000x1_S100000 : S100000x1.ShapeCasts S100000
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S100000x128.size a
  hwx0_11 : ∀ i : grid0.Coords, EltTy.bits .f32 = 32 ∨ (Rect.block (s := S100000x128) S5000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S100000x128.size a
  hwx1_10 : ∀ i : grid1.Coords, EltTy.bits .f32 = 32 ∨ (Rect.block (s := S100000x128) S5000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x128.size a ≤ S100000x128.size a
  hwx2_10 : ∀ i : grid2.Coords, EltTy.bits .f32 = 32 ∨ (Rect.block (s := S100000x128) S5000x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x128.size a ≤ S1x128.size a
  hwx3_11 : ∀ i : grid3.Coords, EltTy.bits .f32 = 32 ∨ (Rect.block (s := S1x128) S1x128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S128x64.size a ≤ S128x64.size a
  hwx3_12 : ∀ i : grid3.Coords, EltTy.bits .f32 = 32 ∨ (Rect.block (s := S128x64) S128x64.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x64.size a ≤ S1x64.size a
  hwx3_13 : ∀ i : grid3.Coords, EltTy.bits .f32 = 32 ∨ (Rect.block (s := S1x64) S1x64.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S1x64.size a ≤ S1x64.size a
  hwx3_14 : ∀ i : grid3.Coords, EltTy.bits .f32 = 32 ∨ (Rect.block (s := S1x64) S1x64.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S1x64.size a ≤ S1x64.size a
  hwx3_15 : ∀ i : grid3.Coords, EltTy.bits .f32 = 32 ∨ (Rect.block (s := S1x64) S1x64.size (cc3_transform_15 i) (hinb3_15 i)).WholeWords (EltTy.packing .f32)
  hstage3_16 : ∀ j, (stage3_16 j).IsWhole
  nbuf3_16 : grid3.bufCount reads3_16 true = 1
  hreads3_16 : ∀ i i' : grid3.Coords, (∀ a, reads3_16 a = true → i a = i' a) → cc3_transform_16 i = cc3_transform_16 i'
  hinb3_16 : ∀ (i : grid3.Coords) a, (cc3_transform_16 i a + 1) * S1x64.size a ≤ S1x64.size a
  hwx3_16 : ∀ i : grid3.Coords, EltTy.bits .f32 = 32 ∨ (Rect.block (s := S1x64) S1x64.size (cc3_transform_16 i) (hinb3_16 i)).WholeWords (EltTy.packing .f32)
  hstage3_17 : ∀ j, (stage3_17 j).IsWhole
  nbuf3_17 : grid3.bufCount reads3_17 true = 1
  hreads3_17 : ∀ i i' : grid3.Coords, (∀ a, reads3_17 a = true → i a = i' a) → cc3_transform_17 i = cc3_transform_17 i'
  hinb3_17 : ∀ (i : grid3.Coords) a, (cc3_transform_17 i a + 1) * S1x64.size a ≤ S1x64.size a
  hwx3_17 : ∀ i : grid3.Coords, EltTy.bits .f32 = 32 ∨ (Rect.block (s := S1x64) S1x64.size (cc3_transform_17 i) (hinb3_17 i)).WholeWords (EltTy.packing .f32)
  hstage3_18 : ∀ j, (stage3_18 j).IsWhole
  nbuf3_18 : grid3.bufCount reads3_18 true = 1
  hreads3_18 : ∀ i i' : grid3.Coords, (∀ a, reads3_18 a = true → i a = i' a) → cc3_transform_18 i = cc3_transform_18 i'
  hinb3_18 : ∀ (i : grid3.Coords) a, (cc3_transform_18 i a + 1) * S64x1.size a ≤ S64x1.size a
  hwx3_18 : ∀ i : grid3.Coords, EltTy.bits .f32 = 32 ∨ (Rect.block (s := S64x1) S64x1.size (cc3_transform_18 i) (hinb3_18 i)).WholeWords (EltTy.packing .f32)
  hstage3_19 : ∀ j, (stage3_19 j).IsWhole
  nbuf3_19 : grid3.bufCount reads3_19 true = 1
  hreads3_19 : ∀ i i' : grid3.Coords, (∀ a, reads3_19 a = true → i a = i' a) → cc3_transform_19 i = cc3_transform_19 i'
  hinb3_19 : ∀ (i : grid3.Coords) a, (cc3_transform_19 i a + 1) * S1x1.size a ≤ S1x1.size a
  hwx3_19 : ∀ i : grid3.Coords, EltTy.bits .f32 = 32 ∨ (Rect.block (s := S1x1) S1x1.size (cc3_transform_19 i) (hinb3_19 i)).WholeWords (EltTy.packing .f32)
  hstage3_20 : ∀ j, (stage3_20 j).IsWhole
  nbuf3_20 : grid3.bufCount reads3_20 false = 2
  hreads3_20 : ∀ i i' : grid3.Coords, (∀ a, reads3_20 a = true → i a = i' a) → cc3_transform_20 i = cc3_transform_20 i'
  hinb3_20 : ∀ (i : grid3.Coords) a, (cc3_transform_20 i a + 1) * S5000x1.size a ≤ S100000x1.size a
  hwx3_20 : ∀ i : grid3.Coords, EltTy.bits .f32 = 32 ∨ (Rect.block (s := S100000x1) S5000x1.size (cc3_transform_20 i) (hinb3_20 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v41) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v42) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v43) S5000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v55) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v57) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v70) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v71) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v72) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v73) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v74) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v75) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v87) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v89) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v91) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v102) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v103) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v104) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v105) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v106) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v107) S5000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v119) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v107) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v121) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v123) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v134) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v135) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v136) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v137) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v138) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v139) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v140) S1x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_arg11) S128x64.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v141) S1x64.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v142) S1x64.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_v143) S1x64.size cc3_transform_15 reads3_15 false true 1 stage3_15 sem3_15
    hrank3 hreads3_15 hinb3_15 nbuf3_15 (Memref.isWhole_whole _) hwx3_15 hstage3_15

abbrev win3_16 : Pipeline.Window sig grid3 :=
  Pipeline.Window.ofSpec (Memref.whole main_v144) S1x64.size cc3_transform_16 reads3_16 false true 1 stage3_16 sem3_16
    hrank3 hreads3_16 hinb3_16 nbuf3_16 (Memref.isWhole_whole _) hwx3_16 hstage3_16

abbrev win3_17 : Pipeline.Window sig grid3 :=
  Pipeline.Window.ofSpec (Memref.whole main_v145) S1x64.size cc3_transform_17 reads3_17 false true 1 stage3_17 sem3_17
    hrank3 hreads3_17 hinb3_17 nbuf3_17 (Memref.isWhole_whole _) hwx3_17 hstage3_17

abbrev win3_18 : Pipeline.Window sig grid3 :=
  Pipeline.Window.ofSpec (Memref.whole main_arg17) S64x1.size cc3_transform_18 reads3_18 false true 1 stage3_18 sem3_18
    hrank3 hreads3_18 hinb3_18 nbuf3_18 (Memref.isWhole_whole _) hwx3_18 hstage3_18

abbrev win3_19 : Pipeline.Window sig grid3 :=
  Pipeline.Window.ofSpec (Memref.whole main_v146) S1x1.size cc3_transform_19 reads3_19 false true 1 stage3_19 sem3_19
    hrank3 hreads3_19 hinb3_19 nbuf3_19 (Memref.isWhole_whole _) hwx3_19 hstage3_19

abbrev win3_20 : Pipeline.Window sig grid3 :=
  Pipeline.Window.ofSpec (Memref.whole main_v147) S5000x1.size cc3_transform_20 reads3_20 true false 2 stage3_20 sem3_20
    hrank3 hreads3_20 hinb3_20 nbuf3_20 (Memref.isWhole_whole _) hwx3_20 hstage3_20

abbrev win3 : Fin 21 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | 17 => win3_17 | 18 => win3_18 | 19 => win3_19 | 20 => win3_20 | ⟨_ + 21, h⟩ => absurd h (Nat.not_lt.2 (Nat.le_add_left _ _))
abbrev spec3 : Fin 21 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S4x128x128 : Shape := ⟨3, ![4, 128, 128]⟩
abbrev S4x128 : Shape := ⟨2, ![4, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1x128x128 : Shape := ⟨3, ![1, 128, 128]⟩
abbrev S128x128 : Shape := ⟨2, ![128, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S100000 : Shape := ⟨1, ![100000]⟩
abbrev S100000x64 : Shape := ⟨2, ![100000, 64]⟩
abbrev S1x64 : Shape := ⟨2, ![1, 64]⟩
abbrev S1x1 : Shape := ⟨2, ![1, 1]⟩

abbrev nBuf : Space → Nat
  | .hbm => 323
  | .vmem => 0
  | .smem => 0
  | _ => 0

abbrev hbmTy0_0 (i : Nat) : BufTy := match i % 128 with
  | 0 => ⟨S100000x128, .f32⟩
  | 1 => ⟨S2x1600000, .i32⟩
  | 2 => ⟨S4x128x128, .f32⟩
  | 3 => ⟨S4x128x128, .f32⟩
  | 4 => ⟨S4x128, .f32⟩
  | 5 => ⟨S4x128, .f32⟩
  | 6 => ⟨S4x128, .f32⟩
  | 7 => ⟨S4x128, .f32⟩
  | 8 => ⟨S4x128, .f32⟩
  | 9 => ⟨S128, .f32⟩
  | 10 => ⟨S128, .f32⟩
  | 11 => ⟨S128x64, .f32⟩
  | 12 => ⟨S64, .f32⟩
  | 13 => ⟨S64, .f32⟩
  | 14 => ⟨S64, .f32⟩
  | 15 => ⟨S64, .f32⟩
  | 16 => ⟨S64, .f32⟩
  | 17 => ⟨S64x1, .f32⟩
  | 18 => ⟨S1, .f32⟩
  | 19 => ⟨S1x1600000, .i32⟩
  | 20 => ⟨S1600000, .i32⟩
  | 21 => ⟨S1x1600000, .i32⟩
  | 22 => ⟨S1600000, .i32⟩
  | 23 => ⟨S1x128x128, .f32⟩
  | 24 => ⟨S128x128, .f32⟩
  | 25 => ⟨S1x128x128, .f32⟩
  | 26 => ⟨S128x128, .f32⟩
  | 27 => ⟨S1x128, .f32⟩
  | 28 => ⟨S128, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S_, .f32⟩
  | 43 => ⟨S1600000x1, .f32⟩
  | 44 => ⟨S_, .f32⟩
  | 45 => ⟨S100000x1, .f32⟩
  | 46 => ⟨S1600000x1, .i32⟩
  | 47 => ⟨S100000x1, .f32⟩
  | 48 => ⟨S_, .f32⟩
  | 49 => ⟨S100000x1, .f32⟩
  | 50 => ⟨S100000x1, .f32⟩
  | 51 => ⟨S100000x128, .f32⟩
  | 52 => ⟨S100000x128, .f32⟩
  | 53 => ⟨S100000x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S1x128, .f32⟩
  | 60 => ⟨S128, .f32⟩
  | 61 => ⟨S1x128, .f32⟩
  | 62 => ⟨S128, .f32⟩
  | 63 => ⟨S1x128, .f32⟩
  | 64 => ⟨S128, .f32⟩
  | 65 => ⟨S1x128, .f32⟩
  | 66 => ⟨S128, .f32⟩
  | 67 => ⟨S1x128, .f32⟩
  | 68 => ⟨S100000x128, .f32⟩
  | 69 => ⟨S100000x128, .f32⟩
  | 70 => ⟨S_, .f32⟩
  | 71 => ⟨S128, .f32⟩
  | 72 => ⟨S128, .f32⟩
  | 73 => ⟨S128, .f32⟩
  | 74 => ⟨S128, .f32⟩
  | 75 => ⟨S1x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S1x128x128, .f32⟩
  | 86 => ⟨S128x128, .f32⟩
  | 87 => ⟨S1x128x128, .f32⟩
  | 88 => ⟨S128x128, .f32⟩
  | 89 => ⟨S1x128, .f32⟩
  | 90 => ⟨S128, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S_, .f32⟩
  | 105 => ⟨S1600000x1, .f32⟩
  | 106 => ⟨S_, .f32⟩
  | 107 => ⟨S100000x1, .f32⟩
  | 108 => ⟨S1600000x1, .i32⟩
  | 109 => ⟨S100000x1, .f32⟩
  | 110 => ⟨S_, .f32⟩
  | 111 => ⟨S100000x1, .f32⟩
  | 112 => ⟨S100000x1, .f32⟩
  | 113 => ⟨S100000x128, .f32⟩
  | 114 => ⟨S100000x128, .f32⟩
  | 115 => ⟨S100000x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S1x128, .f32⟩
  | 122 => ⟨S128, .f32⟩
  | 123 => ⟨S1x128, .f32⟩
  | 124 => ⟨S128, .f32⟩
  | 125 => ⟨S1x128, .f32⟩
  | 126 => ⟨S128, .f32⟩
  | 127 => ⟨S1x128, .f32⟩
  | _ => ⟨S100000x128, .f32⟩

abbrev hbmTy0_1 (i : Nat) : BufTy := match i % 128 with
  | 0 => ⟨S128, .f32⟩
  | 1 => ⟨S1x128, .f32⟩
  | 2 => ⟨S100000x128, .f32⟩
  | 3 => ⟨S100000x128, .f32⟩
  | 4 => ⟨S_, .f32⟩
  | 5 => ⟨S128, .f32⟩
  | 6 => ⟨S128, .f32⟩
  | 7 => ⟨S128, .f32⟩
  | 8 => ⟨S128, .f32⟩
  | 9 => ⟨S1x128, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S1x128x128, .f32⟩
  | 19 => ⟨S128x128, .f32⟩
  | 20 => ⟨S1x128x128, .f32⟩
  | 21 => ⟨S128x128, .f32⟩
  | 22 => ⟨S1x128, .f32⟩
  | 23 => ⟨S128, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S_, .f32⟩
  | 34 => ⟨S100000x128, .f32⟩
  | 35 => ⟨S1600000x1, .i32⟩
  | 36 => ⟨S100000x128, .f32⟩
  | 37 => ⟨S_, .f32⟩
  | 38 => ⟨S1600000x1, .f32⟩
  | 39 => ⟨S_, .f32⟩
  | 40 => ⟨S100000x1, .f32⟩
  | 41 => ⟨S1600000x1, .i32⟩
  | 42 => ⟨S100000x1, .f32⟩
  | 43 => ⟨S_, .f32⟩
  | 44 => ⟨S100000x1, .f32⟩
  | 45 => ⟨S100000x1, .f32⟩
  | 46 => ⟨S100000x128, .f32⟩
  | 47 => ⟨S100000x128, .f32⟩
  | 48 => ⟨S100000x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S1x128, .f32⟩
  | 55 => ⟨S128, .f32⟩
  | 56 => ⟨S1x128, .f32⟩
  | 57 => ⟨S128, .f32⟩
  | 58 => ⟨S1x128, .f32⟩
  | 59 => ⟨S128, .f32⟩
  | 60 => ⟨S1x128, .f32⟩
  | 61 => ⟨S128, .f32⟩
  | 62 => ⟨S1x128, .f32⟩
  | 63 => ⟨S100000x128, .f32⟩
  | 64 => ⟨S100000x128, .f32⟩
  | 65 => ⟨S_, .f32⟩
  | 66 => ⟨S128, .f32⟩
  | 67 => ⟨S128, .f32⟩
  | 68 => ⟨S128, .f32⟩
  | 69 => ⟨S128, .f32⟩
  | 70 => ⟨S1x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S1x128x128, .f32⟩
  | 80 => ⟨S128x128, .f32⟩
  | 81 => ⟨S1x128x128, .f32⟩
  | 82 => ⟨S128x128, .f32⟩
  | 83 => ⟨S1x128, .f32⟩
  | 84 => ⟨S128, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x128, .f32⟩
  | 94 => ⟨S_, .f32⟩
  | 95 => ⟨S100000x128, .f32⟩
  | 96 => ⟨S1600000x1, .i32⟩
  | 97 => ⟨S100000x128, .f32⟩
  | 98 => ⟨S_, .f32⟩
  | 99 => ⟨S1600000x1, .f32⟩
  | 100 => ⟨S_, .f32⟩
  | 101 => ⟨S100000x1, .f32⟩
  | 102 => ⟨S1600000x1, .i32⟩
  | 103 => ⟨S100000x1, .f32⟩
  | 104 => ⟨S_, .f32⟩
  | 105 => ⟨S100000x1, .f32⟩
  | 106 => ⟨S100000x1, .f32⟩
  | 107 => ⟨S100000x128, .f32⟩
  | 108 => ⟨S100000x128, .f32⟩
  | 109 => ⟨S100000x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S1x128, .f32⟩
  | 116 => ⟨S128, .f32⟩
  | 117 => ⟨S1x128, .f32⟩
  | 118 => ⟨S128, .f32⟩
  | 119 => ⟨S1x128, .f32⟩
  | 120 => ⟨S128, .f32⟩
  | 121 => ⟨S1x128, .f32⟩
  | 122 => ⟨S128, .f32⟩
  | 123 => ⟨S1x128, .f32⟩
  | 124 => ⟨S100000x128, .f32⟩
  | 125 => ⟨S100000x128, .f32⟩
  | 126 => ⟨S_, .f32⟩
  | 127 => ⟨S128, .f32⟩
  | _ => ⟨S100000x128, .f32⟩

abbrev hbmTy0_2 (i : Nat) : BufTy := match i % 128 with
  | 0 => ⟨S128, .f32⟩
  | 1 => ⟨S128, .f32⟩
  | 2 => ⟨S128, .f32⟩
  | 3 => ⟨S1x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S_, .f32⟩
  | 13 => ⟨S100000, .f32⟩
  | 14 => ⟨S100000x1, .f32⟩
  | 15 => ⟨S_, .f32⟩
  | 16 => ⟨S100000x1, .f32⟩
  | 17 => ⟨S100000x1, .f32⟩
  | 18 => ⟨S100000x128, .f32⟩
  | 19 => ⟨S100000x128, .f32⟩
  | 20 => ⟨S100000x128, .f32⟩
  | 21 => ⟨S_, .f32⟩
  | 22 => ⟨S100000, .f32⟩
  | 23 => ⟨S100000x1, .f32⟩
  | 24 => ⟨S_, .f32⟩
  | 25 => ⟨S100000x1, .f32⟩
  | 26 => ⟨S100000x1, .f32⟩
  | 27 => ⟨S100000x128, .f32⟩
  | 28 => ⟨S100000x128, .f32⟩
  | 29 => ⟨S_, .f32⟩
  | 30 => ⟨S100000x1, .f32⟩
  | 31 => ⟨S100000x1, .f32⟩
  | 32 => ⟨S100000x1, .f32⟩
  | 33 => ⟨S100000x128, .f32⟩
  | 34 => ⟨S100000x128, .f32⟩
  | 35 => ⟨S1x128, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S100000x64, .f32⟩
  | 42 => ⟨S1x64, .f32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S64, .f32⟩
  | 50 => ⟨S64, .f32⟩
  | 51 => ⟨S64, .f32⟩
  | 52 => ⟨S64, .f32⟩
  | 53 => ⟨S1x64, .f32⟩
  | 54 => ⟨S100000x64, .f32⟩
  | 55 => ⟨S100000x64, .f32⟩
  | 56 => ⟨S1x64, .f32⟩
  | 57 => ⟨S100000x64, .f32⟩
  | 58 => ⟨S100000x64, .f32⟩
  | 59 => ⟨S_, .f32⟩
  | 60 => ⟨S100000x64, .f32⟩
  | 61 => ⟨S100000x64, .f32⟩
  | 62 => ⟨S100000x1, .f32⟩
  | 63 => ⟨S1x1, .f32⟩
  | 64 => ⟨S100000x1, .f32⟩
  | 65 => ⟨S100000x1, .f32⟩
  | 66 => ⟨S100000, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c : Ref sig .tc := ⟨.hbm, 29, rfl⟩
abbrev main_v10 : Ref sig .tc := ⟨.hbm, 30, rfl⟩
abbrev main_v11 : Ref sig .tc := ⟨.hbm, 31, rfl⟩
abbrev main_c_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_cst_2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_3 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_4 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call0_cst : Ref sig .tc := ⟨.hbm, 81, rfl⟩
abbrev main_call0_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_5 : Ref sig .tc := ⟨.hbm, 91, rfl⟩
abbrev main_v63 : Ref sig .tc := ⟨.hbm, 92, rfl⟩
abbrev main_v64 : Ref sig .tc := ⟨.hbm, 93, rfl⟩
abbrev main_c_6 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_7 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_8 : Ref sig .tc := ⟨.hbm, 104, rfl⟩
abbrev main_v73 : Ref sig .tc := ⟨.hbm, 105, rfl⟩
abbrev main_cst_9 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_10 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_11 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_call1_cst : Ref sig .tc := ⟨.hbm, 143, rfl⟩
abbrev main_call1_v0 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_c_12 : Ref sig .tc := ⟨.hbm, 152, rfl⟩
abbrev main_v115 : Ref sig .tc := ⟨.hbm, 153, rfl⟩
abbrev main_v116 : Ref sig .tc := ⟨.hbm, 154, rfl⟩
abbrev main_c_13 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_cst_14 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_15 : Ref sig .tc := ⟨.hbm, 165, rfl⟩
abbrev main_v125 : Ref sig .tc := ⟨.hbm, 166, rfl⟩
abbrev main_cst_16 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_17 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_cst_18 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_call2_cst : Ref sig .tc := ⟨.hbm, 204, rfl⟩
abbrev main_call2_v0 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_c_19 : Ref sig .tc := ⟨.hbm, 213, rfl⟩
abbrev main_v167 : Ref sig .tc := ⟨.hbm, 214, rfl⟩
abbrev main_v168 : Ref sig .tc := ⟨.hbm, 215, rfl⟩
abbrev main_c_20 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_cst_21 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_cst_22 : Ref sig .tc := ⟨.hbm, 226, rfl⟩
abbrev main_v177 : Ref sig .tc := ⟨.hbm, 227, rfl⟩
abbrev main_cst_23 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_cst_24 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_cst_25 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_call3_cst : Ref sig .tc := ⟨.hbm, 265, rfl⟩
abbrev main_call3_v0 : Ref sig .tc := ⟨.hbm, 266, rfl⟩
abbrev main_v212 : Ref sig .tc := ⟨.hbm, 267, rfl⟩
abbrev main_cst_26 : Ref sig .tc := ⟨.hbm, 268, rfl⟩
abbrev main_v213 : Ref sig .tc := ⟨.hbm, 269, rfl⟩
abbrev main_v214 : Ref sig .tc := ⟨.hbm, 270, rfl⟩
abbrev main_cst_27 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_cst_28 : Ref sig .tc := ⟨.hbm, 277, rfl⟩
abbrev main_v220 : Ref sig .tc := ⟨.hbm, 278, rfl⟩
abbrev main_v221 : Ref sig .tc := ⟨.hbm, 279, rfl⟩
abbrev main_cst_29 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_cst_30 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_cst_31 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_call4_cst : Ref sig .tc := ⟨.hbm, 315, rfl⟩
abbrev main_call4_v0 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KFrameR0.lean ====
/-
  Region 0 of the kernel program as printed (floats as words), taken by itself: one SAGE layer's kernel over 20 blocks of 5000 node rows. The body loads every
  input block whole, computes the layer on the block and stores the result block whole, so what a grid point leaves in the output's
  staging buffer is one function of the point's input blocks (`out0`), the inputs' buffers are left as found, and the pipeline's
  invariant is just the scoped rest. Stated at any float instance and at any contents `V` of the buffers when the region is entered.
  The node array is handed to this kernel twice — as the layer's own rows and as the residual — so the two input windows that read it
  each hold half of the array's share.
-/
import proofs.«127730_j83451214562002_2_alg».proof.Proof.Gen.Kernel.Launch
import proofs.«127730_j83451214562002_2_alg».proof.Proof.Gen.Kernel.Skeleton
import proofs.«127730_j83451214562002_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the kernel `cc0__sage_kernel_resid` over its grid of 20 row blocks, at the entry contents `V` -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds the window's block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds the window's block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds the window's block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds the window's block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds the window's block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds the window's block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds the window's block at every point, fetched there or not. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's current staging buffer holds the window's block at every point, fetched there or not. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

abbrev r0_S5000x128 : Rect S5000x128 := Rect.unit (s := S5000x128) ![0, 0] S5000x128.size inb_S5000x128_S5000x128_0_0
abbrev r0_S5000x1 : Rect S5000x1 := Rect.unit (s := S5000x1) ![0, 0] S5000x1.size inb_S5000x1_S5000x1_0_0
abbrev r0_S128x128 : Rect S128x128 := Rect.unit (s := S128x128) ![0, 0] S128x128.size inb_S128x128_S128x128_0_0
abbrev r0_S1x128 : Rect S1x128 := Rect.unit (s := S1x128) ![0, 0] S1x128.size inb_S1x128_S1x128_0_0

/-- The output block after the body, from the input blocks: the body's one store, of the layer's arithmetic on the loaded blocks. -/
def out0_11 (x0 : Vec F S5000x128 .f32) (x1 : Vec F S5000x128 .f32) (x2 : Vec F S5000x1 .f32) (x3 : Vec F S5000x128 .f32) (x4 : Vec F S128x128 .f32) (x5 : Vec F S128x128 .f32) (x6 : Vec F S1x128 .f32) (x7 : Vec F S1x128 .f32) (x8 : Vec F S1x128 .f32) (x9 : Vec F S1x128 .f32) (x10 : Vec F S1x128 .f32) : Vec F S5000x128 .f32 :=
  View.canon [⟨r0_S5000x128, k0_pay1 (k0_pay2 (View.ld x0 r0_S5000x128) (View.ld x2 r0_S5000x1) (View.ld x1 r0_S5000x128) (View.ld x4 r0_S128x128) (View.ld x5 r0_S128x128) (View.ld x6 r0_S1x128) (View.ld x7 r0_S1x128) (View.ld x10 r0_S1x128) (View.ld x9 r0_S1x128) (View.ld x8 r0_S1x128)) (View.ld x3 r0_S5000x128)⟩]

/-- The store covers the whole block. -/
theorem cover0_11 (p0 : Vec F S5000x128 .f32) (y : S5000x128.Idx) :
    ∃ pc ∈ ([⟨r0_S5000x128, p0⟩] : List (View.Piece (Elt F) S5000x128 .f32)), y ∈ pc.1.set :=
  View.cover_of_tiled [⟨r0_S5000x128, p0⟩] S5000x128.size (by rfl) y

set_option maxHeartbeats 4000000 in
/-- The body on whole staging buffers: the inputs' at contents `x`, the output's at anything, runs to the continuation with the inputs'
    as they were and the output's at `out0_11` of the inputs'. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S5000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S5000x128 .f32) (harg12 : arg12.IsWhole)
    (x0 : Vec F S5000x128 .f32) (x1 : Vec F S5000x128 .f32) (x2 : Vec F S5000x1 .f32) (x3 : Vec F S5000x128 .f32) (x4 : Vec F S128x128 .f32) (x5 : Vec F S128x128 .f32) (x6 : Vec F S1x128 .f32) (x7 : Vec F S1x128 .f32) (x8 : Vec F S1x128 .f32) (x9 : Vec F S1x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__sage_kernel_resid i arg1 harg1 arg2 harg2 arg3 harg3 arg4 harg4 arg5 harg5 arg6 harg6 arg7 harg7 arg8 harg8 arg9 harg9 arg10 harg10 arg11 harg11 arg12 harg12) K := by
  simp only [cc0__sage_kernel_resid_eq_skeleton]; unfold cc0__sage_kernel_resid_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0
  subst hf1
  subst hf2
  subst hf3
  subst hf4
  subst hf5
  subst hf6
  subst hf7
  subst hf8
  subst hf9
  subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover0_11 _)

/-- The proof data of region 0 on core `c`: the arrays as the region finds them; after the body at point `t` each input's buffer still at its
    block and the output's at `out0_11` of the input blocks; the invariant the scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q w := match w with | ⟨1, _⟩ => PosShare.left fullShare | ⟨3, _⟩ => PosShare.right fullShare | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' buffers hold their blocks, so the body's triple applies; the invariant and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KFrameR1.lean ====
/-
  Region 1 of the kernel program as printed (floats as words), taken by itself: one SAGE layer's kernel over 20 blocks of 5000 node rows. The body loads every
  input block whole, computes the layer on the block and stores the result block whole, so what a grid point leaves in the output's
  staging buffer is one function of the point's input blocks (`out1`), the inputs' buffers are left as found, and the pipeline's
  invariant is just the scoped rest. Stated at any float instance and at any contents `V` of the buffers when the region is entered.
-/
import proofs.«127730_j83451214562002_2_alg».proof.Proof.Gen.Kernel.Launch
import proofs.«127730_j83451214562002_2_alg».proof.Proof.Gen.Kernel.Skeleton
import proofs.«127730_j83451214562002_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the kernel `cc1__sage_kernel` over its grid of 20 row blocks, at the entry contents `V` -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds the window's block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds the window's block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds the window's block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds the window's block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds the window's block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

abbrev r1_S5000x128 : Rect S5000x128 := Rect.unit (s := S5000x128) ![0, 0] S5000x128.size inb_S5000x128_S5000x128_0_0
abbrev r1_S5000x1 : Rect S5000x1 := Rect.unit (s := S5000x1) ![0, 0] S5000x1.size inb_S5000x1_S5000x1_0_0
abbrev r1_S128x128 : Rect S128x128 := Rect.unit (s := S128x128) ![0, 0] S128x128.size inb_S128x128_S128x128_0_0
abbrev r1_S1x128 : Rect S1x128 := Rect.unit (s := S1x128) ![0, 0] S1x128.size inb_S1x128_S1x128_0_0

/-- The output block after the body, from the input blocks: the body's one store, of the layer's arithmetic on the loaded blocks. -/
def out1_10 (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) : Vec F S5000x128 .f32 :=
  View.canon [⟨r1_S5000x128, k1_pay1 (k1_pay2 (View.ld x0 r1_S5000x128) (View.ld x2 r1_S5000x1) (View.ld x1 r1_S5000x128) (View.ld x3 r1_S128x128) (View.ld x4 r1_S128x128) (View.ld x5 r1_S1x128) (View.ld x6 r1_S1x128) (View.ld x9 r1_S1x128) (View.ld x8 r1_S1x128)) (k1_pay3 (View.ld x7 r1_S1x128))⟩]

/-- The store covers the whole block. -/
theorem cover1_10 (p0 : Vec F S5000x128 .f32) (y : S5000x128.Idx) :
    ∃ pc ∈ ([⟨r1_S5000x128, p0⟩] : List (View.Piece (Elt F) S5000x128 .f32)), y ∈ pc.1.set :=
  View.cover_of_tiled [⟨r1_S5000x128, p0⟩] S5000x128.size (by rfl) y

set_option maxHeartbeats 4000000 in
/-- The body on whole staging buffers: the inputs' at contents `x`, the output's at anything, runs to the continuation with the inputs'
    as they were and the output's at `out1_10` of the inputs'. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S5000x128 .f32) (harg11 : arg11.IsWhole)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x2 x3 x4 x5 x6 x7 x8 x9)) -∗ K ⟨⟩))
      ⊢ wp frame (wpE (defs₀ (F := F)) Variants.none c none) E (cc1__sage_kernel i arg1 harg1 arg2 harg2 arg3 harg3 arg4 harg4 arg5 harg5 arg6 harg6 arg7 harg7 arg8 harg8 arg9 harg9 arg10 harg10 arg11 harg11) K := by
  simp only [cc1__sage_kernel_eq_skeleton]; unfold cc1__sage_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-- The proof data of region 1 on core `c`: the arrays as the region finds them; after the body at point `t` each input's buffer still at its
    block and the output's at `out1_10` of the input blocks; the invariant the scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' buffers hold their blocks, so the body's triple applies; the invariant and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KFrameR2.lean ====
/-
  Region 2 of the kernel program as printed (floats as words), taken by itself: one SAGE layer's kernel over 20 blocks of 5000 node rows. The body loads every
  input block whole, computes the layer on the block and stores the result block whole, so what a grid point leaves in the output's
  staging buffer is one function of the point's input blocks (`out2`), the inputs' buffers are left as found, and the pipeline's
  invariant is just the scoped rest. Stated at any float instance and at any contents `V` of the buffers when the region is entered.
-/
import proofs.«127730_j83451214562002_2_alg».proof.Proof.Gen.Kernel.Launch
import proofs.«127730_j83451214562002_2_alg».proof.Proof.Gen.Kernel.Skeleton
import proofs.«127730_j83451214562002_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the kernel `cc2__sage_kernel` over its grid of 20 row blocks, at the entry contents `V` -/

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds the window's block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds the window's block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds the window's block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds the window's block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds the window's block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds the window's block at every point, fetched there or not. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds the window's block at every point, fetched there or not. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

abbrev r2_S5000x128 : Rect S5000x128 := Rect.unit (s := S5000x128) ![0, 0] S5000x128.size inb_S5000x128_S5000x128_0_0
abbrev r2_S5000x1 : Rect S5000x1 := Rect.unit (s := S5000x1) ![0, 0] S5000x1.size inb_S5000x1_S5000x1_0_0
abbrev r2_S128x128 : Rect S128x128 := Rect.unit (s := S128x128) ![0, 0] S128x128.size inb_S128x128_S128x128_0_0
abbrev r2_S1x128 : Rect S1x128 := Rect.unit (s := S1x128) ![0, 0] S1x128.size inb_S1x128_S1x128_0_0

/-- The output block after the body, from the input blocks: the body's one store, of the layer's arithmetic on the loaded blocks. -/
def out2_10 (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) : Vec F S5000x128 .f32 :=
  View.canon [⟨r2_S5000x128, k2_pay1 (k2_pay2 (View.ld x0 r2_S5000x128) (View.ld x2 r2_S5000x1) (View.ld x1 r2_S5000x128) (View.ld x3 r2_S128x128) (View.ld x4 r2_S128x128) (View.ld x5 r2_S1x128) (View.ld x6 r2_S1x128) (View.ld x9 r2_S1x128) (View.ld x8 r2_S1x128)) (k2_pay3 (View.ld x7 r2_S1x128))⟩]

/-- The store covers the whole block. -/
theorem cover2_10 (p0 : Vec F S5000x128 .f32) (y : S5000x128.Idx) :
    ∃ pc ∈ ([⟨r2_S5000x128, p0⟩] : List (View.Piece (Elt F) S5000x128 .f32)), y ∈ pc.1.set :=
  View.cover_of_tiled [⟨r2_S5000x128, p0⟩] S5000x128.size (by rfl) y

set_option maxHeartbeats 4000000 in
/-- The body on whole staging buffers: the inputs' at contents `x`, the output's at anything, runs to the continuation with the inputs'
    as they were and the output's at `out2_10` of the inputs'. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S5000x128 .f32) (harg11 : arg11.IsWhole)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x0 x1 x2 x3 x4 x5 x6 x7 x8 x9)) -∗ K ⟨⟩))
      ⊢ wp frame (wpE (defs₀ (F := F)) Variants.none c none) E (cc2__sage_kernel i arg1 harg1 arg2 harg2 arg3 harg3 arg4 harg4 arg5 harg5 arg6 harg6 arg7 harg7 arg8 harg8 arg9 harg9 arg10 harg10 arg11 harg11) K := by
  simp only [cc2__sage_kernel_eq_skeleton]; unfold cc2__sage_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_10 _)

/-- The proof data of region 2 on core `c`: the arrays as the region finds them; after the body at point `t` each input's buffer still at its
    block and the output's at `out2_10` of the input blocks; the invariant the scoped rest and the generator register; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

/-- The body at any point: the inputs' buffers hold their blocks, so the body's triple applies; the invariant and what the core owes pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KFrameR3.lean ====
/-
  Region 3 of the kernel program as printed (floats as words), taken by itself: the last SAGE layer fused with the layer normalisation and the two-step head, over 20
  blocks of 5000 node rows. The body loads every input block whole, computes one output column per row and stores it whole, so what a
  grid point leaves in the output's staging buffer is one function of the point's input blocks (`out3`), the inputs' buffers are left as
  found, and the pipeline's invariant is just the scoped rest. Stated at any float instance and at any contents `V` of the buffers when
  the region is entered.
-/
import proofs.«127730_j83451214562002_2_alg».proof.Proof.Gen.Kernel.Launch
import proofs.«127730_j83451214562002_2_alg».proof.Proof.Gen.Kernel.Skeleton
import proofs.«127730_j83451214562002_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the kernel `cc3__sage_head_kernel` over its grid of 20 row blocks, at the entry contents `V` -/

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds the window's block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds the window's block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds the window's block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds the window's block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds the window's block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds the window's block at every point, fetched there or not. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds the window's block at every point, fetched there or not. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds the window's block at every point, fetched there or not. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds the window's block at every point, fetched there or not. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's current staging buffer holds the window's block at every point, fetched there or not. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- Input window 10's current staging buffer holds the window's block at every point, fetched there or not. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-- Input window 11's current staging buffer holds the window's block at every point, fetched there or not. -/
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)

/-- Input window 12's current staging buffer holds the window's block at every point, fetched there or not. -/
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)

/-- Input window 13's current staging buffer holds the window's block at every point, fetched there or not. -/
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)

/-- Input window 14's current staging buffer holds the window's block at every point, fetched there or not. -/
theorem before3_14_of {c : Dev nD} (dat : Dat τ (Elt F) Unit ℕ (UR sig nD τ) ℕ cfg3 c) (hA : dat.A 14 = V c (Pipeline.arrRef spec3 14))
    (hafter : ∀ t, dat.after 14 t = iblk3 V c 14 t) (t : Fin cfg3.N) (d) : dat.before 14 t d = iblk3 V c 14 t :=
  (dat.before_in_eq_fetched 14 rfl (fun _ => rfl) (fun _ _ _ => rfl) (fun t => by rw [hafter]; unfold Dat.blockOf iblk3; rw [hA]; try rfl) t d).trans
    (by unfold Dat.fetched Dat.blockOf iblk3; rw [hA]; try rfl)

/-- Input window 15's current staging buffer holds the window's block at every point, fetched there or not. -/
theorem before3_15_of {c : Dev nD} (dat : Dat τ (Elt F) Unit ℕ (UR sig nD τ) ℕ cfg3 c) (hA : dat.A 15 = V c (Pipeline.arrRef spec3 15))
    (hafter : ∀ t, dat.after 15 t = iblk3 V c 15 t) (t : Fin cfg3.N) (d) : dat.before 15 t d = iblk3 V c 15 t :=
  (dat.before_in_eq_fetched 15 rfl (fun _ => rfl) (fun _ _ _ => rfl) (fun t => by rw [hafter]; unfold Dat.blockOf iblk3; rw [hA]; try rfl) t d).trans
    (by unfold Dat.fetched Dat.blockOf iblk3; rw [hA]; try rfl)

/-- Input window 16's current staging buffer holds the window's block at every point, fetched there or not. -/
theorem before3_16_of {c : Dev nD} (dat : Dat τ (Elt F) Unit ℕ (UR sig nD τ) ℕ cfg3 c) (hA : dat.A 16 = V c (Pipeline.arrRef spec3 16))
    (hafter : ∀ t, dat.after 16 t = iblk3 V c 16 t) (t : Fin cfg3.N) (d) : dat.before 16 t d = iblk3 V c 16 t :=
  (dat.before_in_eq_fetched 16 rfl (fun _ => rfl) (fun _ _ _ => rfl) (fun t => by rw [hafter]; unfold Dat.blockOf iblk3; rw [hA]; try rfl) t d).trans
    (by unfold Dat.fetched Dat.blockOf iblk3; rw [hA]; try rfl)

/-- Input window 17's current staging buffer holds the window's block at every point, fetched there or not. -/
theorem before3_17_of {c : Dev nD} (dat : Dat τ (Elt F) Unit ℕ (UR sig nD τ) ℕ cfg3 c) (hA : dat.A 17 = V c (Pipeline.arrRef spec3 17))
    (hafter : ∀ t, dat.after 17 t = iblk3 V c 17 t) (t : Fin cfg3.N) (d) : dat.before 17 t d = iblk3 V c 17 t :=
  (dat.before_in_eq_fetched 17 rfl (fun _ => rfl) (fun _ _ _ => rfl) (fun t => by rw [hafter]; unfold Dat.blockOf iblk3; rw [hA]; try rfl) t d).trans
    (by unfold Dat.fetched Dat.blockOf iblk3; rw [hA]; try rfl)

/-- Input window 18's current staging buffer holds the window's block at every point, fetched there or not. -/
theorem before3_18_of {c : Dev nD} (dat : Dat τ (Elt F) Unit ℕ (UR sig nD τ) ℕ cfg3 c) (hA : dat.A 18 = V c (Pipeline.arrRef spec3 18))
    (hafter : ∀ t, dat.after 18 t = iblk3 V c 18 t) (t : Fin cfg3.N) (d) : dat.before 18 t d = iblk3 V c 18 t :=
  (dat.before_in_eq_fetched 18 rfl (fun _ => rfl) (fun _ _ _ => rfl) (fun t => by rw [hafter]; unfold Dat.blockOf iblk3; rw [hA]; try rfl) t d).trans
    (by unfold Dat.fetched Dat.blockOf iblk3; rw [hA]; try rfl)

/-- Input window 19's current staging buffer holds the window's block at every point, fetched there or not. -/
theorem before3_19_of {c : Dev nD} (dat : Dat τ (Elt F) Unit ℕ (UR sig nD τ) ℕ cfg3 c) (hA : dat.A 19 = V c (Pipeline.arrRef spec3 19))
    (hafter : ∀ t, dat.after 19 t = iblk3 V c 19 t) (t : Fin cfg3.N) (d) : dat.before 19 t d = iblk3 V c 19 t :=
  (dat.before_in_eq_fetched 19 rfl (fun _ => rfl) (fun _ _ _ => rfl) (fun t => by rw [hafter]; unfold Dat.blockOf iblk3; rw [hA]; try rfl) t d).trans
    (by unfold Dat.fetched Dat.blockOf iblk3; rw [hA]; try rfl)

abbrev r3_S5000x128 : Rect S5000x128 := Rect.unit (s := S5000x128) ![0, 0] S5000x128.size inb_S5000x128_S5000x128_0_0
abbrev r3_S5000x1 : Rect S5000x1 := Rect.unit (s := S5000x1) ![0, 0] S5000x1.size inb_S5000x1_S5000x1_0_0
abbrev r3_S128x128 : Rect S128x128 := Rect.unit (s := S128x128) ![0, 0] S128x128.size inb_S128x128_S128x128_0_0
abbrev r3_S1x128 : Rect S1x128 := Rect.unit (s := S1x128) ![0, 0] S1x128.size inb_S1x128_S1x128_0_0
abbrev r3_S128x64 : Rect S128x64 := Rect.unit (s := S128x64) ![0, 0] S128x64.size inb_S128x64_S128x64_0_0
abbrev r3_S1x64 : Rect S1x64 := Rect.unit (s := S1x64) ![0, 0] S1x64.size inb_S1x64_S1x64_0_0
abbrev r3_S64x1 : Rect S64x1 := Rect.unit (s := S64x1) ![0, 0] S64x1.size inb_S64x1_S64x1_0_0
abbrev r3_S1x1 : Rect S1x1 := Rect.unit (s := S1x1) ![0, 0] S1x1.size inb_S1x1_S1x1_0_0

/-- The output block after the body, from the input blocks: the body's one store, of the layer's arithmetic on the loaded blocks. -/
def out3_20 (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) (x11 : Vec F S1x128 .f32) (x12 : Vec F S128x64 .f32) (x13 : Vec F S1x64 .f32) (x14 : Vec F S1x64 .f32) (x15 : Vec F S1x64 .f32) (x16 : Vec F S1x64 .f32) (x17 : Vec F S1x64 .f32) (x18 : Vec F S64x1 .f32) (x19 : Vec F S1x1 .f32) : Vec F S5000x1 .f32 :=
  View.canon [⟨r3_S5000x1, k3_pay1 (k3_pay4 (k3_pay2 (View.ld x0 r3_S5000x128) (View.ld x2 r3_S5000x1) (View.ld x1 r3_S5000x128) (View.ld x3 r3_S128x128) (View.ld x4 r3_S128x128) (View.ld x5 r3_S1x128) (View.ld x6 r3_S1x128) (View.ld x9 r3_S1x128) (View.ld x8 r3_S1x128)) (k3_pay3 (View.ld x7 r3_S1x128)) (View.ld x10 r3_S1x128) (View.ld x11 r3_S1x128) (View.ld x12 r3_S128x64) (View.ld x13 r3_S1x64)) (k3_pay5 (View.ld x14 r3_S1x64)) (k3_pay6 (View.ld x17 r3_S1x64)) (k3_pay7 (F := F)) (View.ld x16 r3_S1x64) (View.ld x15 r3_S1x64) (View.ld x18 r3_S64x1) (View.ld x19 r3_S1x1)⟩]

/-- The store covers the whole block. -/
theorem cover3_20 (p0 : Vec F S5000x1 .f32) (y : S5000x1.Idx) :
    ∃ pc ∈ ([⟨r3_S5000x1, p0⟩] : List (View.Piece (Elt F) S5000x1 .f32)), y ∈ pc.1.set :=
  View.cover_of_tiled [⟨r3_S5000x1, p0⟩] S5000x1.size (by rfl) y

set_option maxHeartbeats 4000000 in
/-- The body on whole staging buffers: the inputs' at contents `x`, the output's at anything, runs to the continuation with the inputs'
    as they were and the output's at `out3_20` of the inputs'. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S1x64 .f32) (harg18 : arg18.IsWhole) (arg19 : Memref sig .tc .vmem S64x1 .f32) (harg19 : arg19.IsWhole) (arg20 : Memref sig .tc .vmem S1x1 .f32) (harg20 : arg20.IsWhole) (arg21 : Memref sig .tc .vmem S5000x1 .f32) (harg21 : arg21.IsWhole)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) (x11 : Vec F S1x128 .f32) (x12 : Vec F S128x64 .f32) (x13 : Vec F S1x64 .f32) (x14 : Vec F S1x64 .f32) (x15 : Vec F S1x64 .f32) (x16 : Vec F S1x64 .f32) (x17 : Vec F S1x64 .f32) (x18 : Vec F S64x1 .f32) (x19 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare (out3_20 x0 x1 x2 x3 x4 x5 x6 x7 x8 x9 x10 x11 x12 x13 x14 x15 x16 x17 x18 x19)) -∗ K ⟨⟩))
      ⊢ wp frame (wpE (defs₀ (F := F)) Variants.none c none) E (cc3__sage_head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc3__sage_head_kernel_eq_skeleton]; unfold cc3__sage_head_kernel_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, Hk⟩
  subst hf0
  subst hf1
  subst hf2
  subst hf3
  subst hf4
  subst hf5
  subst hf6
  subst hf7
  subst hf8
  subst hf9
  subst hf10
  subst hf11
  subst hf12
  subst hf13
  subst hf14
  subst hf15
  subst hf16
  subst hf17
  subst hf18
  subst hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  iexists _; isplitr
  swap; · iexact H20
  ipureintro
  exact View.read_writes_eq_canon _ _ _ (cover3_20 _)

/-- The proof data of region 3 on core `c`: the arrays as the region finds them; after the body at point `t` each input's buffer still at its
    block and the output's at `out3_20` of the input blocks; the invariant the scoped rest and the generator register; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => iblk3 V c 16 t
    | ⟨17, _⟩ => iblk3 V c 17 t
    | ⟨18, _⟩ => iblk3 V c 18 t
    | ⟨19, _⟩ => iblk3 V c 19 t
    | ⟨20, _⟩ => out3_20 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t)
    | ⟨n + 21, h⟩ => absurd h (Nat.not_lt.mpr (Nat.le_add_left 21 n))
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = iblk3 V c 15 t := by dsimp only [dat3]
theorem after3_16 (c : Dev nD) (t : Fin cfg3.N) : (dat3 V c).after 16 t = iblk3 V c 16 t := by dsimp only [dat3]
theorem after3_17 (c : Dev nD) (t : Fin cfg3.N) : (dat3 V c).after 17 t = iblk3 V c 17 t := by dsimp only [dat3]
theorem after3_18 (c : Dev nD) (t : Fin cfg3.N) : (dat3 V c).after 18 t = iblk3 V c 18 t := by dsimp only [dat3]
theorem after3_19 (c : Dev nD) (t : Fin cfg3.N) : (dat3 V c).after 19 t = iblk3 V c 19 t := by dsimp only [dat3]
theorem after3_20 (c : Dev nD) (t : Fin cfg3.N) : (dat3 V c).after 20 t = out3_20 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d
theorem before3_14 (c : Dev nD) (t : Fin cfg3.N) (d) : (dat3 V c).before 14 t d = iblk3 V c 14 t :=
  before3_14_of V (dat3 V c) (A_eq3 V c 14) (after3_14 V c) t d
theorem before3_15 (c : Dev nD) (t : Fin cfg3.N) (d) : (dat3 V c).before 15 t d = iblk3 V c 15 t :=
  before3_15_of V (dat3 V c) (A_eq3 V c 15) (after3_15 V c) t d
theorem before3_16 (c : Dev nD) (t : Fin cfg3.N) (d) : (dat3 V c).before 16 t d = iblk3 V c 16 t :=
  before3_16_of V (dat3 V c) (A_eq3 V c 16) (after3_16 V c) t d
theorem before3_17 (c : Dev nD) (t : Fin cfg3.N) (d) : (dat3 V c).before 17 t d = iblk3 V c 17 t :=
  before3_17_of V (dat3 V c) (A_eq3 V c 17) (after3_17 V c) t d
theorem before3_18 (c : Dev nD) (t : Fin cfg3.N) (d) : (dat3 V c).before 18 t d = iblk3 V c 18 t :=
  before3_18_of V (dat3 V c) (A_eq3 V c 18) (after3_18 V c) t d
theorem before3_19 (c : Dev nD) (t : Fin cfg3.N) (d) : (dat3 V c).before 19 t d = iblk3 V c 19 t :=
  before3_19_of V (dat3 V c) (A_eq3 V c 19) (after3_19 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d))
    ∗ (∃ d, owns (c : Thread nD τ) (st3_17 t) fullShare ((dat3 V c).before 17 t d))
    ∗ (∃ d, owns (c : Thread nD τ) (st3_18 t) fullShare ((dat3 V c).before 18 t d))
    ∗ (∃ d, owns (c : Thread nD τ) (st3_19 t) fullShare ((dat3 V c).before 19 t d))
    ∗ (∃ d, owns (c : Thread nD τ) (st3_20 t) fullShare ((dat3 V c).before 20 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t)
    ∗ owns (c : Thread nD τ) (st3_16 t) fullShare ((dat3 V c).after 16 t)
    ∗ owns (c : Thread nD τ) (st3_17 t) fullShare ((dat3 V c).after 17 t)
    ∗ owns (c : Thread nD τ) (st3_18 t) fullShare ((dat3 V c).after 18 t)
    ∗ owns (c : Thread nD τ) (st3_19 t) fullShare ((dat3 V c).after 19 t)
    ∗ owns (c : Thread nD τ) (st3_20 t) fullShare ((dat3 V c).after 20 t))

/-- The body at any point: the inputs' buffers hold their blocks, so the body's triple applies; the invariant and what the core owes pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13, before3_14, before3_15, before3_16, before3_17, before3_18, before3_19]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15, after3_16, after3_17, after3_18, after3_19, after3_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel3 c Set.univ _ _ _ _ _ _ _ _ _ _ _ _ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body obligation of region 3, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KFrameShare0.lean ====
/-
  Region 0's arrays in and out of a core's unscoped buffers. The node array is read through two input windows (the layer's own rows
  and the residual), so of the eleven distinct buffers behind the twelve windows' arrays the node array's full share is dealt half and
  half between those two windows on entry, and the halves — both still at the entry contents, input windows never writing back — are
  joined again on exit. Every other array is a buffer of its own held whole.
-/
import proofs.«127730_j83451214562002_2_alg».proof.Proof.Gen.Kernel.Launch
import proofs.«127730_j83451214562002_2_alg».proof.Proof.Gen.Kernel.Skeleton
import proofs.«127730_j83451214562002_2_alg».proof.Proof.Gen.Kernel.Points
import proofs.«127730_j83451214562002_2_alg».proof.Proof.KFrameR0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Listed
open Idealize.ShloMosaic.Pipeline in
theorem arrBufs_eq_of_list' {gr : Nat} {W : Nat} (win : Fin W → Pipeline.WinSpec sig gr) (c : Dev nD)
    (V : (b : Ref sig .tc) → Buf (Elt F) ((c.tc : Thread nD τ).loc b)) (l : List (Ref sig .tc))
    (h : Finset.univ.image (Pipeline.arrRef win) = l.toFinset) (hl : l.Nodup) :
    (Pipeline.arrBufs (Ix := Unit) (Name := ℕ) (U := UR sig nD τ) (Lvl := ℕ) win c V : sProp 𝕄)
      = bigSepL l fun b => ((c.tc : Thread nD τ).loc b) ↦{fullShare} V b := by
  unfold Pipeline.arrBufs; exact bigSep_eq_bigSepL_of_eq l h hl _
end Listed
/-- Two windows of region 0 on one array are both inputs (the node array, read as the layer's rows and as the residual). -/
theorem arr_coll0 : ∀ w w' : Fin 12, Pipeline.arrRef spec0 w' = Pipeline.arrRef spec0 w →
    w' = w ∨ ((cfg0.win w').isOut = false ∧ (cfg0.win w).isOut = false) := by decide

/-- The twelve arrays at their shares, window by window, over contents read off one valuation of the buffers. -/
theorem arrays0_eq (c : Dev nD) (A : (w : Fin cfg0.W) → Buf (Elt F) ((cfg0.win w).arr.view.loc (c : Thread nD τ)))
    (U : (b : Ref sig .tc) → Buf (Elt F) ((c : Thread nD τ).loc b)) (hA : ∀ w, A w = U (Pipeline.arrRef spec0 w)) :
    ((dat0 V c).arrays A : sProp 𝕄) = bigSep Finset.univ fun w : Fin cfg0.W =>
      ((((c : Thread nD τ).loc (Pipeline.arrRef spec0 w)) ↦{(dat0 V c).share w} U (Pipeline.arrRef spec0 w)) : sProp 𝕄) := by
  unfold Dat.arrays
  exact bigSep_congr fun w _ => by rw [(arr_whole0 w).set_eq_univ, hA w]

/-- The eleven distinct buffers behind region 0's arrays, whole at contents `U`, as a chain. -/
theorem arrBufs0_chain (c : Dev nD) (U : (b : Ref sig .tc) → Buf (Elt F) ((c : Thread nD τ).loc b)) :
    (Pipeline.arrBufs spec0 c U : sProp 𝕄) = iprop((((c : Thread nD τ).loc main_v23) ↦{fullShare} U main_v23)
      ∗ (((c : Thread nD τ).loc main_arg0) ↦{fullShare} U main_arg0)
      ∗ (((c : Thread nD τ).loc main_v11) ↦{fullShare} U main_v11)
      ∗ (((c : Thread nD τ).loc main_v25) ↦{fullShare} U main_v25)
      ∗ (((c : Thread nD τ).loc main_v27) ↦{fullShare} U main_v27)
      ∗ (((c : Thread nD τ).loc main_v38) ↦{fullShare} U main_v38)
      ∗ (((c : Thread nD τ).loc main_v39) ↦{fullShare} U main_v39)
      ∗ (((c : Thread nD τ).loc main_v40) ↦{fullShare} U main_v40)
      ∗ (((c : Thread nD τ).loc main_v41) ↦{fullShare} U main_v41)
      ∗ (((c : Thread nD τ).loc main_v42) ↦{fullShare} U main_v42)
      ∗ (((c : Thread nD τ).loc main_v43) ↦{fullShare} U main_v43)) := by
  rw [arrBufs_eq_of_list' spec0 c U [main_v23, main_arg0, main_v11, main_v25, main_v27, main_v38, main_v39, main_v40, main_v41, main_v42, main_v43] (by decide) (by decide)]
  rfl

/-- Region 0's twelve arrays at contents read off `U`, as a chain: the node array at half a share twice. -/
theorem arrays0_chain (c : Dev nD) (A : (w : Fin cfg0.W) → Buf (Elt F) ((cfg0.win w).arr.view.loc (c : Thread nD τ)))
    (U : (b : Ref sig .tc) → Buf (Elt F) ((c : Thread nD τ).loc b)) (hA : ∀ w, A w = U (Pipeline.arrRef spec0 w)) :
    ((dat0 V c).arrays A : sProp 𝕄) = iprop((((c : Thread nD τ).loc main_v23) ↦{fullShare} U main_v23)
      ∗ (((c : Thread nD τ).loc main_arg0) ↦{PosShare.left fullShare} U main_arg0)
      ∗ (((c : Thread nD τ).loc main_v11) ↦{fullShare} U main_v11)
      ∗ (((c : Thread nD τ).loc main_arg0) ↦{PosShare.right fullShare} U main_arg0)
      ∗ (((c : Thread nD τ).loc main_v25) ↦{fullShare} U main_v25)
      ∗ (((c : Thread nD τ).loc main_v27) ↦{fullShare} U main_v27)
      ∗ (((c : Thread nD τ).loc main_v38) ↦{fullShare} U main_v38)
      ∗ (((c : Thread nD τ).loc main_v39) ↦{fullShare} U main_v39)
      ∗ (((c : Thread nD τ).loc main_v40) ↦{fullShare} U main_v40)
      ∗ (((c : Thread nD τ).loc main_v41) ↦{fullShare} U main_v41)
      ∗ (((c : Thread nD τ).loc main_v42) ↦{fullShare} U main_v42)
      ∗ (((c : Thread nD τ).loc main_v43) ↦{fullShare} U main_v43)) := by
  rw [arrays0_eq V c A U hA, bigSep_W0]
  rfl

/-- ENTRY: the eleven buffers behind region 0's arrays, whole at contents `U`, make the region's arrays at those contents. -/
theorem arrays0_of_arrBufs (c : Dev nD) (A : (w : Fin cfg0.W) → Buf (Elt F) ((cfg0.win w).arr.view.loc (c : Thread nD τ)))
    (U : (b : Ref sig .tc) → Buf (Elt F) ((c : Thread nD τ).loc b)) (hA : ∀ w, A w = U (Pipeline.arrRef spec0 w)) :
    (Pipeline.arrBufs spec0 c U : sProp 𝕄) ⊢ (dat0 V c).arrays A := by
  rw [arrays0_chain V c A U hA, arrBufs0_chain]
  iintro ⟨H0, Hx, H2, H4, H5, H6, H7, H8, H9, H10, H11⟩
  ihave Hx' := (pointsTo_share (PosShare.mem_left_op_right fullShare)).1 $$ Hx
  icases Hx' with ⟨Hl, Hr⟩
  isplitl [H0]; · iexact H0
  isplitl [Hl]; · iexact Hl
  isplitl [H2]; · iexact H2
  isplitl [Hr]; · iexact Hr
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- EXIT: region 0's arrays at contents read off a valuation `U` make the eleven buffers behind them, whole at `U`. -/
theorem arrBufs_of_arrays0 (c : Dev nD) (A : (w : Fin cfg0.W) → Buf (Elt F) ((cfg0.win w).arr.view.loc (c : Thread nD τ)))
    (U : (b : Ref sig .tc) → Buf (Elt F) ((c : Thread nD τ).loc b)) (hA : ∀ w, A w = U (Pipeline.arrRef spec0 w)) :
    ((dat0 V c).arrays A : sProp 𝕄) ⊢ Pipeline.arrBufs spec0 c U := by
  rw [arrays0_chain V c A U hA, arrBufs0_chain]
  iintro ⟨H0, Hl, H2, Hr, H4, H5, H6, H7, H8, H9, H10, H11⟩
  ihave Hx := (pointsTo_share (PosShare.mem_left_op_right fullShare)).2 $$ [Hl Hr]
  · isplitl [Hl]; · iexact Hl
    iexact Hr
  isplitl [H0]; · iexact H0
  isplitl [Hx]; · iexact Hx
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- ENTRY over all the unscoped buffers: at contents `V c` they are region 0's arrays at the proof data's entry contents and the rest. -/
theorem arrays0_of_unscopedBufs (c : Dev nD) :
    (unscopedBufs c (V c) : sProp 𝕄) ⊢ iprop((dat0 V c).arrays ((dat0 V c).arrAt · 0) ∗ Pipeline.unscopedRest spec0 c (V c)) := by
  rw [Pipeline.unscopedBufs_split₀ cfgs 0 winFacts₀0.arr_unscoped c (V c)]
  exact sep_mono (arrays0_of_arrBufs V c _ (V c) fun w => A_eq0 V c w) .rfl

/-- EXIT over all the unscoped buffers: region 0's arrays at contents `A` and the rest at `V c` are the unscoped buffers at any
    valuation that has the arrays at `A` and agrees with `V c` off them. -/
theorem unscopedBufs_of_arrays0 (c : Dev nD) (V' : (b : Ref sig .tc) → Buf (Elt F) ((c : Thread nD τ).loc b))
    (A : (w : Fin cfg0.W) → Buf (Elt F) ((cfg0.win w).arr.view.loc (c : Thread nD τ)))
    (hA : ∀ w, A w = V' (Pipeline.arrRef spec0 w))
    (hrest : ∀ b, b ∉ Finset.univ.image (Pipeline.arrRef spec0) → V' b = V c b) :
    iprop((dat0 V c).arrays A ∗ Pipeline.unscopedRest spec0 c (V c)) ⊢ (unscopedBufs c V' : sProp 𝕄) := by
  rw [Pipeline.unscopedBufs_split₀ cfgs 0 winFacts₀0.arr_unscoped c V']
  refine sep_mono (arrBufs_of_arrays0 V c A V' hA) (Entails.of_eq ?_)
  unfold Pipeline.unscopedRest
  exact bigSep_congr fun b hb => by rw [hrest b (Finset.mem_sdiff.mp hb).2]

end Cert.Kernel.Fr

end
-- ==== Proof.KFrameRun.lean ====
/-
  The whole run of the kernel program as printed (floats as words): four kernel regions between five stretches of host operations. The contents of every unscoped buffer
  are followed from the launch memory through the stretches (each a fold of its operations) and the regions (a region leaves its output array at
  what its twenty write-backs make of it, every other buffer as it found it), and every weakly fair execution from a memory with zero counters
  terminates in a state whose unscoped buffers hold the last of these contents. The arguments are written by no stretch and are no region's
  output, so they end as launched. Stated at any float instance.
-/
import proofs.«127730_j83451214562002_2_alg».proof.Proof.Gen.Kernel.Launch
import proofs.«127730_j83451214562002_2_alg».proof.Proof.Gen.Kernel.Skeleton
import proofs.«127730_j83451214562002_2_alg».proof.Proof.Gen.Kernel.Points
import proofs.«127730_j83451214562002_2_alg».proof.Proof.KFrameR0
import proofs.«127730_j83451214562002_2_alg».proof.Proof.KFrameR1
import proofs.«127730_j83451214562002_2_alg».proof.Proof.KFrameR2
import proofs.«127730_j83451214562002_2_alg».proof.Proof.KFrameR3
import proofs.«127730_j83451214562002_2_alg».proof.Proof.KFrameShare0
import proofs.«127730_j83451214562002_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A pipeline's arrays written over a valuation read back at a window's array, when windows on one array carry the same contents. -/
theorem withArrays_arr' {gr W : Nat} (win : Fin W → Pipeline.WinSpec sig gr) (c : Dev nD) (U : Valuation τ sig (Elt F))
    (A : (w : Fin W) → Buf (Elt F) ((win w).arr.view.loc (c.tc : Thread nD τ))) (w : Fin W)
    (hA : ∀ w', Pipeline.arrRef win w' = Pipeline.arrRef win w → HEq (A w') (A w)) :
    Pipeline.withArrays win c U A (Proc.devRef .tc (Pipeline.arrRef win w)) = A w := by
  unfold Pipeline.withArrays
  have h : ∃ w', Proc.devRef .tc (Pipeline.arrRef win w') = Proc.devRef (τ := τ) .tc (Pipeline.arrRef win w) := ⟨w, rfl⟩
  rw [dif_pos h]
  exact eq_of_heq ((cast_heq _ _).trans (hA _ (Proc.devRef_injective _ h.choose_spec)))

/-! ## The buffers' contents at every boundary -/

/-- Core `c`'s buffers at launch. -/
abbrev W0 : Dev nD → Valuation τ sig (Elt F) := fun c b => (s₀ m ρ).mem ((c : Dev nD), b)
/-- After host stretch 0: region 0's entry contents. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; refine withArrays_arr' spec0 c _ _ w fun w' e => ?_
  rcases arr_coll0 w w' e with rfl | ⟨h', h⟩
  · exact HEq.rfl
  · rw [(dat0 (U1 m ρ) c).arrAt_in w' h', (dat0 (U1 m ρ) c).arrAt_in w h, A_eq0, A_eq0]
    exact congr_arg_heq (U1 m ρ c) e
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- Region 0 changes its output array only: an input window's array is never written back. -/
theorem W2_keep (c : Dev nD) (b : Ref sig .tc) (hb : b ≠ main_v43) :
    W2 m ρ c (Proc.devRef .tc b) = W1 m ρ c (Proc.devRef .tc b) := by
  by_cases h : ∃ w, Pipeline.arrRef spec0 w = b
  · obtain ⟨w, rfl⟩ := h
    have hin : (cfg0.win w).isOut = false :=
      (by decide : ∀ w : Fin 12, Pipeline.arrRef spec0 w ≠ main_v43 → (cfg0.win w).isOut = false) w hb
    exact (W2_arr m ρ c w).trans (((dat0 (U1 m ρ) c).arrAt_in w hin _).trans (A_eq0 (U1 m ρ) c w))
  · exact W2_of_ne m ρ c b fun w e => h ⟨w, e⟩

/-- After host stretch 1: region 1's entry contents. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
/-- Region 1 changes its output array only: an input window's array is never written back. -/
theorem W4_keep (c : Dev nD) (b : Ref sig .tc) (hb : b ≠ main_v75) :
    W4 m ρ c (Proc.devRef .tc b) = W3 m ρ c (Proc.devRef .tc b) := by
  by_cases h : ∃ w, Pipeline.arrRef spec1 w = b
  · obtain ⟨w, rfl⟩ := h
    have hin : (cfg1.win w).isOut = false :=
      (by decide : ∀ w : Fin 11, Pipeline.arrRef spec1 w ≠ main_v75 → (cfg1.win w).isOut = false) w hb
    exact (W4_arr m ρ c w).trans (((dat1 (U3 m ρ) c).arrAt_in w hin _).trans (A_eq1 (U3 m ρ) c w))
  · exact W4_of_ne m ρ c b fun w e => h ⟨w, e⟩

/-- After host stretch 2: region 2's entry contents. -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)
/-- Region 2 changes its output array only: an input window's array is never written back. -/
theorem W6_keep (c : Dev nD) (b : Ref sig .tc) (hb : b ≠ main_v107) :
    W6 m ρ c (Proc.devRef .tc b) = W5 m ρ c (Proc.devRef .tc b) := by
  by_cases h : ∃ w, Pipeline.arrRef spec2 w = b
  · obtain ⟨w, rfl⟩ := h
    have hin : (cfg2.win w).isOut = false :=
      (by decide : ∀ w : Fin 11, Pipeline.arrRef spec2 w ≠ main_v107 → (cfg2.win w).isOut = false) w hb
    exact (W6_arr m ρ c w).trans (((dat2 (U5 m ρ) c).arrAt_in w hin _).trans (A_eq2 (U5 m ρ) c w))
  · exact W6_of_ne m ρ c b fun w e => h ⟨w, e⟩

/-- After host stretch 3: region 3's entry contents. -/
abbrev W7 : Dev nD → Valuation τ sig (Elt F) := fun c => StableHlo.after hostOps3 (W6 m ρ c)
abbrev U7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev U8 : (c : Dev nD) → (b : Ref sig .tc) → Buf (Elt F) ((c : Thread nD τ).loc b) := fun c b => W8 m ρ c b
theorem hF3 (c : Dev nD) (w : Fin cfg3.W) : (dat3 (U7 m ρ) c).arrAt w cfg3.N = U8 m ρ c (Pipeline.arrRef spec3 w) :=
  (W8_arr m ρ c w).symm
theorem hrest3 (c : Dev nD) : ∀ b, b ∉ Finset.univ.image (Pipeline.arrRef spec3) → U8 m ρ c b = U7 m ρ c b :=
  fun b hb => W8_of_ne m ρ c b fun w e => hb (Finset.mem_image.mpr ⟨w, Finset.mem_univ _, e⟩)
/-- Region 3 changes its output array only: an input window's array is never written back. -/
theorem W8_keep (c : Dev nD) (b : Ref sig .tc) (hb : b ≠ main_v147) :
    W8 m ρ c (Proc.devRef .tc b) = W7 m ρ c (Proc.devRef .tc b) := by
  by_cases h : ∃ w, Pipeline.arrRef spec3 w = b
  · obtain ⟨w, rfl⟩ := h
    have hin : (cfg3.win w).isOut = false :=
      (by decide : ∀ w : Fin 21, Pipeline.arrRef spec3 w ≠ main_v147 → (cfg3.win w).isOut = false) w hb
    exact (W8_arr m ρ c w).trans (((dat3 (U7 m ρ) c).arrAt_in w hin _).trans (A_eq3 (U7 m ρ) c w))
  · exact W8_of_ne m ρ c b fun w e => h ⟨w, e⟩

/-- After the last host stretch: the contents at the return. -/
abbrev W9 : Dev nD → Valuation τ sig (Elt F) := fun c => StableHlo.after hostOps4 (W8 m ρ c)

/-- A buffer that no host stretch writes and that is no region's output ends as launched. -/
theorem W9_keep (c : Dev nD) (b : Ref sig .tc) (h0 : b ∉ hostOps0_W) (h1 : b ∉ hostOps1_W) (h2 : b ∉ hostOps2_W) (h3 : b ∉ hostOps3_W)
    (h4 : b ∉ hostOps4_W) (ho : b ∉ ([main_v43, main_v75, main_v107, main_v147] : List (Ref sig .tc))) :
    W9 m ρ c (Proc.devRef .tc b) = m ((c : Thread nD τ).loc b) := by
  have n0 : b ≠ main_v43 := fun e => ho (by subst e; simp)
  have n1 : b ≠ main_v75 := fun e => ho (by subst e; simp)
  have n2 : b ≠ main_v107 := fun e => ho (by subst e; simp)
  have n3 : b ≠ main_v147 := fun e => ho (by subst e; simp)
  calc W9 m ρ c (Proc.devRef .tc b)
    _ = W8 m ρ c (Proc.devRef .tc b) := StableHlo.after_of_writes_sub hostOps4 _ hostOps4_writes h4
    _ = W7 m ρ c (Proc.devRef .tc b) := W8_keep m ρ c b n3
    _ = W6 m ρ c (Proc.devRef .tc b) := StableHlo.after_of_writes_sub hostOps3 _ hostOps3_writes h3
    _ = W5 m ρ c (Proc.devRef .tc b) := W6_keep m ρ c b n2
    _ = W4 m ρ c (Proc.devRef .tc b) := StableHlo.after_of_writes_sub hostOps2 _ hostOps2_writes h2
    _ = W3 m ρ c (Proc.devRef .tc b) := W4_keep m ρ c b n1
    _ = W2 m ρ c (Proc.devRef .tc b) := StableHlo.after_of_writes_sub hostOps1 _ hostOps1_writes h1
    _ = W1 m ρ c (Proc.devRef .tc b) := W2_keep m ρ c b n0
    _ = W0 m ρ c (Proc.devRef .tc b) := StableHlo.after_of_writes_sub hostOps0 _ hostOps0_writes h0
    _ = m ((c : Thread nD τ).loc b) := rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the return contents, the generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered from every unscoped buffer at `W1`, left at `W2`. Its arrays are split out of the
    unscoped buffers and put back at the exit contents; the generator register goes into the invariant and comes out; nothing is owed. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit : (unscopedBufs c (U1 m ρ c) : sProp 𝕄)
        ⊢ iprop((pdats m ρ 0 c).arrays ((pdats m ρ 0 c).arrAt · 0) ∗ Pipeline.unscopedRest spec0 c (U1 m ρ c)) :=
      arrays0_of_unscopedBufs (U1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (U1 m ρ c))
        ⊢ (unscopedBufs c (U2 m ρ c) : sProp 𝕄) :=
      unscopedBufs_of_arrays0 (U1 m ρ) c (U2 m ρ c) _ (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out of the
    unscoped buffers and put back at the exit contents; the generator register goes into the invariant and comes out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out of the
    unscoped buffers and put back at the exit contents; the generator register goes into the invariant and comes out; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split out of the
    unscoped buffers and put back at the exit contents; the generator register goes into the invariant and comes out; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U7 m ρ c) (U8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates, nothing faulting, and
    every final state holds, in each unscoped buffer of each core, the return contents `W9`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => show (iprop(StableHlo.held (c : Thread nD τ) (Pipeline.ucRefs τ sig) (W9 m ρ c) ∗ R c) : sProp 𝕄)
          ⊢ iprop(Tₙ m ρ c ∗ ∃ W, owes (c : Thread nD τ) (0 : CellTallies nD τ sig Unit) W) from by
        iintro ⟨Hh, Hp, Ho⟩
        isplitl [Hh Hp]
        · isplitl [Hh] <;> iassumption
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME: every weakly fair execution terminates, nothing faulting, and every argument array ends as launched; also the result
    array ends at the return contents. -/
theorem frame : θ_run defs (onTc (τ := τ) (main (F := F))) ⟨m, fun _ => 0, ρ⟩ (fun r => ∀ c : Dev nD,
      r.2.mem ((c.tc : Thread nD τ).loc main_v148) = W9 m ρ c (Proc.devRef .tc main_v148)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨h c _ (mem_uc main_v148 (by decide)),
      (h c _ (mem_uc main_arg0 (by decide))).trans (W9_keep m ρ c main_arg0 (by decide) (by decide) (by decide) (by decide) (by decide) (by decide)),
      (h c _ (mem_uc main_arg1 (by decide))).trans (W9_keep m ρ c main_arg1 (by decide) (by decide) (by decide) (by decide) (by decide) (by decide)),
      (h c _ (mem_uc main_arg2 (by decide))).trans (W9_keep m ρ c main_arg2 (by decide) (by decide) (by decide) (by decide) (by decide) (by decide)),
      (h c _ (mem_uc main_arg3 (by decide))).trans (W9_keep m ρ c main_arg3 (by decide) (by decide) (by decide) (by decide) (by decide) (by decide)),
      (h c _ (mem_uc main_arg4 (by decide))).trans (W9_keep m ρ c main_arg4 (by decide) (by decide) (by decide) (by decide) (by decide) (by decide)),
      (h c _ (mem_uc main_arg5 (by decide))).trans (W9_keep m ρ c main_arg5 (by decide) (by decide) (by decide) (by decide) (by decide) (by decide)),
      (h c _ (mem_uc main_arg6 (by decide))).trans (W9_keep m ρ c main_arg6 (by decide) (by decide) (by decide) (by decide) (by decide) (by decide)),
      (h c _ (mem_uc main_arg7 (by decide))).trans (W9_keep m ρ c main_arg7 (by decide) (by decide) (by decide) (by decide) (by decide) (by decide)),
      (h c _ (mem_uc main_arg8 (by decide))).trans (W9_keep m ρ c main_arg8 (by decide) (by decide) (by decide) (by decide) (by decide) (by decide)),
      (h c _ (mem_uc main_arg9 (by decide))).trans (W9_keep m ρ c main_arg9 (by decide) (by decide) (by decide) (by decide) (by decide) (by decide)),
      (h c _ (mem_uc main_arg10 (by decide))).trans (W9_keep m ρ c main_arg10 (by decide) (by decide) (by decide) (by decide) (by decide) (by decide)),
      (h c _ (mem_uc main_arg11 (by decide))).trans (W9_keep m ρ c main_arg11 (by decide) (by decide) (by decide) (by decide) (by decide) (by decide)),
      (h c _ (mem_uc main_arg12 (by decide))).trans (W9_keep m ρ c main_arg12 (by decide) (by decide) (by decide) (by decide) (by decide) (by decide)),
      (h c _ (mem_uc main_arg13 (by decide))).trans (W9_keep m ρ c main_arg13 (by decide) (by decide) (by decide) (by decide) (by decide) (by decide)),
      (h c _ (mem_uc main_arg14 (by decide))).trans (W9_keep m ρ c main_arg14 (by decide) (by decide) (by decide) (by decide) (by decide) (by decide)),
      (h c _ (mem_uc main_arg15 (by decide))).trans (W9_keep m ρ c main_arg15 (by decide) (by decide) (by decide) (by decide) (by decide) (by decide)),
      (h c _ (mem_uc main_arg16 (by decide))).trans (W9_keep m ρ c main_arg16 (by decide) (by decide) (by decide) (by decide) (by decide) (by decide)),
      (h c _ (mem_uc main_arg17 (by decide))).trans (W9_keep m ρ c main_arg17 (by decide) (by decide) (by decide) (by decide) (by decide) (by decide)),
      (h c _ (mem_uc main_arg18 (by decide))).trans (W9_keep m ρ c main_arg18 (by decide) (by decide) (by decide) (by decide) (by decide) (by decide))⟩) (run m ρ)

end Cert.Kernel.Fr

end
-- ==== Proof.FrameR0.lean ====
/-
  Region 0 of the kernel program, taken by itself: one SAGE layer's kernel over 20 blocks of 5000 node rows. The body loads every
  input block whole, computes the layer on the block and stores the result block whole, so what a grid point leaves in the output's
  staging buffer is one function of the point's input blocks (`out0`), the inputs' buffers are left as found, and the pipeline's
  invariant is just the scoped rest. Stated at any float instance and at any contents `V` of the buffers when the region is entered.
  The node array is handed to this kernel twice — as the layer's own rows and as the residual — so the two input windows that read it
  each hold half of the array's share.
-/
import proofs.«127730_j83451214562002_2_alg».proof.Proof.Gen.KernelIdeal.Launch
import proofs.«127730_j83451214562002_2_alg».proof.Proof.Gen.KernelIdeal.Skeleton
import proofs.«127730_j83451214562002_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the kernel `cc0__sage_kernel_resid` over its grid of 20 row blocks, at the entry contents `V` -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds the window's block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds the window's block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds the window's block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds the window's block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds the window's block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds the window's block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds the window's block at every point, fetched there or not. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds the window's block at every point, fetched there or not. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's current staging buffer holds the window's block at every point, fetched there or not. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

abbrev r0_S5000x128 : Rect S5000x128 := Rect.unit (s := S5000x128) ![0, 0] S5000x128.size inb_S5000x128_S5000x128_0_0
abbrev r0_S5000x1 : Rect S5000x1 := Rect.unit (s := S5000x1) ![0, 0] S5000x1.size inb_S5000x1_S5000x1_0_0
abbrev r0_S128x128 : Rect S128x128 := Rect.unit (s := S128x128) ![0, 0] S128x128.size inb_S128x128_S128x128_0_0
abbrev r0_S1x128 : Rect S1x128 := Rect.unit (s := S1x128) ![0, 0] S1x128.size inb_S1x128_S1x128_0_0

/-- The output block after the body, from the input blocks: the body's one store, of the layer's arithmetic on the loaded blocks. -/
def out0_11 (x0 : Vec F S5000x128 .f32) (x1 : Vec F S5000x128 .f32) (x2 : Vec F S5000x1 .f32) (x3 : Vec F S5000x128 .f32) (x4 : Vec F S128x128 .f32) (x5 : Vec F S128x128 .f32) (x6 : Vec F S1x128 .f32) (x7 : Vec F S1x128 .f32) (x8 : Vec F S1x128 .f32) (x9 : Vec F S1x128 .f32) (x10 : Vec F S1x128 .f32) : Vec F S5000x128 .f32 :=
  View.canon [⟨r0_S5000x128, k0_pay1 (k0_pay2 (View.ld x0 r0_S5000x128) (View.ld x2 r0_S5000x1) (View.ld x1 r0_S5000x128) (View.ld x4 r0_S128x128) (View.ld x5 r0_S128x128) (View.ld x6 r0_S1x128) (View.ld x7 r0_S1x128) (View.ld x10 r0_S1x128) (View.ld x9 r0_S1x128) (View.ld x8 r0_S1x128)) (View.ld x3 r0_S5000x128)⟩]

/-- The store covers the whole block. -/
theorem cover0_11 (p0 : Vec F S5000x128 .f32) (y : S5000x128.Idx) :
    ∃ pc ∈ ([⟨r0_S5000x128, p0⟩] : List (View.Piece (Elt F) S5000x128 .f32)), y ∈ pc.1.set :=
  View.cover_of_tiled [⟨r0_S5000x128, p0⟩] S5000x128.size (by rfl) y

set_option maxHeartbeats 4000000 in
/-- The body on whole staging buffers: the inputs' at contents `x`, the output's at anything, runs to the continuation with the inputs'
    as they were and the output's at `out0_11` of the inputs'. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S5000x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S5000x128 .f32) (harg12 : arg12.IsWhole)
    (x0 : Vec F S5000x128 .f32) (x1 : Vec F S5000x128 .f32) (x2 : Vec F S5000x1 .f32) (x3 : Vec F S5000x128 .f32) (x4 : Vec F S128x128 .f32) (x5 : Vec F S128x128 .f32) (x6 : Vec F S1x128 .f32) (x7 : Vec F S1x128 .f32) (x8 : Vec F S1x128 .f32) (x9 : Vec F S1x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__sage_kernel_resid i arg1 harg1 arg2 harg2 arg3 harg3 arg4 harg4 arg5 harg5 arg6 harg6 arg7 harg7 arg8 harg8 arg9 harg9 arg10 harg10 arg11 harg11 arg12 harg12) K := by
  simp only [cc0__sage_kernel_resid_eq_skeleton]; unfold cc0__sage_kernel_resid_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0
  subst hf1
  subst hf2
  subst hf3
  subst hf4
  subst hf5
  subst hf6
  subst hf7
  subst hf8
  subst hf9
  subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover0_11 _)

/-- The proof data of region 0 on core `c`: the arrays as the region finds them; after the body at point `t` each input's buffer still at its
    block and the output's at `out0_11` of the input blocks; the invariant the scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q w := match w with | ⟨1, _⟩ => PosShare.left fullShare | ⟨3, _⟩ => PosShare.right fullShare | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' buffers hold their blocks, so the body's triple applies; the invariant and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrameR1.lean ====
/-
  Region 1 of the kernel program, taken by itself: one SAGE layer's kernel over 20 blocks of 5000 node rows. The body loads every
  input block whole, computes the layer on the block and stores the result block whole, so what a grid point leaves in the output's
  staging buffer is one function of the point's input blocks (`out1`), the inputs' buffers are left as found, and the pipeline's
  invariant is just the scoped rest. Stated at any float instance and at any contents `V` of the buffers when the region is entered.
-/
import proofs.«127730_j83451214562002_2_alg».proof.Proof.Gen.KernelIdeal.Launch
import proofs.«127730_j83451214562002_2_alg».proof.Proof.Gen.KernelIdeal.Skeleton
import proofs.«127730_j83451214562002_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the kernel `cc1__sage_kernel` over its grid of 20 row blocks, at the entry contents `V` -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds the window's block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds the window's block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds the window's block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds the window's block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds the window's block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

abbrev r1_S5000x128 : Rect S5000x128 := Rect.unit (s := S5000x128) ![0, 0] S5000x128.size inb_S5000x128_S5000x128_0_0
abbrev r1_S5000x1 : Rect S5000x1 := Rect.unit (s := S5000x1) ![0, 0] S5000x1.size inb_S5000x1_S5000x1_0_0
abbrev r1_S128x128 : Rect S128x128 := Rect.unit (s := S128x128) ![0, 0] S128x128.size inb_S128x128_S128x128_0_0
abbrev r1_S1x128 : Rect S1x128 := Rect.unit (s := S1x128) ![0, 0] S1x128.size inb_S1x128_S1x128_0_0

/-- The output block after the body, from the input blocks: the body's one store, of the layer's arithmetic on the loaded blocks. -/
def out1_10 (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) : Vec F S5000x128 .f32 :=
  View.canon [⟨r1_S5000x128, k1_pay1 (k1_pay2 (View.ld x0 r1_S5000x128) (View.ld x2 r1_S5000x1) (View.ld x1 r1_S5000x128) (View.ld x3 r1_S128x128) (View.ld x4 r1_S128x128) (View.ld x5 r1_S1x128) (View.ld x6 r1_S1x128) (View.ld x9 r1_S1x128) (View.ld x8 r1_S1x128)) (k1_pay3 (View.ld x7 r1_S1x128))⟩]

/-- The store covers the whole block. -/
theorem cover1_10 (p0 : Vec F S5000x128 .f32) (y : S5000x128.Idx) :
    ∃ pc ∈ ([⟨r1_S5000x128, p0⟩] : List (View.Piece (Elt F) S5000x128 .f32)), y ∈ pc.1.set :=
  View.cover_of_tiled [⟨r1_S5000x128, p0⟩] S5000x128.size (by rfl) y

set_option maxHeartbeats 4000000 in
/-- The body on whole staging buffers: the inputs' at contents `x`, the output's at anything, runs to the continuation with the inputs'
    as they were and the output's at `out1_10` of the inputs'. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S5000x128 .f32) (harg11 : arg11.IsWhole)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x2 x3 x4 x5 x6 x7 x8 x9)) -∗ K ⟨⟩))
      ⊢ wp frame (wpE (defs₀ (F := F)) Variants.none c none) E (cc1__sage_kernel i arg1 harg1 arg2 harg2 arg3 harg3 arg4 harg4 arg5 harg5 arg6 harg6 arg7 harg7 arg8 harg8 arg9 harg9 arg10 harg10 arg11 harg11) K := by
  simp only [cc1__sage_kernel_eq_skeleton]; unfold cc1__sage_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-- The proof data of region 1 on core `c`: the arrays as the region finds them; after the body at point `t` each input's buffer still at its
    block and the output's at `out1_10` of the input blocks; the invariant the scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' buffers hold their blocks, so the body's triple applies; the invariant and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrameR2.lean ====
/-
  Region 2 of the kernel program, taken by itself: one SAGE layer's kernel over 20 blocks of 5000 node rows. The body loads every
  input block whole, computes the layer on the block and stores the result block whole, so what a grid point leaves in the output's
  staging buffer is one function of the point's input blocks (`out2`), the inputs' buffers are left as found, and the pipeline's
  invariant is just the scoped rest. Stated at any float instance and at any contents `V` of the buffers when the region is entered.
-/
import proofs.«127730_j83451214562002_2_alg».proof.Proof.Gen.KernelIdeal.Launch
import proofs.«127730_j83451214562002_2_alg».proof.Proof.Gen.KernelIdeal.Skeleton
import proofs.«127730_j83451214562002_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the kernel `cc2__sage_kernel` over its grid of 20 row blocks, at the entry contents `V` -/

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds the window's block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds the window's block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds the window's block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds the window's block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds the window's block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds the window's block at every point, fetched there or not. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds the window's block at every point, fetched there or not. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

abbrev r2_S5000x128 : Rect S5000x128 := Rect.unit (s := S5000x128) ![0, 0] S5000x128.size inb_S5000x128_S5000x128_0_0
abbrev r2_S5000x1 : Rect S5000x1 := Rect.unit (s := S5000x1) ![0, 0] S5000x1.size inb_S5000x1_S5000x1_0_0
abbrev r2_S128x128 : Rect S128x128 := Rect.unit (s := S128x128) ![0, 0] S128x128.size inb_S128x128_S128x128_0_0
abbrev r2_S1x128 : Rect S1x128 := Rect.unit (s := S1x128) ![0, 0] S1x128.size inb_S1x128_S1x128_0_0

/-- The output block after the body, from the input blocks: the body's one store, of the layer's arithmetic on the loaded blocks. -/
def out2_10 (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) : Vec F S5000x128 .f32 :=
  View.canon [⟨r2_S5000x128, k2_pay1 (k2_pay2 (View.ld x0 r2_S5000x128) (View.ld x2 r2_S5000x1) (View.ld x1 r2_S5000x128) (View.ld x3 r2_S128x128) (View.ld x4 r2_S128x128) (View.ld x5 r2_S1x128) (View.ld x6 r2_S1x128) (View.ld x9 r2_S1x128) (View.ld x8 r2_S1x128)) (k2_pay3 (View.ld x7 r2_S1x128))⟩]

/-- The store covers the whole block. -/
theorem cover2_10 (p0 : Vec F S5000x128 .f32) (y : S5000x128.Idx) :
    ∃ pc ∈ ([⟨r2_S5000x128, p0⟩] : List (View.Piece (Elt F) S5000x128 .f32)), y ∈ pc.1.set :=
  View.cover_of_tiled [⟨r2_S5000x128, p0⟩] S5000x128.size (by rfl) y

set_option maxHeartbeats 4000000 in
/-- The body on whole staging buffers: the inputs' at contents `x`, the output's at anything, runs to the continuation with the inputs'
    as they were and the output's at `out2_10` of the inputs'. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S5000x128 .f32) (harg11 : arg11.IsWhole)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x0 x1 x2 x3 x4 x5 x6 x7 x8 x9)) -∗ K ⟨⟩))
      ⊢ wp frame (wpE (defs₀ (F := F)) Variants.none c none) E (cc2__sage_kernel i arg1 harg1 arg2 harg2 arg3 harg3 arg4 harg4 arg5 harg5 arg6 harg6 arg7 harg7 arg8 harg8 arg9 harg9 arg10 harg10 arg11 harg11) K := by
  simp only [cc2__sage_kernel_eq_skeleton]; unfold cc2__sage_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0
  subst hf1
  subst hf2
  subst hf3
  subst hf4
  subst hf5
  subst hf6
  subst hf7
  subst hf8
  subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_10 _)

/-- The proof data of region 2 on core `c`: the arrays as the region finds them; after the body at point `t` each input's buffer still at its
    block and the output's at `out2_10` of the input blocks; the invariant the scoped rest and the generator register; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

/-- The body at any point: the inputs' buffers hold their blocks, so the body's triple applies; the invariant and what the core owes pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.FrameR3.lean ====
/-
  Region 3 of the kernel program, taken by itself: the last SAGE layer fused with the layer normalisation and the two-step head, over 20
  blocks of 5000 node rows. The body loads every input block whole, computes one output column per row and stores it whole, so what a
  grid point leaves in the output's staging buffer is one function of the point's input blocks (`out3`), the inputs' buffers are left as
  found, and the pipeline's invariant is just the scoped rest. Stated at any float instance and at any contents `V` of the buffers when
  the region is entered.
-/
import proofs.«127730_j83451214562002_2_alg».proof.Proof.Gen.KernelIdeal.Launch
import proofs.«127730_j83451214562002_2_alg».proof.Proof.Gen.KernelIdeal.Skeleton
import proofs.«127730_j83451214562002_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the kernel `cc3__sage_head_kernel` over its grid of 20 row blocks, at the entry contents `V` -/

/-- Window `w`'s block at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds the window's block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds the window's block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds the window's block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds the window's block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds the window's block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds the window's block at every point, fetched there or not. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds the window's block at every point, fetched there or not. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds the window's block at every point, fetched there or not. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds the window's block at every point, fetched there or not. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's current staging buffer holds the window's block at every point, fetched there or not. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- Input window 10's current staging buffer holds the window's block at every point, fetched there or not. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-- Input window 11's current staging buffer holds the window's block at every point, fetched there or not. -/
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)

/-- Input window 12's current staging buffer holds the window's block at every point, fetched there or not. -/
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)

/-- Input window 13's current staging buffer holds the window's block at every point, fetched there or not. -/
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)

/-- Input window 14's current staging buffer holds the window's block at every point, fetched there or not. -/
theorem before3_14_of {c : Dev nD} (dat : Dat τ (Elt F) Unit ℕ (UR sig nD τ) ℕ cfg3 c) (hA : dat.A 14 = V c (Pipeline.arrRef spec3 14))
    (hafter : ∀ t, dat.after 14 t = iblk3 V c 14 t) (t : Fin cfg3.N) (d) : dat.before 14 t d = iblk3 V c 14 t :=
  (dat.before_in_eq_fetched 14 rfl (fun _ => rfl) (fun _ _ _ => rfl) (fun t => by rw [hafter]; unfold Dat.blockOf iblk3; rw [hA]; try rfl) t d).trans
    (by unfold Dat.fetched Dat.blockOf iblk3; rw [hA]; try rfl)

/-- Input window 15's current staging buffer holds the window's block at every point, fetched there or not. -/
theorem before3_15_of {c : Dev nD} (dat : Dat τ (Elt F) Unit ℕ (UR sig nD τ) ℕ cfg3 c) (hA : dat.A 15 = V c (Pipeline.arrRef spec3 15))
    (hafter : ∀ t, dat.after 15 t = iblk3 V c 15 t) (t : Fin cfg3.N) (d) : dat.before 15 t d = iblk3 V c 15 t :=
  (dat.before_in_eq_fetched 15 rfl (fun _ => rfl) (fun _ _ _ => rfl) (fun t => by rw [hafter]; unfold Dat.blockOf iblk3; rw [hA]; try rfl) t d).trans
    (by unfold Dat.fetched Dat.blockOf iblk3; rw [hA]; try rfl)

/-- Input window 16's current staging buffer holds the window's block at every point, fetched there or not. -/
theorem before3_16_of {c : Dev nD} (dat : Dat τ (Elt F) Unit ℕ (UR sig nD τ) ℕ cfg3 c) (hA : dat.A 16 = V c (Pipeline.arrRef spec3 16))
    (hafter : ∀ t, dat.after 16 t = iblk3 V c 16 t) (t : Fin cfg3.N) (d) : dat.before 16 t d = iblk3 V c 16 t :=
  (dat.before_in_eq_fetched 16 rfl (fun _ => rfl) (fun _ _ _ => rfl) (fun t => by rw [hafter]; unfold Dat.blockOf iblk3; rw [hA]; try rfl) t d).trans
    (by unfold Dat.fetched Dat.blockOf iblk3; rw [hA]; try rfl)

/-- Input window 17's current staging buffer holds the window's block at every point, fetched there or not. -/
theorem before3_17_of {c : Dev nD} (dat : Dat τ (Elt F) Unit ℕ (UR sig nD τ) ℕ cfg3 c) (hA : dat.A 17 = V c (Pipeline.arrRef spec3 17))
    (hafter : ∀ t, dat.after 17 t = iblk3 V c 17 t) (t : Fin cfg3.N) (d) : dat.before 17 t d = iblk3 V c 17 t :=
  (dat.before_in_eq_fetched 17 rfl (fun _ => rfl) (fun _ _ _ => rfl) (fun t => by rw [hafter]; unfold Dat.blockOf iblk3; rw [hA]; try rfl) t d).trans
    (by unfold Dat.fetched Dat.blockOf iblk3; rw [hA]; try rfl)

/-- Input window 18's current staging buffer holds the window's block at every point, fetched there or not. -/
theorem before3_18_of {c : Dev nD} (dat : Dat τ (Elt F) Unit ℕ (UR sig nD τ) ℕ cfg3 c) (hA : dat.A 18 = V c (Pipeline.arrRef spec3 18))
    (hafter : ∀ t, dat.after 18 t = iblk3 V c 18 t) (t : Fin cfg3.N) (d) : dat.before 18 t d = iblk3 V c 18 t :=
  (dat.before_in_eq_fetched 18 rfl (fun _ => rfl) (fun _ _ _ => rfl) (fun t => by rw [hafter]; unfold Dat.blockOf iblk3; rw [hA]; try rfl) t d).trans
    (by unfold Dat.fetched Dat.blockOf iblk3; rw [hA]; try rfl)

/-- Input window 19's current staging buffer holds the window's block at every point, fetched there or not. -/
theorem before3_19_of {c : Dev nD} (dat : Dat τ (Elt F) Unit ℕ (UR sig nD τ) ℕ cfg3 c) (hA : dat.A 19 = V c (Pipeline.arrRef spec3 19))
    (hafter : ∀ t, dat.after 19 t = iblk3 V c 19 t) (t : Fin cfg3.N) (d) : dat.before 19 t d = iblk3 V c 19 t :=
  (dat.before_in_eq_fetched 19 rfl (fun _ => rfl) (fun _ _ _ => rfl) (fun t => by rw [hafter]; unfold Dat.blockOf iblk3; rw [hA]; try rfl) t d).trans
    (by unfold Dat.fetched Dat.blockOf iblk3; rw [hA]; try rfl)

abbrev r3_S5000x128 : Rect S5000x128 := Rect.unit (s := S5000x128) ![0, 0] S5000x128.size inb_S5000x128_S5000x128_0_0
abbrev r3_S5000x1 : Rect S5000x1 := Rect.unit (s := S5000x1) ![0, 0] S5000x1.size inb_S5000x1_S5000x1_0_0
abbrev r3_S128x128 : Rect S128x128 := Rect.unit (s := S128x128) ![0, 0] S128x128.size inb_S128x128_S128x128_0_0
abbrev r3_S1x128 : Rect S1x128 := Rect.unit (s := S1x128) ![0, 0] S1x128.size inb_S1x128_S1x128_0_0
abbrev r3_S128x64 : Rect S128x64 := Rect.unit (s := S128x64) ![0, 0] S128x64.size inb_S128x64_S128x64_0_0
abbrev r3_S1x64 : Rect S1x64 := Rect.unit (s := S1x64) ![0, 0] S1x64.size inb_S1x64_S1x64_0_0
abbrev r3_S64x1 : Rect S64x1 := Rect.unit (s := S64x1) ![0, 0] S64x1.size inb_S64x1_S64x1_0_0
abbrev r3_S1x1 : Rect S1x1 := Rect.unit (s := S1x1) ![0, 0] S1x1.size inb_S1x1_S1x1_0_0

/-- The output block after the body, from the input blocks: the body's one store, of the layer's arithmetic on the loaded blocks. -/
def out3_20 (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) (x11 : Vec F S1x128 .f32) (x12 : Vec F S128x64 .f32) (x13 : Vec F S1x64 .f32) (x14 : Vec F S1x64 .f32) (x15 : Vec F S1x64 .f32) (x16 : Vec F S1x64 .f32) (x17 : Vec F S1x64 .f32) (x18 : Vec F S64x1 .f32) (x19 : Vec F S1x1 .f32) : Vec F S5000x1 .f32 :=
  View.canon [⟨r3_S5000x1, k3_pay1 (k3_pay4 (k3_pay2 (View.ld x0 r3_S5000x128) (View.ld x2 r3_S5000x1) (View.ld x1 r3_S5000x128) (View.ld x3 r3_S128x128) (View.ld x4 r3_S128x128) (View.ld x5 r3_S1x128) (View.ld x6 r3_S1x128) (View.ld x9 r3_S1x128) (View.ld x8 r3_S1x128)) (k3_pay3 (View.ld x7 r3_S1x128)) (View.ld x10 r3_S1x128) (View.ld x11 r3_S1x128) (View.ld x12 r3_S128x64) (View.ld x13 r3_S1x64)) (k3_pay5 (View.ld x14 r3_S1x64)) (k3_pay6 (View.ld x17 r3_S1x64)) (k3_pay7 (F := F)) (View.ld x16 r3_S1x64) (View.ld x15 r3_S1x64) (View.ld x18 r3_S64x1) (View.ld x19 r3_S1x1)⟩]

/-- The store covers the whole block. -/
theorem cover3_20 (p0 : Vec F S5000x1 .f32) (y : S5000x1.Idx) :
    ∃ pc ∈ ([⟨r3_S5000x1, p0⟩] : List (View.Piece (Elt F) S5000x1 .f32)), y ∈ pc.1.set :=
  View.cover_of_tiled [⟨r3_S5000x1, p0⟩] S5000x1.size (by rfl) y

set_option maxHeartbeats 4000000 in
/-- The body on whole staging buffers: the inputs' at contents `x`, the output's at anything, runs to the continuation with the inputs'
    as they were and the output's at `out3_20` of the inputs'. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S1x64 .f32) (harg17 : arg17.IsWhole) (arg18 : Memref sig .tc .vmem S1x64 .f32) (harg18 : arg18.IsWhole) (arg19 : Memref sig .tc .vmem S64x1 .f32) (harg19 : arg19.IsWhole) (arg20 : Memref sig .tc .vmem S1x1 .f32) (harg20 : arg20.IsWhole) (arg21 : Memref sig .tc .vmem S5000x1 .f32) (harg21 : arg21.IsWhole)
    (x0 : Vec F S5000x128 .f32) (x1 : Vec F S5000x128 .f32) (x2 : Vec F S5000x1 .f32) (x3 : Vec F S128x128 .f32) (x4 : Vec F S128x128 .f32) (x5 : Vec F S1x128 .f32) (x6 : Vec F S1x128 .f32) (x7 : Vec F S1x128 .f32) (x8 : Vec F S1x128 .f32) (x9 : Vec F S1x128 .f32) (x10 : Vec F S1x128 .f32) (x11 : Vec F S1x128 .f32) (x12 : Vec F S128x64 .f32) (x13 : Vec F S1x64 .f32) (x14 : Vec F S1x64 .f32) (x15 : Vec F S1x64 .f32) (x16 : Vec F S1x64 .f32) (x17 : Vec F S1x64 .f32) (x18 : Vec F S64x1 .f32) (x19 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare (out3_20 x0 x1 x2 x3 x4 x5 x6 x7 x8 x9 x10 x11 x12 x13 x14 x15 x16 x17 x18 x19)) -∗ K ⟨⟩))
      ⊢ wp frame (wpE (defs₀ (F := F)) Variants.none c none) E (cc3__sage_head_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc3__sage_head_kernel_eq_skeleton]; unfold cc3__sage_head_kernel_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, Hk⟩
  subst hf0
  subst hf1
  subst hf2
  subst hf3
  subst hf4
  subst hf5
  subst hf6
  subst hf7
  subst hf8
  subst hf9
  subst hf10
  subst hf11
  subst hf12
  subst hf13
  subst hf14
  subst hf15
  subst hf16
  subst hf17
  subst hf18
  subst hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  iexists _; isplitr
  swap; · iexact H20
  ipureintro
  exact View.read_writes_eq_canon _ _ _ (cover3_20 _)

/-- The proof data of region 3 on core `c`: the arrays as the region finds them; after the body at point `t` each input's buffer still at its
    block and the output's at `out3_20` of the input blocks; the invariant the scoped rest and the generator register; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => iblk3 V c 16 t
    | ⟨17, _⟩ => iblk3 V c 17 t
    | ⟨18, _⟩ => iblk3 V c 18 t
    | ⟨19, _⟩ => iblk3 V c 19 t
    | ⟨20, _⟩ => out3_20 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t)
    | ⟨n + 21, h⟩ => absurd h (Nat.not_lt.mpr (Nat.le_add_left 21 n))
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = iblk3 V c 15 t := by dsimp only [dat3]
theorem after3_16 (c : Dev nD) (t : Fin cfg3.N) : (dat3 V c).after 16 t = iblk3 V c 16 t := by dsimp only [dat3]
theorem after3_17 (c : Dev nD) (t : Fin cfg3.N) : (dat3 V c).after 17 t = iblk3 V c 17 t := by dsimp only [dat3]
theorem after3_18 (c : Dev nD) (t : Fin cfg3.N) : (dat3 V c).after 18 t = iblk3 V c 18 t := by dsimp only [dat3]
theorem after3_19 (c : Dev nD) (t : Fin cfg3.N) : (dat3 V c).after 19 t = iblk3 V c 19 t := by dsimp only [dat3]
theorem after3_20 (c : Dev nD) (t : Fin cfg3.N) : (dat3 V c).after 20 t = out3_20 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d
theorem before3_14 (c : Dev nD) (t : Fin cfg3.N) (d) : (dat3 V c).before 14 t d = iblk3 V c 14 t :=
  before3_14_of V (dat3 V c) (A_eq3 V c 14) (after3_14 V c) t d
theorem before3_15 (c : Dev nD) (t : Fin cfg3.N) (d) : (dat3 V c).before 15 t d = iblk3 V c 15 t :=
  before3_15_of V (dat3 V c) (A_eq3 V c 15) (after3_15 V c) t d
theorem before3_16 (c : Dev nD) (t : Fin cfg3.N) (d) : (dat3 V c).before 16 t d = iblk3 V c 16 t :=
  before3_16_of V (dat3 V c) (A_eq3 V c 16) (after3_16 V c) t d
theorem before3_17 (c : Dev nD) (t : Fin cfg3.N) (d) : (dat3 V c).before 17 t d = iblk3 V c 17 t :=
  before3_17_of V (dat3 V c) (A_eq3 V c 17) (after3_17 V c) t d
theorem before3_18 (c : Dev nD) (t : Fin cfg3.N) (d) : (dat3 V c).before 18 t d = iblk3 V c 18 t :=
  before3_18_of V (dat3 V c) (A_eq3 V c 18) (after3_18 V c) t d
theorem before3_19 (c : Dev nD) (t : Fin cfg3.N) (d) : (dat3 V c).before 19 t d = iblk3 V c 19 t :=
  before3_19_of V (dat3 V c) (A_eq3 V c 19) (after3_19 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d))
    ∗ (∃ d, owns (c : Thread nD τ) (st3_17 t) fullShare ((dat3 V c).before 17 t d))
    ∗ (∃ d, owns (c : Thread nD τ) (st3_18 t) fullShare ((dat3 V c).before 18 t d))
    ∗ (∃ d, owns (c : Thread nD τ) (st3_19 t) fullShare ((dat3 V c).before 19 t d))
    ∗ (∃ d, owns (c : Thread nD τ) (st3_20 t) fullShare ((dat3 V c).before 20 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t)
    ∗ owns (c : Thread nD τ) (st3_16 t) fullShare ((dat3 V c).after 16 t)
    ∗ owns (c : Thread nD τ) (st3_17 t) fullShare ((dat3 V c).after 17 t)
    ∗ owns (c : Thread nD τ) (st3_18 t) fullShare ((dat3 V c).after 18 t)
    ∗ owns (c : Thread nD τ) (st3_19 t) fullShare ((dat3 V c).after 19 t)
    ∗ owns (c : Thread nD τ) (st3_20 t) fullShare ((dat3 V c).after 20 t))

/-- The body at any point: the inputs' buffers hold their blocks, so the body's triple applies; the invariant and what the core owes pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13, before3_14, before3_15, before3_16, before3_17, before3_18, before3_19]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15, after3_16, after3_17, after3_18, after3_19, after3_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel3 c Set.univ _ _ _ _ _ _ _ _ _ _ _ _ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body obligation of region 3, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.FrameShare0.lean ====
/-
  Region 0's arrays in and out of a core's unscoped buffers. The node array is read through two input windows (the layer's own rows
  and the residual), so of the eleven distinct buffers behind the twelve windows' arrays the node array's full share is dealt half and
  half between those two windows on entry, and the halves — both still at the entry contents, input windows never writing back — are
  joined again on exit. Every other array is a buffer of its own held whole.
-/
import proofs.«127730_j83451214562002_2_alg».proof.Proof.Gen.KernelIdeal.Launch
import proofs.«127730_j83451214562002_2_alg».proof.Proof.Gen.KernelIdeal.Skeleton
import proofs.«127730_j83451214562002_2_alg».proof.Proof.Gen.KernelIdeal.Points
import proofs.«127730_j83451214562002_2_alg».proof.Proof.FrameR0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Listed
open Idealize.ShloMosaic.Pipeline in
theorem arrBufs_eq_of_list' {gr : Nat} {W : Nat} (win : Fin W → Pipeline.WinSpec sig gr) (c : Dev nD)
    (V : (b : Ref sig .tc) → Buf (Elt F) ((c.tc : Thread nD τ).loc b)) (l : List (Ref sig .tc))
    (h : Finset.univ.image (Pipeline.arrRef win) = l.toFinset) (hl : l.Nodup) :
    (Pipeline.arrBufs (Ix := Unit) (Name := ℕ) (U := UR sig nD τ) (Lvl := ℕ) win c V : sProp 𝕄)
      = bigSepL l fun b => ((c.tc : Thread nD τ).loc b) ↦{fullShare} V b := by
  unfold Pipeline.arrBufs; exact bigSep_eq_bigSepL_of_eq l h hl _
end Listed
/-- Two windows of region 0 on one array are both inputs (the node array, read as the layer's rows and as the residual). -/
theorem arr_coll0 : ∀ w w' : Fin 12, Pipeline.arrRef spec0 w' = Pipeline.arrRef spec0 w →
    w' = w ∨ ((cfg0.win w').isOut = false ∧ (cfg0.win w).isOut = false) := by decide

/-- The twelve arrays at their shares, window by window, over contents read off one valuation of the buffers. -/
theorem arrays0_eq (c : Dev nD) (A : (w : Fin cfg0.W) → Buf (Elt F) ((cfg0.win w).arr.view.loc (c : Thread nD τ)))
    (U : (b : Ref sig .tc) → Buf (Elt F) ((c : Thread nD τ).loc b)) (hA : ∀ w, A w = U (Pipeline.arrRef spec0 w)) :
    ((dat0 V c).arrays A : sProp 𝕄) = bigSep Finset.univ fun w : Fin cfg0.W =>
      ((((c : Thread nD τ).loc (Pipeline.arrRef spec0 w)) ↦{(dat0 V c).share w} U (Pipeline.arrRef spec0 w)) : sProp 𝕄) := by
  unfold Dat.arrays
  exact bigSep_congr fun w _ => by rw [(arr_whole0 w).set_eq_univ, hA w]

/-- The eleven distinct buffers behind region 0's arrays, whole at contents `U`, as a chain. -/
theorem arrBufs0_chain (c : Dev nD) (U : (b : Ref sig .tc) → Buf (Elt F) ((c : Thread nD τ).loc b)) :
    (Pipeline.arrBufs spec0 c U : sProp 𝕄) = iprop((((c : Thread nD τ).loc main_v23) ↦{fullShare} U main_v23)
      ∗ (((c : Thread nD τ).loc main_arg0) ↦{fullShare} U main_arg0)
      ∗ (((c : Thread nD τ).loc main_v11) ↦{fullShare} U main_v11)
      ∗ (((c : Thread nD τ).loc main_v25) ↦{fullShare} U main_v25)
      ∗ (((c : Thread nD τ).loc main_v27) ↦{fullShare} U main_v27)
      ∗ (((c : Thread nD τ).loc main_v38) ↦{fullShare} U main_v38)
      ∗ (((c : Thread nD τ).loc main_v39) ↦{fullShare} U main_v39)
      ∗ (((c : Thread nD τ).loc main_v40) ↦{fullShare} U main_v40)
      ∗ (((c : Thread nD τ).loc main_v41) ↦{fullShare} U main_v41)
      ∗ (((c : Thread nD τ).loc main_v42) ↦{fullShare} U main_v42)
      ∗ (((c : Thread nD τ).loc main_v43) ↦{fullShare} U main_v43)) := by
  rw [arrBufs_eq_of_list' spec0 c U [main_v23, main_arg0, main_v11, main_v25, main_v27, main_v38, main_v39, main_v40, main_v41, main_v42, main_v43] (by decide) (by decide)]
  rfl

/-- Region 0's twelve arrays at contents read off `U`, as a chain: the node array at half a share twice. -/
theorem arrays0_chain (c : Dev nD) (A : (w : Fin cfg0.W) → Buf (Elt F) ((cfg0.win w).arr.view.loc (c : Thread nD τ)))
    (U : (b : Ref sig .tc) → Buf (Elt F) ((c : Thread nD τ).loc b)) (hA : ∀ w, A w = U (Pipeline.arrRef spec0 w)) :
    ((dat0 V c).arrays A : sProp 𝕄) = iprop((((c : Thread nD τ).loc main_v23) ↦{fullShare} U main_v23)
      ∗ (((c : Thread nD τ).loc main_arg0) ↦{PosShare.left fullShare} U main_arg0)
      ∗ (((c : Thread nD τ).loc main_v11) ↦{fullShare} U main_v11)
      ∗ (((c : Thread nD τ).loc main_arg0) ↦{PosShare.right fullShare} U main_arg0)
      ∗ (((c : Thread nD τ).loc main_v25) ↦{fullShare} U main_v25)
      ∗ (((c : Thread nD τ).loc main_v27) ↦{fullShare} U main_v27)
      ∗ (((c : Thread nD τ).loc main_v38) ↦{fullShare} U main_v38)
      ∗ (((c : Thread nD τ).loc main_v39) ↦{fullShare} U main_v39)
      ∗ (((c : Thread nD τ).loc main_v40) ↦{fullShare} U main_v40)
      ∗ (((c : Thread nD τ).loc main_v41) ↦{fullShare} U main_v41)
      ∗ (((c : Thread nD τ).loc main_v42) ↦{fullShare} U main_v42)
      ∗ (((c : Thread nD τ).loc main_v43) ↦{fullShare} U main_v43)) := by
  rw [arrays0_eq V c A U hA, bigSep_W0]
  rfl

/-- ENTRY: the eleven buffers behind region 0's arrays, whole at contents `U`, make the region's arrays at those contents. -/
theorem arrays0_of_arrBufs (c : Dev nD) (A : (w : Fin cfg0.W) → Buf (Elt F) ((cfg0.win w).arr.view.loc (c : Thread nD τ)))
    (U : (b : Ref sig .tc) → Buf (Elt F) ((c : Thread nD τ).loc b)) (hA : ∀ w, A w = U (Pipeline.arrRef spec0 w)) :
    (Pipeline.arrBufs spec0 c U : sProp 𝕄) ⊢ (dat0 V c).arrays A := by
  rw [arrays0_chain V c A U hA, arrBufs0_chain]
  iintro ⟨H0, Hx, H2, H4, H5, H6, H7, H8, H9, H10, H11⟩
  ihave Hx' := (pointsTo_share (PosShare.mem_left_op_right fullShare)).1 $$ Hx
  icases Hx' with ⟨Hl, Hr⟩
  isplitl [H0]; · iexact H0
  isplitl [Hl]; · iexact Hl
  isplitl [H2]; · iexact H2
  isplitl [Hr]; · iexact Hr
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- EXIT: region 0's arrays at contents read off a valuation `U` make the eleven buffers behind them, whole at `U`. -/
theorem arrBufs_of_arrays0 (c : Dev nD) (A : (w : Fin cfg0.W) → Buf (Elt F) ((cfg0.win w).arr.view.loc (c : Thread nD τ)))
    (U : (b : Ref sig .tc) → Buf (Elt F) ((c : Thread nD τ).loc b)) (hA : ∀ w, A w = U (Pipeline.arrRef spec0 w)) :
    ((dat0 V c).arrays A : sProp 𝕄) ⊢ Pipeline.arrBufs spec0 c U := by
  rw [arrays0_chain V c A U hA, arrBufs0_chain]
  iintro ⟨H0, Hl, H2, Hr, H4, H5, H6, H7, H8, H9, H10, H11⟩
  ihave Hx := (pointsTo_share (PosShare.mem_left_op_right fullShare)).2 $$ [Hl Hr]
  · isplitl [Hl]; · iexact Hl
    iexact Hr
  isplitl [H0]; · iexact H0
  isplitl [Hx]; · iexact Hx
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- ENTRY over all the unscoped buffers: at contents `V c` they are region 0's arrays at the proof data's entry contents and the rest. -/
theorem arrays0_of_unscopedBufs (c : Dev nD) :
    (unscopedBufs c (V c) : sProp 𝕄) ⊢ iprop((dat0 V c).arrays ((dat0 V c).arrAt · 0) ∗ Pipeline.unscopedRest spec0 c (V c)) := by
  rw [Pipeline.unscopedBufs_split₀ cfgs 0 winFacts₀0.arr_unscoped c (V c)]
  exact sep_mono (arrays0_of_arrBufs V c _ (V c) fun w => A_eq0 V c w) .rfl

/-- EXIT over all the unscoped buffers: region 0's arrays at contents `A` and the rest at `V c` are the unscoped buffers at any
    valuation that has the arrays at `A` and agrees with `V c` off them. -/
theorem unscopedBufs_of_arrays0 (c : Dev nD) (V' : (b : Ref sig .tc) → Buf (Elt F) ((c : Thread nD τ).loc b))
    (A : (w : Fin cfg0.W) → Buf (Elt F) ((cfg0.win w).arr.view.loc (c : Thread nD τ)))
    (hA : ∀ w, A w = V' (Pipeline.arrRef spec0 w))
    (hrest : ∀ b, b ∉ Finset.univ.image (Pipeline.arrRef spec0) → V' b = V c b) :
    iprop((dat0 V c).arrays A ∗ Pipeline.unscopedRest spec0 c (V c)) ⊢ (unscopedBufs c V' : sProp 𝕄) := by
  rw [Pipeline.unscopedBufs_split₀ cfgs 0 winFacts₀0.arr_unscoped c V']
  refine sep_mono (arrBufs_of_arrays0 V c A V' hA) (Entails.of_eq ?_)
  unfold Pipeline.unscopedRest
  exact bigSep_congr fun b hb => by rw [hrest b (Finset.mem_sdiff.mp hb).2]

end Cert.KernelIdeal.Fr

end
-- ==== Proof.FrameRun.lean ====
/-
  The whole run of the kernel program: four kernel regions between five stretches of host operations. The contents of every unscoped buffer
  are followed from the launch memory through the stretches (each a fold of its operations) and the regions (a region leaves its output array at
  what its twenty write-backs make of it, every other buffer as it found it), and every weakly fair execution from a memory with zero counters
  terminates in a state whose unscoped buffers hold the last of these contents. The arguments are written by no stretch and are no region's
  output, so they end as launched. Stated at any float instance.
-/
import proofs.«127730_j83451214562002_2_alg».proof.Proof.Gen.KernelIdeal.Launch
import proofs.«127730_j83451214562002_2_alg».proof.Proof.Gen.KernelIdeal.Skeleton
import proofs.«127730_j83451214562002_2_alg».proof.Proof.Gen.KernelIdeal.Points
import proofs.«127730_j83451214562002_2_alg».proof.Proof.FrameR0
import proofs.«127730_j83451214562002_2_alg».proof.Proof.FrameR1
import proofs.«127730_j83451214562002_2_alg».proof.Proof.FrameR2
import proofs.«127730_j83451214562002_2_alg».proof.Proof.FrameR3
import proofs.«127730_j83451214562002_2_alg».proof.Proof.FrameShare0
import proofs.«127730_j83451214562002_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A pipeline's arrays written over a valuation read back at a window's array, when windows on one array carry the same contents. -/
theorem withArrays_arr' {gr W : Nat} (win : Fin W → Pipeline.WinSpec sig gr) (c : Dev nD) (U : Valuation τ sig (Elt F))
    (A : (w : Fin W) → Buf (Elt F) ((win w).arr.view.loc (c.tc : Thread nD τ))) (w : Fin W)
    (hA : ∀ w', Pipeline.arrRef win w' = Pipeline.arrRef win w → HEq (A w') (A w)) :
    Pipeline.withArrays win c U A (Proc.devRef .tc (Pipeline.arrRef win w)) = A w := by
  unfold Pipeline.withArrays
  have h : ∃ w', Proc.devRef .tc (Pipeline.arrRef win w') = Proc.devRef (τ := τ) .tc (Pipeline.arrRef win w) := ⟨w, rfl⟩
  rw [dif_pos h]
  exact eq_of_heq ((cast_heq _ _).trans (hA _ (Proc.devRef_injective _ h.choose_spec)))

/-! ## The buffers' contents at every boundary -/

/-- Core `c`'s buffers at launch. -/
abbrev W0 : Dev nD → Valuation τ sig (Elt F) := fun c b => (s₀ m ρ).mem ((c : Dev nD), b)
/-- After host stretch 0: region 0's entry contents. -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; refine withArrays_arr' spec0 c _ _ w fun w' e => ?_
  rcases arr_coll0 w w' e with rfl | ⟨h', h⟩
  · exact HEq.rfl
  · rw [(dat0 (U1 m ρ) c).arrAt_in w' h', (dat0 (U1 m ρ) c).arrAt_in w h, A_eq0, A_eq0]
    exact congr_arg_heq (U1 m ρ c) e
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- Region 0 changes its output array only: an input window's array is never written back. -/
theorem W2_keep (c : Dev nD) (b : Ref sig .tc) (hb : b ≠ main_v43) :
    W2 m ρ c (Proc.devRef .tc b) = W1 m ρ c (Proc.devRef .tc b) := by
  by_cases h : ∃ w, Pipeline.arrRef spec0 w = b
  · obtain ⟨w, rfl⟩ := h
    have hin : (cfg0.win w).isOut = false :=
      (by decide : ∀ w : Fin 12, Pipeline.arrRef spec0 w ≠ main_v43 → (cfg0.win w).isOut = false) w hb
    exact (W2_arr m ρ c w).trans (((dat0 (U1 m ρ) c).arrAt_in w hin _).trans (A_eq0 (U1 m ρ) c w))
  · exact W2_of_ne m ρ c b fun w e => h ⟨w, e⟩

/-- After host stretch 1: region 1's entry contents. -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
/-- Region 1 changes its output array only: an input window's array is never written back. -/
theorem W4_keep (c : Dev nD) (b : Ref sig .tc) (hb : b ≠ main_v75) :
    W4 m ρ c (Proc.devRef .tc b) = W3 m ρ c (Proc.devRef .tc b) := by
  by_cases h : ∃ w, Pipeline.arrRef spec1 w = b
  · obtain ⟨w, rfl⟩ := h
    have hin : (cfg1.win w).isOut = false :=
      (by decide : ∀ w : Fin 11, Pipeline.arrRef spec1 w ≠ main_v75 → (cfg1.win w).isOut = false) w hb
    exact (W4_arr m ρ c w).trans (((dat1 (U3 m ρ) c).arrAt_in w hin _).trans (A_eq1 (U3 m ρ) c w))
  · exact W4_of_ne m ρ c b fun w e => h ⟨w, e⟩

/-- After host stretch 2: region 2's entry contents. -/
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (U5 m ρ) c).arrAt w cfg2.N
theorem W6_arr (c : Dev nD) (w : Fin cfg2.W) :
    W6 m ρ c (Proc.devRef .tc (Pipeline.arrRef spec2 w)) = (dat2 (U5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev U6 : (c : Dev nD) → (b : Ref sig .tc) → Buf (Elt F) ((c : Thread nD τ).loc b) := fun c b => W6 m ρ c b
theorem hF2 (c : Dev nD) (w : Fin cfg2.W) : (dat2 (U5 m ρ) c).arrAt w cfg2.N = U6 m ρ c (Pipeline.arrRef spec2 w) :=
  (W6_arr m ρ c w).symm
theorem hrest2 (c : Dev nD) : ∀ b, b ∉ Finset.univ.image (Pipeline.arrRef spec2) → U6 m ρ c b = U5 m ρ c b :=
  fun b hb => W6_of_ne m ρ c b fun w e => hb (Finset.mem_image.mpr ⟨w, Finset.mem_univ _, e⟩)
/-- Region 2 changes its output array only: an input window's array is never written back. -/
theorem W6_keep (c : Dev nD) (b : Ref sig .tc) (hb : b ≠ main_v107) :
    W6 m ρ c (Proc.devRef .tc b) = W5 m ρ c (Proc.devRef .tc b) := by
  by_cases h : ∃ w, Pipeline.arrRef spec2 w = b
  · obtain ⟨w, rfl⟩ := h
    have hin : (cfg2.win w).isOut = false :=
      (by decide : ∀ w : Fin 11, Pipeline.arrRef spec2 w ≠ main_v107 → (cfg2.win w).isOut = false) w hb
    exact (W6_arr m ρ c w).trans (((dat2 (U5 m ρ) c).arrAt_in w hin _).trans (A_eq2 (U5 m ρ) c w))
  · exact W6_of_ne m ρ c b fun w e => h ⟨w, e⟩

/-- After host stretch 3: region 3's entry contents. -/
abbrev W7 : Dev nD → Valuation τ sig (Elt F) := fun c => StableHlo.after hostOps3 (W6 m ρ c)
abbrev U7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (U7 m ρ) c).arrAt w cfg3.N
theorem W8_arr (c : Dev nD) (w : Fin cfg3.W) :
    W8 m ρ c (Proc.devRef .tc (Pipeline.arrRef spec3 w)) = (dat3 (U7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev U8 : (c : Dev nD) → (b : Ref sig .tc) → Buf (Elt F) ((c : Thread nD τ).loc b) := fun c b => W8 m ρ c b
theorem hF3 (c : Dev nD) (w : Fin cfg3.W) : (dat3 (U7 m ρ) c).arrAt w cfg3.N = U8 m ρ c (Pipeline.arrRef spec3 w) :=
  (W8_arr m ρ c w).symm
theorem hrest3 (c : Dev nD) : ∀ b, b ∉ Finset.univ.image (Pipeline.arrRef spec3) → U8 m ρ c b = U7 m ρ c b :=
  fun b hb => W8_of_ne m ρ c b fun w e => hb (Finset.mem_image.mpr ⟨w, Finset.mem_univ _, e⟩)
/-- Region 3 changes its output array only: an input window's array is never written back. -/
theorem W8_keep (c : Dev nD) (b : Ref sig .tc) (hb : b ≠ main_v147) :
    W8 m ρ c (Proc.devRef .tc b) = W7 m ρ c (Proc.devRef .tc b) := by
  by_cases h : ∃ w, Pipeline.arrRef spec3 w = b
  · obtain ⟨w, rfl⟩ := h
    have hin : (cfg3.win w).isOut = false :=
      (by decide : ∀ w : Fin 21, Pipeline.arrRef spec3 w ≠ main_v147 → (cfg3.win w).isOut = false) w hb
    exact (W8_arr m ρ c w).trans (((dat3 (U7 m ρ) c).arrAt_in w hin _).trans (A_eq3 (U7 m ρ) c w))
  · exact W8_of_ne m ρ c b fun w e => h ⟨w, e⟩

/-- After the last host stretch: the contents at the return. -/
abbrev W9 : Dev nD → Valuation τ sig (Elt F) := fun c => StableHlo.after hostOps4 (W8 m ρ c)

/-- A buffer that no host stretch writes and that is no region's output ends as launched. -/
theorem W9_keep (c : Dev nD) (b : Ref sig .tc) (h0 : b ∉ hostOps0_W) (h1 : b ∉ hostOps1_W) (h2 : b ∉ hostOps2_W) (h3 : b ∉ hostOps3_W)
    (h4 : b ∉ hostOps4_W) (ho : b ∉ ([main_v43, main_v75, main_v107, main_v147] : List (Ref sig .tc))) :
    W9 m ρ c (Proc.devRef .tc b) = m ((c : Thread nD τ).loc b) := by
  have n0 : b ≠ main_v43 := fun e => ho (by subst e; simp)
  have n1 : b ≠ main_v75 := fun e => ho (by subst e; simp)
  have n2 : b ≠ main_v107 := fun e => ho (by subst e; simp)
  have n3 : b ≠ main_v147 := fun e => ho (by subst e; simp)
  calc W9 m ρ c (Proc.devRef .tc b)
    _ = W8 m ρ c (Proc.devRef .tc b) := StableHlo.after_of_writes_sub hostOps4 _ hostOps4_writes h4
    _ = W7 m ρ c (Proc.devRef .tc b) := W8_keep m ρ c b n3
    _ = W6 m ρ c (Proc.devRef .tc b) := StableHlo.after_of_writes_sub hostOps3 _ hostOps3_writes h3
    _ = W5 m ρ c (Proc.devRef .tc b) := W6_keep m ρ c b n2
    _ = W4 m ρ c (Proc.devRef .tc b) := StableHlo.after_of_writes_sub hostOps2 _ hostOps2_writes h2
    _ = W3 m ρ c (Proc.devRef .tc b) := W4_keep m ρ c b n1
    _ = W2 m ρ c (Proc.devRef .tc b) := StableHlo.after_of_writes_sub hostOps1 _ hostOps1_writes h1
    _ = W1 m ρ c (Proc.devRef .tc b) := W2_keep m ρ c b n0
    _ = W0 m ρ c (Proc.devRef .tc b) := StableHlo.after_of_writes_sub hostOps0 _ hostOps0_writes h0
    _ = m ((c : Thread nD τ).loc b) := rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U5 m ρ) c
  | ⟨3, _⟩ => fun c => dat3 (U7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the return contents, the generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered from every unscoped buffer at `W1`, left at `W2`. Its arrays are split out of the
    unscoped buffers and put back at the exit contents; the generator register goes into the invariant and comes out; nothing is owed. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit : (unscopedBufs c (U1 m ρ c) : sProp 𝕄)
        ⊢ iprop((pdats m ρ 0 c).arrays ((pdats m ρ 0 c).arrAt · 0) ∗ Pipeline.unscopedRest spec0 c (U1 m ρ c)) :=
      arrays0_of_unscopedBufs (U1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (U1 m ρ c))
        ⊢ (unscopedBufs c (U2 m ρ c) : sProp 𝕄) :=
      unscopedBufs_of_arrays0 (U1 m ρ) c (U2 m ρ c) _ (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out of the
    unscoped buffers and put back at the exit contents; the generator register goes into the invariant and comes out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out of the
    unscoped buffers and put back at the exit contents; the generator register goes into the invariant and comes out; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split out of the
    unscoped buffers and put back at the exit contents; the generator register goes into the invariant and comes out; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (U7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U7 m ρ c) (U8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates, nothing faulting, and
    every final state holds, in each unscoped buffer of each core, the return contents `W9`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => show (iprop(StableHlo.held (c : Thread nD τ) (Pipeline.ucRefs τ sig) (W9 m ρ c) ∗ R c) : sProp 𝕄)
          ⊢ iprop(Tₙ m ρ c ∗ ∃ W, owes (c : Thread nD τ) (0 : CellTallies nD τ sig Unit) W) from by
        iintro ⟨Hh, Hp, Ho⟩
        isplitl [Hh Hp]
        · isplitl [Hh] <;> iassumption
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME: every weakly fair execution terminates, nothing faulting, and every argument array ends as launched; also the result
    array ends at the return contents. -/
theorem frame : θ_run defs (onTc (τ := τ) (main (F := F))) ⟨m, fun _ => 0, ρ⟩ (fun r => ∀ c : Dev nD,
      r.2.mem ((c.tc : Thread nD τ).loc main_v148) = W9 m ρ c (Proc.devRef .tc main_v148)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨h c _ (mem_uc main_v148 (by decide)),
      (h c _ (mem_uc main_arg0 (by decide))).trans (W9_keep m ρ c main_arg0 (by decide) (by decide) (by decide) (by decide) (by decide) (by decide)),
      (h c _ (mem_uc main_arg1 (by decide))).trans (W9_keep m ρ c main_arg1 (by decide) (by decide) (by decide) (by decide) (by decide) (by decide)),
      (h c _ (mem_uc main_arg2 (by decide))).trans (W9_keep m ρ c main_arg2 (by decide) (by decide) (by decide) (by decide) (by decide) (by decide)),
      (h c _ (mem_uc main_arg3 (by decide))).trans (W9_keep m ρ c main_arg3 (by decide) (by decide) (by decide) (by decide) (by decide) (by decide)),
      (h c _ (mem_uc main_arg4 (by decide))).trans (W9_keep m ρ c main_arg4 (by decide) (by decide) (by decide) (by decide) (by decide) (by decide)),
      (h c _ (mem_uc main_arg5 (by decide))).trans (W9_keep m ρ c main_arg5 (by decide) (by decide) (by decide) (by decide) (by decide) (by decide)),
      (h c _ (mem_uc main_arg6 (by decide))).trans (W9_keep m ρ c main_arg6 (by decide) (by decide) (by decide) (by decide) (by decide) (by decide)),
      (h c _ (mem_uc main_arg7 (by decide))).trans (W9_keep m ρ c main_arg7 (by decide) (by decide) (by decide) (by decide) (by decide) (by decide)),
      (h c _ (mem_uc main_arg8 (by decide))).trans (W9_keep m ρ c main_arg8 (by decide) (by decide) (by decide) (by decide) (by decide) (by decide)),
      (h c _ (mem_uc main_arg9 (by decide))).trans (W9_keep m ρ c main_arg9 (by decide) (by decide) (by decide) (by decide) (by decide) (by decide)),
      (h c _ (mem_uc main_arg10 (by decide))).trans (W9_keep m ρ c main_arg10 (by decide) (by decide) (by decide) (by decide) (by decide) (by decide)),
      (h c _ (mem_uc main_arg11 (by decide))).trans (W9_keep m ρ c main_arg11 (by decide) (by decide) (by decide) (by decide) (by decide) (by decide)),
      (h c _ (mem_uc main_arg12 (by decide))).trans (W9_keep m ρ c main_arg12 (by decide) (by decide) (by decide) (by decide) (by decide) (by decide)),
      (h c _ (mem_uc main_arg13 (by decide))).trans (W9_keep m ρ c main_arg13 (by decide) (by decide) (by decide) (by decide) (by decide) (by decide)),
      (h c _ (mem_uc main_arg14 (by decide))).trans (W9_keep m ρ c main_arg14 (by decide) (by decide) (by decide) (by decide) (by decide) (by decide)),
      (h c _ (mem_uc main_arg15 (by decide))).trans (W9_keep m ρ c main_arg15 (by decide) (by decide) (by decide) (by decide) (by decide) (by decide)),
      (h c _ (mem_uc main_arg16 (by decide))).trans (W9_keep m ρ c main_arg16 (by decide) (by decide) (by decide) (by decide) (by decide) (by decide)),
      (h c _ (mem_uc main_arg17 (by decide))).trans (W9_keep m ρ c main_arg17 (by decide) (by decide) (by decide) (by decide) (by decide) (by decide)),
      (h c _ (mem_uc main_arg18 (by decide))).trans (W9_keep m ρ c main_arg18 (by decide) (by decide) (by decide) (by decide) (by decide) (by decide))⟩) (run m ρ)

end Cert.KernelIdeal.Fr

end
-- ==== Proof.Spec.lean ====
/-
  The network both programs compute, written entry by entry over the extended reals.

  A node's row after one layer is a batch-normalised, rectified affine image of two rows: the row `h` of the node itself
  and the row `agg` that the graph aggregation (a gather along the edges' sources followed by a scatter-add into their
  targets) hands it, turned into a neighbourhood mean by the node's in-degree clipped below at one. The last layer is
  followed, row by row, by a layer normalisation over the 128 features and a two-step head (128 → 64 → 1).
  Two arrangements of the same arithmetic are stated side by side: one multiplies by a reciprocal square root and by
  a reciprocal in-degree, the other divides by a square root and by the in-degree. They agree wherever the batch
  statistics' variances are non-negative (the quantity under each square root is then positive) — the in-degree is at
  least one by construction, and the layer normalisation's variance is a mean of squares, hence non-negative on the
  extended reals whatever the row holds.
-/
import Idealize.ShloMosaic.PureOps.Ideal
import Idealize.ShloMosaic.Lib.ValueIdx

noncomputable section

namespace Cert.Gnn

open Idealize.ShloMosaic Idealize.ShloMosaic.ValueIdx

/-- The stabiliser added under every square root: the single-precision number nearest to 1e-5. -/
def eps : EReal := Ideal.ofBits .f32 0x3727C5AC#32
/-- The number of features, 128, as both programs spell it. -/
def c128 : EReal := Ideal.ofBits .f32 0x43000000#32

/-- A node-by-feature array. -/
abbrev Arr : Type := (⟨2, ![100000, 128]⟩ : Shape).Idx → EReal

/-- The affine part of a layer at output feature `c`: the mean row through `wl`, the node's row through `wr`, the bias. -/
def lin {n : ℕ} (mean h : Fin 128 → EReal) (wl wr : Fin 128 → Fin n → EReal) (b : Fin n → EReal) (c : Fin n) : EReal :=
  (∑ k, mean k * wl k c) + (∑ k, h k * wr k c) + b c

/-- Batch normalisation with running statistics (the scale given), then the rectifier. -/
def bnRelu (z mm scale bb : EReal) : EReal := max ((z - mm) * scale + bb) 0

/-- The batch-normalisation scale as a product with a reciprocal square root, -/
def scaleK (g v : EReal) : EReal := g * Ideal.rsqrt (v + eps)
/-- and as a quotient by a square root. -/
def scaleR (g v : EReal) : EReal := Ideal.div g (Ideal.sqrt (v + eps))

/-- One entry of a layer's output row, the mean taken by multiplying with the reciprocal clipped in-degree `rc`. -/
def rowK (agg h : Fin 128 → EReal) (rc : EReal) (wl wr : Fin 128 → Fin 128 → EReal) (b g bb mm v : Fin 128 → EReal)
    (c : Fin 128) : EReal :=
  bnRelu (lin (fun k => agg k * rc) h wl wr b c) (mm c) (scaleK (g c) (v c)) (bb c)

/-- One entry of a layer's output row, the mean taken by dividing by the clipped in-degree `mx`. -/
def rowR (agg h : Fin 128 → EReal) (mx : EReal) (wl wr : Fin 128 → Fin 128 → EReal) (b g bb mm v : Fin 128 → EReal)
    (c : Fin 128) : EReal :=
  bnRelu (lin (fun k => Ideal.div (agg k) mx) h wl wr b c) (mm c) (scaleR (g c) (v c)) (bb c)

/-- The mean of a row of 128 features. -/
def mean128 (x : Fin 128 → EReal) : EReal := Ideal.div (∑ c, x c) c128
/-- The (biased) variance of a row: the mean of the squared deviations. -/
def var128 (x : Fin 128 → EReal) : EReal := mean128 fun c => (x c - mean128 x) * (x c - mean128 x)

/-- Layer normalisation of a row, by a reciprocal square root, -/
def lnK (x lng lnb : Fin 128 → EReal) (c : Fin 128) : EReal :=
  (x c - mean128 x) * Ideal.rsqrt (var128 x + eps) * lng c + lnb c
/-- and by a quotient. -/
def lnR (x lng lnb : Fin 128 → EReal) (c : Fin 128) : EReal :=
  Ideal.div (x c - mean128 x) (Ideal.sqrt (var128 x + eps)) * lng c + lnb c

/-- The head's hidden row (128 → 64): linear, batch-normalised at the given kind of scale, rectified. -/
def hid (scale : EReal → EReal → EReal) (hn : Fin 128 → EReal) (w1 : Fin 128 → Fin 64 → EReal)
    (b1 bog bob bom bov : Fin 64 → EReal) (j : Fin 64) : EReal :=
  bnRelu ((∑ c, hn c * w1 c j) + b1 j) (bom j) (scale (bog j) (bov j)) (bob j)

/-- The head's output (64 → 1). -/
def outp (z : Fin 64 → EReal) (w2 : Fin 64 → EReal) (b2 : EReal) : EReal := (∑ j, z j * w2 j) + b2

/-- The parameters of the network, as families of extended reals. -/
structure Params where
  wl : Fin 4 → Fin 128 → Fin 128 → EReal
  wr : Fin 4 → Fin 128 → Fin 128 → EReal
  b : Fin 4 → Fin 128 → EReal
  g : Fin 4 → Fin 128 → EReal
  bb : Fin 4 → Fin 128 → EReal
  mm : Fin 4 → Fin 128 → EReal
  v : Fin 4 → Fin 128 → EReal
  lng : Fin 128 → EReal
  lnb : Fin 128 → EReal
  w1 : Fin 128 → Fin 64 → EReal
  b1 : Fin 64 → EReal
  bog : Fin 64 → EReal
  bob : Fin 64 → EReal
  bom : Fin 64 → EReal
  bov : Fin 64 → EReal
  w2 : Fin 64 → EReal
  b2 : EReal

/-- The parameters read off the programs' argument arrays (stacked per layer along the first axis). -/
def mkParams (a2 a3 : (⟨3, ![4, 128, 128]⟩ : Shape).Idx → EReal) (a4 a5 a6 a7 a8 : (⟨2, ![4, 128]⟩ : Shape).Idx → EReal)
    (a9 a10 : (⟨1, ![128]⟩ : Shape).Idx → EReal) (a11 : (⟨2, ![128, 64]⟩ : Shape).Idx → EReal)
    (a12 a13 a14 a15 a16 : (⟨1, ![64]⟩ : Shape).Idx → EReal) (a17 : (⟨2, ![64, 1]⟩ : Shape).Idx → EReal)
    (a18 : (⟨1, ![1]⟩ : Shape).Idx → EReal) : Params where
  wl l k c := a2 (ix3 l k c)
  wr l k c := a3 (ix3 l k c)
  b l c := a4 (ix2 l c)
  g l c := a5 (ix2 l c)
  bb l c := a6 (ix2 l c)
  mm l c := a7 (ix2 l c)
  v l c := a8 (ix2 l c)
  lng c := a9 (ix1 c)
  lnb c := a10 (ix1 c)
  w1 c j := a11 (ix2 c j)
  b1 j := a12 (ix1 j)
  bog j := a13 (ix1 j)
  bob j := a14 (ix1 j)
  bom j := a15 (ix1 j)
  bov j := a16 (ix1 j)
  w2 j := a17 (ix2 j (0 : Fin 1))
  b2 := a18 (ix1 (0 : Fin 1))

/-- The row `r` of an array. -/
def row (A : Arr) (r : Fin 100000) : Fin 128 → EReal := fun k => A (ix2 r k)

/-- One layer over whole arrays, in the multiplying arrangement: `AGG` is the graph aggregation, `rc` the nodes'
    reciprocal clipped in-degrees, `l` the layer. -/
def layerK (AGG : Arr → Arr) (rc : Fin 100000 → EReal) (P : Params) (l : Fin 4) (h : Arr) : Arr :=
  fun i => rowK (row (AGG h) (i 0)) (row h (i 0)) (rc (i 0)) (P.wl l) (P.wr l) (P.b l) (P.g l) (P.bb l) (P.mm l) (P.v l) (i 1)

/-- One layer over whole arrays, in the dividing arrangement: `mx` the nodes' clipped in-degrees. -/
def layerR (AGG : Arr → Arr) (mx : Fin 100000 → EReal) (P : Params) (l : Fin 4) (h : Arr) : Arr :=
  fun i => rowR (row (AGG h) (i 0)) (row h (i 0)) (mx (i 0)) (P.wl l) (P.wr l) (P.b l) (P.g l) (P.bb l) (P.mm l) (P.v l) (i 1)

/-- The head on a row, multiplying arrangement, -/
def headK (P : Params) (x : Fin 128 → EReal) : EReal :=
  outp (hid scaleK (lnK x P.lng P.lnb) P.w1 P.b1 P.bog P.bob P.bom P.bov) P.w2 P.b2
/-- and dividing arrangement. -/
def headR (P : Params) (x : Fin 128 → EReal) : EReal :=
  outp (hid scaleR (lnR x P.lng P.lnb) P.w1 P.b1 P.bog P.bob P.bom P.bov) P.w2 P.b2

/-- The first layer's output with the input added back (the only residual connection). -/
def resid (f : Arr) (x : Arr) : Arr := fun i => f i + x i

/-- The whole network at node `r`, multiplying arrangement, -/
def netK (AGG : Arr → Arr) (rc : Fin 100000 → EReal) (P : Params) (x : Arr) (r : Fin 100000) : EReal :=
  headK P (row (layerK AGG rc P 3 (layerK AGG rc P 2 (layerK AGG rc P 1 (resid (layerK AGG rc P 0 x) x)))) r)
/-- and dividing arrangement. -/
def netR (AGG : Arr → Arr) (mx : Fin 100000 → EReal) (P : Params) (x : Arr) (r : Fin 100000) : EReal :=
  headR P (row (layerR AGG mx P 3 (layerR AGG mx P 2 (layerR AGG mx P 1 (resid (layerR AGG mx P 0 x) x)))) r)

end Cert.Gnn

end
-- ==== Proof.RefValue.lean ====
/-
  The reference program's result, stage by stage, is the network of `Spec.lean` in its dividing arrangement.

  The graph aggregation (a gather along the edges' sources followed by a scatter-add into their targets) and the clipped
  in-degree are kept as the functions the program itself spells; every layer spells them again from the same edge list,
  and the copies are the same terms. Everything else is read entry by entry: a stage's entry at an index is an arithmetic
  expression in entries of earlier stages, down to the arguments, the aggregation and the in-degree. The only index
  arithmetic is in the reads of the stacked per-layer parameters (a slice of the stack seen through a reshape).
  Each rewriting step carries its own equation, so that no step asks for two whole stages to be compared by unfolding.
-/
import proofs.«127730_j83451214562002_2_alg».proof.Proof.RefRead
import proofs.«127730_j83451214562002_2_alg».proof.Proof.Spec

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Cert.Gnn

/-- The graph aggregation of a node array: every edge's source row (the source index read modulo the node count when
    negative) is gathered and added into the row of the edge's target, starting from zero. -/
def AGG (a1 : (⟨S2x1600000, .i32⟩ : BufTy).Contents (Elt Ideal)) (h : Cert.Gnn.Arr) : Cert.Gnn.Arr :=
  (Host.scatterAdd scatter_S100000x128_S1600000x1_S1600000x128_1_0_0_1 (val_main_v17 (F := Ideal))
    (val_main_v18 (F := Ideal) a1)
    (Host.gather gather_S100000x128_S1600000x1_S1600000x128_1_0_n_n_0_1_1128 (h : FVec Ideal S100000x128 .f32)
      (val_main_v15 (F := Ideal) a1)) : FVec Ideal S100000x128 .f32)

/-- A node's in-degree (a one added per incoming edge), clipped below at one. -/
def mx (a1 : (⟨S2x1600000, .i32⟩ : BufTy).Contents (Elt Ideal)) : Fin 100000 → EReal :=
  fun r => val_main_v25 (F := Ideal) a1 (ix2 r (0 : Fin 1))

/-! ## Reading an array at coordinates

The stages read their operands at index functions of their own; the network is stated with indices built from
coordinates. Both read the same element when the coordinates agree, and a coordinate of either kind of index computes. -/

/-- A rank-2 array read at its two coordinates. -/
def at2 {α : Type} {n0 n1 : Nat} (f : (⟨2, ![n0, n1]⟩ : Shape).Idx → α) (x : Fin n0) (y : Fin n1) : α := f (ix2 x y)
/-- Reading at an index is reading at the index's coordinates. -/
theorem at2_eq {α : Type} {n0 n1 : Nat} (f : (⟨2, ![n0, n1]⟩ : Shape).Idx → α) (J : (⟨2, ![n0, n1]⟩ : Shape).Idx) :
    f J = at2 f ⟨(J 0).val, idx2_lt0 J⟩ ⟨(J 1).val, idx2_lt1 J⟩ := congrArg f (eq_ix2 J)
/-- A rank-1 array read at its coordinate. -/
def at1 {α : Type} {n : Nat} (f : (⟨1, ![n]⟩ : Shape).Idx → α) (x : Fin n) : α := f (ix1 x)
/-- Reading at an index is reading at the index's coordinate. -/
theorem at1_eq {α : Type} {n : Nat} (f : (⟨1, ![n]⟩ : Shape).Idx → α) (J : (⟨1, ![n]⟩ : Shape).Idx) :
    f J = at1 f ⟨(J 0).val, (J 0).isLt⟩ := congrArg f (eq_ix1 J)
/-- The coordinate of an index built from one coordinate. -/
theorem c10 {n : Nat} (a : Fin n) : (ix1 a) 0 = a := rfl
/-- The first coordinate of an index built from two coordinates, -/
theorem c20 {n0 n1 : Nat} (a : Fin n0) (b : Fin n1) : (ix2 a b) 0 = a := rfl
/-- and the second. -/
theorem c21 {n0 n1 : Nat} (a : Fin n0) (b : Fin n1) : (ix2 a b) 1 = b := rfl

/-! ## Indices of the stacked parameters

A layer's weight matrix is the slice `[l, :, :]` of the stacked array read through a reshape that drops the unit axis,
so entry `(j₀, j₁)` of the matrix is entry `(l, j₀, j₁)` of the stack: the reshape's row-major arithmetic is
`(j₀ * 128 + j₁) / 128 % 128 = j₀` and `(j₀ * 128 + j₁) % 128 = j₁` for coordinates below 128. Likewise for a vector. -/

theorem w_idx (l : Fin 4) (J : S4x128x128.Idx) (j : S128x128.Idx) (h0 : (J 0).val = l.val)
    (h1 : (J 1).val = ((j 0).val * 128 + (j 1).val) / 128 % 128) (h2 : (J 2).val = ((j 0).val * 128 + (j 1).val) % 128) :
    J = ix3 l ⟨(j 0).val, idx2_lt0 j⟩ ⟨(j 1).val, idx2_lt1 j⟩ := by
  have b0 := idx2_lt0 j
  have b1 := idx2_lt1 j
  funext a
  refine Fin.ext ?_
  match a with
  | ⟨0, _⟩ => exact h0
  | ⟨1, _⟩ => refine h1.trans ?_; show ((j 0).val * 128 + (j 1).val) / 128 % 128 = (j 0).val; omega
  | ⟨2, _⟩ => refine h2.trans ?_; show ((j 0).val * 128 + (j 1).val) % 128 = (j 1).val; omega

theorem v_idx (l : Fin 4) (J : S4x128.Idx) (j : S128.Idx) (h0 : (J 0).val = l.val) (h1 : (J 1).val = (j 0).val % 128) :
    J = ix2 l ⟨(j 0).val, (j 0).isLt⟩ := by
  have b0 : (j 0).val < 128 := (j 0).isLt
  funext a
  refine Fin.ext ?_
  match a with
  | ⟨0, _⟩ => exact h0
  | ⟨1, _⟩ => refine h1.trans ?_; show (j 0).val % 128 = (j 0).val; omega

section Stages

variable (a0 : (⟨S100000x128, .f32⟩ : BufTy).Contents (Elt Ideal)) (a1 : (⟨S2x1600000, .i32⟩ : BufTy).Contents (Elt Ideal))
  (a2 a3 : (⟨S4x128x128, .f32⟩ : BufTy).Contents (Elt Ideal)) (a4 a5 a6 a7 a8 : (⟨S4x128, .f32⟩ : BufTy).Contents (Elt Ideal))
  (a9 a10 : (⟨S128, .f32⟩ : BufTy).Contents (Elt Ideal)) (a11 : (⟨S128x64, .f32⟩ : BufTy).Contents (Elt Ideal))
  (a12 a13 a14 a15 a16 : (⟨S64, .f32⟩ : BufTy).Contents (Elt Ideal)) (a17 : (⟨S64x1, .f32⟩ : BufTy).Contents (Elt Ideal))
  (a18 : (⟨S1, .f32⟩ : BufTy).Contents (Elt Ideal))

/-! ## The first layer's parameters, read at an index -/

theorem rd_v5 (j : S128x128.Idx) :
    val_main_v5 (F := Ideal) a2 j = a2 (ix3 (0 : Fin 4) ⟨(j 0).val, idx2_lt0 j⟩ ⟨(j 1).val, idx2_lt1 j⟩) := by
  rw [val_main_v5_apply, val_main_v4_apply]; exact congrArg a2 (w_idx 0 _ j rfl rfl rfl)
theorem rd_v7 (j : S128x128.Idx) :
    val_main_v7 (F := Ideal) a3 j = a3 (ix3 (0 : Fin 4) ⟨(j 0).val, idx2_lt0 j⟩ ⟨(j 1).val, idx2_lt1 j⟩) := by
  rw [val_main_v7_apply, val_main_v6_apply]; exact congrArg a3 (w_idx 0 _ j rfl rfl rfl)
theorem rd_v9 (j : S128.Idx) :
    val_main_v9 (F := Ideal) a4 j = a4 (ix2 (0 : Fin 4) ⟨(j 0).val, (j 0).isLt⟩) := by
  rw [val_main_v9_apply, val_main_v8_apply]; exact congrArg a4 (v_idx 0 _ j rfl rfl)
theorem rd_v35 (j : S128.Idx) :
    val_main_v35 (F := Ideal) a5 j = a5 (ix2 (0 : Fin 4) ⟨(j 0).val, (j 0).isLt⟩) := by
  rw [val_main_v35_apply, val_main_v34_apply]; exact congrArg a5 (v_idx 0 _ j rfl rfl)
theorem rd_v37 (j : S128.Idx) :
    val_main_v37 (F := Ideal) a6 j = a6 (ix2 (0 : Fin 4) ⟨(j 0).val, (j 0).isLt⟩) := by
  rw [val_main_v37_apply, val_main_v36_apply]; exact congrArg a6 (v_idx 0 _ j rfl rfl)
theorem rd_v39 (j : S128.Idx) :
    val_main_v39 (F := Ideal) a7 j = a7 (ix2 (0 : Fin 4) ⟨(j 0).val, (j 0).isLt⟩) := by
  rw [val_main_v39_apply, val_main_v38_apply]; exact congrArg a7 (v_idx 0 _ j rfl rfl)
theorem rd_v41 (j : S128.Idx) :
    val_main_v41 (F := Ideal) a8 j = a8 (ix2 (0 : Fin 4) ⟨(j 0).val, (j 0).isLt⟩) := by
  rw [val_main_v41_apply, val_main_v40_apply]; exact congrArg a8 (v_idx 0 _ j rfl rfl)

/-! ## The second layer's parameters, read at an index -/

theorem rd_v58 (j : S128x128.Idx) :
    val_main_v58 (F := Ideal) a2 j = a2 (ix3 (1 : Fin 4) ⟨(j 0).val, idx2_lt0 j⟩ ⟨(j 1).val, idx2_lt1 j⟩) := by
  rw [val_main_v58_apply, val_main_v57_apply]; exact congrArg a2 (w_idx 1 _ j rfl rfl rfl)
theorem rd_v60 (j : S128x128.Idx) :
    val_main_v60 (F := Ideal) a3 j = a3 (ix3 (1 : Fin 4) ⟨(j 0).val, idx2_lt0 j⟩ ⟨(j 1).val, idx2_lt1 j⟩) := by
  rw [val_main_v60_apply, val_main_v59_apply]; exact congrArg a3 (w_idx 1 _ j rfl rfl rfl)
theorem rd_v62 (j : S128.Idx) :
    val_main_v62 (F := Ideal) a4 j = a4 (ix2 (1 : Fin 4) ⟨(j 0).val, (j 0).isLt⟩) := by
  rw [val_main_v62_apply, val_main_v61_apply]; exact congrArg a4 (v_idx 1 _ j rfl rfl)
theorem rd_v88 (j : S128.Idx) :
    val_main_v88 (F := Ideal) a5 j = a5 (ix2 (1 : Fin 4) ⟨(j 0).val, (j 0).isLt⟩) := by
  rw [val_main_v88_apply, val_main_v87_apply]; exact congrArg a5 (v_idx 1 _ j rfl rfl)
theorem rd_v90 (j : S128.Idx) :
    val_main_v90 (F := Ideal) a6 j = a6 (ix2 (1 : Fin 4) ⟨(j 0).val, (j 0).isLt⟩) := by
  rw [val_main_v90_apply, val_main_v89_apply]; exact congrArg a6 (v_idx 1 _ j rfl rfl)
theorem rd_v92 (j : S128.Idx) :
    val_main_v92 (F := Ideal) a7 j = a7 (ix2 (1 : Fin 4) ⟨(j 0).val, (j 0).isLt⟩) := by
  rw [val_main_v92_apply, val_main_v91_apply]; exact congrArg a7 (v_idx 1 _ j rfl rfl)
theorem rd_v94 (j : S128.Idx) :
    val_main_v94 (F := Ideal) a8 j = a8 (ix2 (1 : Fin 4) ⟨(j 0).val, (j 0).isLt⟩) := by
  rw [val_main_v94_apply, val_main_v93_apply]; exact congrArg a8 (v_idx 1 _ j rfl rfl)

/-! ## The third layer's parameters, read at an index -/

theorem rd_v110 (j : S128x128.Idx) :
    val_main_v110 (F := Ideal) a2 j = a2 (ix3 (2 : Fin 4) ⟨(j 0).val, idx2_lt0 j⟩ ⟨(j 1).val, idx2_lt1 j⟩) := by
  rw [val_main_v110_apply, val_main_v109_apply]; exact congrArg a2 (w_idx 2 _ j rfl rfl rfl)
theorem rd_v112 (j : S128x128.Idx) :
    val_main_v112 (F := Ideal) a3 j = a3 (ix3 (2 : Fin 4) ⟨(j 0).val, idx2_lt0 j⟩ ⟨(j 1).val, idx2_lt1 j⟩) := by
  rw [val_main_v112_apply, val_main_v111_apply]; exact congrArg a3 (w_idx 2 _ j rfl rfl rfl)
theorem rd_v114 (j : S128.Idx) :
    val_main_v114 (F := Ideal) a4 j = a4 (ix2 (2 : Fin 4) ⟨(j 0).val, (j 0).isLt⟩) := by
  rw [val_main_v114_apply, val_main_v113_apply]; exact congrArg a4 (v_idx 2 _ j rfl rfl)
theorem rd_v140 (j : S128.Idx) :
    val_main_v140 (F := Ideal) a5 j = a5 (ix2 (2 : Fin 4) ⟨(j 0).val, (j 0).isLt⟩) := by
  rw [val_main_v140_apply, val_main_v139_apply]; exact congrArg a5 (v_idx 2 _ j rfl rfl)
theorem rd_v142 (j : S128.Idx) :
    val_main_v142 (F := Ideal) a6 j = a6 (ix2 (2 : Fin 4) ⟨(j 0).val, (j 0).isLt⟩) := by
  rw [val_main_v142_apply, val_main_v141_apply]; exact congrArg a6 (v_idx 2 _ j rfl rfl)
theorem rd_v144 (j : S128.Idx) :
    val_main_v144 (F := Ideal) a7 j = a7 (ix2 (2 : Fin 4) ⟨(j 0).val, (j 0).isLt⟩) := by
  rw [val_main_v144_apply, val_main_v143_apply]; exact congrArg a7 (v_idx 2 _ j rfl rfl)
theorem rd_v146 (j : S128.Idx) :
    val_main_v146 (F := Ideal) a8 j = a8 (ix2 (2 : Fin 4) ⟨(j 0).val, (j 0).isLt⟩) := by
  rw [val_main_v146_apply, val_main_v145_apply]; exact congrArg a8 (v_idx 2 _ j rfl rfl)

/-! ## The fourth layer's parameters, read at an index -/

theorem rd_v162 (j : S128x128.Idx) :
    val_main_v162 (F := Ideal) a2 j = a2 (ix3 (3 : Fin 4) ⟨(j 0).val, idx2_lt0 j⟩ ⟨(j 1).val, idx2_lt1 j⟩) := by
  rw [val_main_v162_apply, val_main_v161_apply]; exact congrArg a2 (w_idx 3 _ j rfl rfl rfl)
theorem rd_v164 (j : S128x128.Idx) :
    val_main_v164 (F := Ideal) a3 j = a3 (ix3 (3 : Fin 4) ⟨(j 0).val, idx2_lt0 j⟩ ⟨(j 1).val, idx2_lt1 j⟩) := by
  rw [val_main_v164_apply, val_main_v163_apply]; exact congrArg a3 (w_idx 3 _ j rfl rfl rfl)
theorem rd_v166 (j : S128.Idx) :
    val_main_v166 (F := Ideal) a4 j = a4 (ix2 (3 : Fin 4) ⟨(j 0).val, (j 0).isLt⟩) := by
  rw [val_main_v166_apply, val_main_v165_apply]; exact congrArg a4 (v_idx 3 _ j rfl rfl)
theorem rd_v192 (j : S128.Idx) :
    val_main_v192 (F := Ideal) a5 j = a5 (ix2 (3 : Fin 4) ⟨(j 0).val, (j 0).isLt⟩) := by
  rw [val_main_v192_apply, val_main_v191_apply]; exact congrArg a5 (v_idx 3 _ j rfl rfl)
theorem rd_v194 (j : S128.Idx) :
    val_main_v194 (F := Ideal) a6 j = a6 (ix2 (3 : Fin 4) ⟨(j 0).val, (j 0).isLt⟩) := by
  rw [val_main_v194_apply, val_main_v193_apply]; exact congrArg a6 (v_idx 3 _ j rfl rfl)
theorem rd_v196 (j : S128.Idx) :
    val_main_v196 (F := Ideal) a7 j = a7 (ix2 (3 : Fin 4) ⟨(j 0).val, (j 0).isLt⟩) := by
  rw [val_main_v196_apply, val_main_v195_apply]; exact congrArg a7 (v_idx 3 _ j rfl rfl)
theorem rd_v198 (j : S128.Idx) :
    val_main_v198 (F := Ideal) a8 j = a8 (ix2 (3 : Fin 4) ⟨(j 0).val, (j 0).isLt⟩) := by
  rw [val_main_v198_apply, val_main_v197_apply]; exact congrArg a8 (v_idx 3 _ j rfl rfl)

/-! ## The aggregation and the in-degree are the same functions in every layer

Each layer spells the source-index normalisation, the zero array, the broadcast targets and the in-degree count again,
from the same edge list: the terms are equal once the stages' names are unfolded. -/

/-- The first layer aggregates the input array itself. -/
theorem agg_v19 : val_main_v19 (F := Ideal) a0 a1 = AGG a1 a0 := by
  unfold val_main_v19 val_main_v16 AGG
  rfl
/-- The second layer aggregates stage 56, -/
theorem agg_v72 :
    val_main_v72 (F := Ideal) a0 a1 a2 a3 a4 a5 a6 a7 a8 = AGG a1 (val_main_v56 (F := Ideal) a0 a1 a2 a3 a4 a5 a6 a7 a8) := by
  unfold val_main_v72 val_main_v69 AGG
  rfl
/-- the third stage 108, -/
theorem agg_v124 :
    val_main_v124 (F := Ideal) a0 a1 a2 a3 a4 a5 a6 a7 a8 = AGG a1 (val_main_v108 (F := Ideal) a0 a1 a2 a3 a4 a5 a6 a7 a8) := by
  unfold val_main_v124 val_main_v121 AGG
  rfl
/-- the fourth stage 160. -/
theorem agg_v176 :
    val_main_v176 (F := Ideal) a0 a1 a2 a3 a4 a5 a6 a7 a8 = AGG a1 (val_main_v160 (F := Ideal) a0 a1 a2 a3 a4 a5 a6 a7 a8) := by
  unfold val_main_v176 val_main_v173 AGG
  rfl
/-- The later layers' clipped in-degrees are the first layer's. -/
theorem deg_v78 : val_main_v78 (F := Ideal) a1 = val_main_v25 (F := Ideal) a1 := by
  unfold val_main_v78 val_main_v25 val_main_v76 val_main_v23
  rfl
theorem deg_v130 : val_main_v130 (F := Ideal) a1 = val_main_v25 (F := Ideal) a1 := by
  unfold val_main_v130 val_main_v25 val_main_v128 val_main_v23
  rfl
theorem deg_v182 : val_main_v182 (F := Ideal) a1 = val_main_v25 (F := Ideal) a1 := by
  unfold val_main_v182 val_main_v25 val_main_v180 val_main_v23
  rfl

/-! ## The four layers, as equations between node arrays

Each proof reads the layer's last stage at `(r, c)` down to its leaves (the arguments, the aggregation, the in-degree and
the previous layer's stage), unfolds the network's definitions on the other side, and brings every read to coordinates. -/

set_option maxHeartbeats 400000 in
/-- Stage 56: the first layer of the input, with the input added back. -/
theorem layer0 :
    val_main_v56 (F := Ideal) a0 a1 a2 a3 a4 a5 a6 a7 a8
      = resid (layerR (AGG a1) (mx a1) (mkParams a2 a3 a4 a5 a6 a7 a8 a9 a10 a11 a12 a13 a14 a15 a16 a17 a18) 0 a0) a0 := by
  funext i
  obtain ⟨r, c, rfl⟩ : ∃ (r : Fin 100000) (c : Fin 128), i = ix2 r c := ⟨i 0, i 1, eq_ix2 i⟩
  simp (config := { implicitDefEqProofs := false }) only [val_main_v56_apply, val_main_v55_apply, val_main_call0_v0_apply,
    val_main_call0_cst_apply, val_main_v54_apply, val_main_v53_apply, val_main_v52_apply, val_main_v51_apply,
    val_main_v50_apply, val_main_v49_apply, val_main_v48_apply, val_main_v47_apply, val_main_v46_apply, val_main_v45_apply,
    val_main_cst_4_apply, val_main_v44_apply, val_main_v43_apply, val_main_v42_apply, val_main_v33_apply,
    val_main_v32_apply, val_main_v31_apply, val_main_v30_apply, val_main_v29_apply, val_main_v28_apply, val_main_v27_apply,
    val_main_v26_apply, rd_v5, rd_v7, rd_v9, rd_v35, rd_v37, rd_v39, rd_v41, agg_v19,
    Ideal.addf_def, Ideal.subf_def, Ideal.mulf_def, Ideal.maximumf_def, Ideal.hostDivf_def, Ideal.hostUnary_sqrt_def,
    Ideal.ofBits_def, Ideal.ofBits_zero_f32]
  simp (config := { implicitDefEqProofs := false }) only [resid, layerR, rowR, bnRelu, lin, scaleR, row, mkParams, mx, eps]
  simp (config := { implicitDefEqProofs := false }) only [at2_eq a0, at2_eq (AGG a1 a0), at2_eq (val_main_v25 (F := Ideal) a1),
    c20, c21, Fin.eta, Fin.zero_eta]

set_option maxHeartbeats 400000 in
/-- Stage 108: the second layer of stage 56. -/
theorem layer1 :
    val_main_v108 (F := Ideal) a0 a1 a2 a3 a4 a5 a6 a7 a8
      = layerR (AGG a1) (mx a1) (mkParams a2 a3 a4 a5 a6 a7 a8 a9 a10 a11 a12 a13 a14 a15 a16 a17 a18) 1
          (val_main_v56 (F := Ideal) a0 a1 a2 a3 a4 a5 a6 a7 a8) := by
  funext i
  obtain ⟨r, c, rfl⟩ : ∃ (r : Fin 100000) (c : Fin 128), i = ix2 r c := ⟨i 0, i 1, eq_ix2 i⟩
  simp (config := { implicitDefEqProofs := false }) only [val_main_v108_apply, val_main_call1_v0_apply,
    val_main_call1_cst_apply, val_main_v107_apply, val_main_v106_apply, val_main_v105_apply, val_main_v104_apply,
    val_main_v103_apply, val_main_v102_apply, val_main_v101_apply, val_main_v100_apply, val_main_v99_apply,
    val_main_v98_apply, val_main_cst_11_apply, val_main_v97_apply, val_main_v96_apply, val_main_v95_apply,
    val_main_v86_apply, val_main_v85_apply, val_main_v84_apply, val_main_v83_apply, val_main_v82_apply, val_main_v81_apply,
    val_main_v80_apply, val_main_v79_apply, rd_v58, rd_v60, rd_v62, rd_v88, rd_v90, rd_v92, rd_v94, agg_v72, deg_v78,
    Ideal.addf_def, Ideal.subf_def, Ideal.mulf_def, Ideal.maximumf_def, Ideal.hostDivf_def, Ideal.hostUnary_sqrt_def,
    Ideal.ofBits_def, Ideal.ofBits_zero_f32]
  simp (config := { implicitDefEqProofs := false }) only [layerR, rowR, bnRelu, lin, scaleR, row, mkParams, mx, eps]
  simp (config := { implicitDefEqProofs := false }) only [at2_eq (val_main_v56 (F := Ideal) a0 a1 a2 a3 a4 a5 a6 a7 a8),
    at2_eq (AGG a1 (val_main_v56 (F := Ideal) a0 a1 a2 a3 a4 a5 a6 a7 a8)), at2_eq (val_main_v25 (F := Ideal) a1),
    c20, c21, Fin.eta, Fin.zero_eta]

set_option maxHeartbeats 400000 in
/-- Stage 160: the third layer of stage 108. -/
theorem layer2 :
    val_main_v160 (F := Ideal) a0 a1 a2 a3 a4 a5 a6 a7 a8
      = layerR (AGG a1) (mx a1) (mkParams a2 a3 a4 a5 a6 a7 a8 a9 a10 a11 a12 a13 a14 a15 a16 a17 a18) 2
          (val_main_v108 (F := Ideal) a0 a1 a2 a3 a4 a5 a6 a7 a8) := by
  funext i
  obtain ⟨r, c, rfl⟩ : ∃ (r : Fin 100000) (c : Fin 128), i = ix2 r c := ⟨i 0, i 1, eq_ix2 i⟩
  simp (config := { implicitDefEqProofs := false }) only [val_main_v160_apply, val_main_call2_v0_apply,
    val_main_call2_cst_apply, val_main_v159_apply, val_main_v158_apply, val_main_v157_apply, val_main_v156_apply,
    val_main_v155_apply, val_main_v154_apply, val_main_v153_apply, val_main_v152_apply, val_main_v151_apply,
    val_main_v150_apply, val_main_cst_18_apply, val_main_v149_apply, val_main_v148_apply, val_main_v147_apply,
    val_main_v138_apply, val_main_v137_apply, val_main_v136_apply, val_main_v135_apply, val_main_v134_apply,
    val_main_v133_apply, val_main_v132_apply, val_main_v131_apply, rd_v110, rd_v112, rd_v114, rd_v140, rd_v142, rd_v144,
    rd_v146, agg_v124, deg_v130,
    Ideal.addf_def, Ideal.subf_def, Ideal.mulf_def, Ideal.maximumf_def, Ideal.hostDivf_def, Ideal.hostUnary_sqrt_def,
    Ideal.ofBits_def, Ideal.ofBits_zero_f32]
  simp (config := { implicitDefEqProofs := false }) only [layerR, rowR, bnRelu, lin, scaleR, row, mkParams, mx, eps]
  simp (config := { implicitDefEqProofs := false }) only [at2_eq (val_main_v108 (F := Ideal) a0 a1 a2 a3 a4 a5 a6 a7 a8),
    at2_eq (AGG a1 (val_main_v108 (F := Ideal) a0 a1 a2 a3 a4 a5 a6 a7 a8)), at2_eq (val_main_v25 (F := Ideal) a1),
    c20, c21, Fin.eta, Fin.zero_eta]

set_option maxHeartbeats 400000 in
/-- Stage 212: the fourth layer of stage 160. -/
theorem layer3 :
    val_main_v212 (F := Ideal) a0 a1 a2 a3 a4 a5 a6 a7 a8
      = layerR (AGG a1) (mx a1) (mkParams a2 a3 a4 a5 a6 a7 a8 a9 a10 a11 a12 a13 a14 a15 a16 a17 a18) 3
          (val_main_v160 (F := Ideal) a0 a1 a2 a3 a4 a5 a6 a7 a8) := by
  funext i
  obtain ⟨r, c, rfl⟩ : ∃ (r : Fin 100000) (c : Fin 128), i = ix2 r c := ⟨i 0, i 1, eq_ix2 i⟩
  simp (config := { implicitDefEqProofs := false }) only [val_main_v212_apply, val_main_call3_v0_apply,
    val_main_call3_cst_apply, val_main_v211_apply, val_main_v210_apply, val_main_v209_apply, val_main_v208_apply,
    val_main_v207_apply, val_main_v206_apply, val_main_v205_apply, val_main_v204_apply, val_main_v203_apply,
    val_main_v202_apply, val_main_cst_25_apply, val_main_v201_apply, val_main_v200_apply, val_main_v199_apply,
    val_main_v190_apply, val_main_v189_apply, val_main_v188_apply, val_main_v187_apply, val_main_v186_apply,
    val_main_v185_apply, val_main_v184_apply, val_main_v183_apply, rd_v162, rd_v164, rd_v166, rd_v192, rd_v194, rd_v196,
    rd_v198, agg_v176, deg_v182,
    Ideal.addf_def, Ideal.subf_def, Ideal.mulf_def, Ideal.maximumf_def, Ideal.hostDivf_def, Ideal.hostUnary_sqrt_def,
    Ideal.ofBits_def, Ideal.ofBits_zero_f32]
  simp (config := { implicitDefEqProofs := false }) only [layerR, rowR, bnRelu, lin, scaleR, row, mkParams, mx, eps]
  simp (config := { implicitDefEqProofs := false }) only [at2_eq (val_main_v160 (F := Ideal) a0 a1 a2 a3 a4 a5 a6 a7 a8),
    at2_eq (AGG a1 (val_main_v160 (F := Ideal) a0 a1 a2 a3 a4 a5 a6 a7 a8)), at2_eq (val_main_v25 (F := Ideal) a1),
    c20, c21, Fin.eta, Fin.zero_eta]

/-! ## The layer normalisation and the head, on the last layer's array -/

set_option maxHeartbeats 400000 in
/-- Stage 259: every node's row of stage 212, normalised over its features and sent through the two-step head. A float
    sum is its initial value, zero, plus the sum of the entries. -/
theorem head_eq :
    val_main_v259 (F := Ideal) a0 a1 a2 a3 a4 a5 a6 a7 a8 a9 a10 a11 a12 a13 a14 a15 a16 a17 a18
      = fun i => headR (mkParams a2 a3 a4 a5 a6 a7 a8 a9 a10 a11 a12 a13 a14 a15 a16 a17 a18)
          (row (val_main_v212 (F := Ideal) a0 a1 a2 a3 a4 a5 a6 a7 a8) (i 0)) := by
  funext i
  obtain ⟨r, rfl⟩ : ∃ r : Fin 100000, i = ix1 r := ⟨i 0, eq_ix1 i⟩
  simp (config := { implicitDefEqProofs := false }) only [val_main_v259_apply, val_main_v258_apply, val_main_v257_apply,
    val_main_v256_apply, val_main_v255_apply, val_main_v254_apply, val_main_call4_v0_apply, val_main_call4_cst_apply,
    val_main_v253_apply, val_main_v252_apply, val_main_v251_apply, val_main_v250_apply, val_main_v249_apply,
    val_main_v248_apply, val_main_v247_apply, val_main_v246_apply, val_main_v245_apply, val_main_v244_apply,
    val_main_cst_31_apply, val_main_v243_apply, val_main_v242_apply, val_main_v241_apply, val_main_v240_apply,
    val_main_v239_apply, val_main_v238_apply, val_main_v237_apply, val_main_v236_apply, val_main_v235_apply,
    val_main_v234_apply, val_main_v233_apply, val_main_v232_apply, val_main_v231_apply, val_main_v230_apply,
    val_main_v229_apply, val_main_v228_apply, val_main_v227_apply, val_main_v226_apply, val_main_cst_30_apply,
    val_main_v225_apply, val_main_v224_apply, val_main_v223_apply, val_main_v222_apply, val_main_cst_29_apply,
    val_main_v221_apply, val_main_v220_apply, val_main_cst_28_apply, val_main_v219_apply, val_main_v218_apply,
    val_main_v217_apply, val_main_v216_apply, val_main_v215_apply, val_main_cst_27_apply, val_main_v214_apply,
    val_main_v213_apply, val_main_cst_26_apply,
    Ideal.addf_def, Ideal.subf_def, Ideal.mulf_def, Ideal.maximumf_def, Ideal.hostDivf_def, Ideal.hostUnary_sqrt_def,
    Ideal.ofBits_def, Ideal.ofBits_zero_f32, zero_add]
  simp (config := { implicitDefEqProofs := false }) only [headR, outp, hid, bnRelu, scaleR, lnR, var128, mean128, row,
    mkParams, eps, c128]
  simp (config := { implicitDefEqProofs := false }) only [at2_eq (val_main_v212 (F := Ideal) a0 a1 a2 a3 a4 a5 a6 a7 a8),
    at2_eq a11, at2_eq a17, at1_eq a9, at1_eq a10, at1_eq a12, at1_eq a13, at1_eq a14, at1_eq a15, at1_eq a16, at1_eq a18,
    c10, c20, c21, Fin.eta, Fin.zero_eta, Nat.div_one]

/-! ## The whole program -/

/-- The reference's result at node `i` is the network, in its dividing arrangement, over the reference's own
    aggregation and clipped in-degree. -/
theorem ref_eq :
    val_main_v259 (F := Ideal) a0 a1 a2 a3 a4 a5 a6 a7 a8 a9 a10 a11 a12 a13 a14 a15 a16 a17 a18
      = fun i => netR (AGG a1) (mx a1) (mkParams a2 a3 a4 a5 a6 a7 a8 a9 a10 a11 a12 a13 a14 a15 a16 a17 a18) a0 (i 0) := by
  rw [head_eq a0 a1 a2 a3 a4 a5 a6 a7 a8 a9 a10 a11 a12 a13 a14 a15 a16 a17 a18,
    layer3 a0 a1 a2 a3 a4 a5 a6 a7 a8 a9 a10 a11 a12 a13 a14 a15 a16 a17 a18,
    layer2 a0 a1 a2 a3 a4 a5 a6 a7 a8 a9 a10 a11 a12 a13 a14 a15 a16 a17 a18,
    layer1 a0 a1 a2 a3 a4 a5 a6 a7 a8 a9 a10 a11 a12 a13 a14 a15 a16 a17 a18,
    layer0 a0 a1 a2 a3 a4 a5 a6 a7 a8 a9 a10 a11 a12 a13 a14 a15 a16 a17 a18]
  unfold netR
  rfl

end Stages

end Cert.ReferenceIdeal.RefValue

end
-- ==== Proof.KLayout.lean ====
/-
  What the host operations between the four kernel calls leave in the buffers the kernels read.

  The host side of the program does three things. It turns the edge list into two index columns (the edges' sources,
  with a negative index wrapped around by the number of nodes, and the edges' targets), and with them performs the graph
  aggregation: the node rows, rounded to half precision and widened again, are gathered along the sources and
  scatter-added into the targets. It counts every node's in-degree by scatter-adding ones into the targets, clips the count below
  at one and takes the reciprocal. And it cuts each layer's parameters out of the stacked parameter arrays: a slice along
  the leading axis followed by reshapes that only rename the index.

  Everything is stated for an arbitrary valuation of the buffers at the moment a stretch of host operations starts, as a
  function of the buffers the stretch does not write. The gather and the scatter-add are kept as opaque terms.
-/
import proofs.«127730_j83451214562002_2_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost

set_option maxRecDepth 4224
set_option Elab.async false

noncomputable section

namespace Cert.KernelIdeal.Lay

open Idealize.ShloMosaic Idealize.ShloMosaic.ValueIdx Cert.KernelIdeal Cert.KernelIdeal.Gen

/-! ## The index columns and the aggregation, as terms -/

/-- The edges' sources as a vector: row 0 of the edge list. -/
def v1term (e : IVec S2x1600000 32) : IVec S1600000 32 :=
  shapeCast S1600000 (extractStridedSlice S1x1600000 ![0, 0] e slices_S2x1600000_S1x1600000_0_0) shapeCasts_S1x1600000_S1600000
/-- The edges' targets as a vector: row 1 of the edge list. -/
def v3term (e : IVec S2x1600000 32) : IVec S1600000 32 :=
  shapeCast S1600000 (extractStridedSlice S1x1600000 ![1, 0] e slices_S2x1600000_S1x1600000_1_0) shapeCasts_S1x1600000_S1600000

/-- The gather's index column from the vector of sources: a negative source is moved up by the number of nodes. -/
def srcOf (s1 : IVec S1600000 32) : IVec S1600000x1 32 :=
  broadcastInDim S1600000x1 ![0] bcast_S1600000_S1600000x1_0
    (select (cmpi .slt s1 (broadcastInDim S1600000 ![] bcast_S_S1600000 (constantI S_ 32 0#32)))
      (addi s1 (broadcastInDim S1600000 ![] bcast_S_S1600000 (constantI S_ 32 100000#32))) s1)
/-- The scatter's index column from the vector of targets. -/
def dstOf (d1 : IVec S1600000 32) : IVec S1600000x1 32 :=
  broadcastInDim S1600000x1 ![0] bcast_S1600000_S1600000x1_0 d1

/-- The gather's index column, from the edge list. -/
def srcIx (e : IVec S2x1600000 32) : IVec S1600000x1 32 := srcOf (v1term e)
/-- The scatter's index column, from the edge list. -/
def dstIx (e : IVec S2x1600000 32) : IVec S1600000x1 32 := dstOf (v3term e)

/-- The graph aggregation from the two index vectors: the rows, rounded to half precision and widened again, gathered
    along the sources and scatter-added into the targets, starting from zero. -/
def AGGof (s1 d1 : IVec S1600000 32) (h : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (dstOf d1)
    (extf .f32 (Host.gather gather_S100000x128_S1600000x1_S1600000x128_1_0_n_n_0_1_1128 (truncf .bf16 h bitsLt_bf16_f32) (srcOf s1))
      bitsLt_bf16_f32)
/-- The graph aggregation from the edge list. -/
def AGG (e : IVec S2x1600000 32) (h : FVec Ideal S100000x128 .f32) : FVec Ideal S100000x128 .f32 :=
  AGGof (v1term e) (v3term e) h

theorem AGG_eq (e : IVec S2x1600000 32) (h : FVec Ideal S100000x128 .f32) : AGG e h = AGGof (v1term e) (v3term e) h := rfl

/-- The aggregation over the two index columns, spelt out. -/
theorem AGG_eq_ix (e : IVec S2x1600000 32) (h : FVec Ideal S100000x128 .f32) :
    AGG e h = Host.scatterAdd scatter_S100000x128_S1600000x1_S1600000x128_1_0_0_1
      (broadcastInDim S100000x128 ![] bcast_S_S100000x128 (constant (F := Ideal) S_ .f32 0x00000000#32))
      (dstIx e)
      (extf .f32 (Host.gather gather_S100000x128_S1600000x1_S1600000x128_1_0_n_n_0_1_1128 (truncf .bf16 h bitsLt_bf16_f32) (srcIx e))
        bitsLt_bf16_f32) := rfl

/-- The nodes' in-degrees: ones scatter-added into the targets, starting from zero. -/
def cnt (e : IVec S2x1600000 32) : FVec Ideal S100000x1 .f32 :=
  Host.scatterAdd scatter_S100000x1_S1600000x1_S1600000x1_1_0_0_1
    (broadcastInDim S100000x1 ![] bcast_S_S100000x1 (constant (F := Ideal) S_ .f32 0x00000000#32))
    (dstOf (v3term e))
    (broadcastInDim S1600000x1 ![] bcast_S_S1600000x1 (constant (F := Ideal) S_ .f32 0x3F800000#32))
/-- The reciprocals of the in-degrees clipped below at one. -/
def rc (e : IVec S2x1600000 32) : FVec Ideal S100000x1 .f32 :=
  Host.divf (broadcastInDim S100000x1 ![] bcast_S_S100000x1 (constant (F := Ideal) S_ .f32 0x3F800000#32))
    (maximumf (cnt e) (broadcastInDim S100000x1 ![] bcast_S_S100000x1 (constant (F := Ideal) S_ .f32 0x3F800000#32)))

/-- One, broadcast over the node column, reads one. -/
theorem ones_apply (i : S100000x1.Idx) :
    broadcastInDim S100000x1 ![] bcast_S_S100000x1 (constant (F := Ideal) S_ .f32 0x3F800000#32) i = (1 : EReal) := by
  rw [broadcastInDim_scalar_apply]
  exact Ideal.ofBits_one_f32

/-- The reciprocal of a column clipped below at one, read at an index. -/
theorem recip_clip_apply (n : FVec Ideal S100000x1 .f32) (i : S100000x1.Idx) :
    Host.divf (broadcastInDim S100000x1 ![] bcast_S_S100000x1 (constant (F := Ideal) S_ .f32 0x3F800000#32))
        (maximumf n (broadcastInDim S100000x1 ![] bcast_S_S100000x1 (constant (F := Ideal) S_ .f32 0x3F800000#32))) i
      = Ideal.div (1 : EReal) (max (n i) (1 : EReal)) := by
  rw [hostDivf_apply, maximumf_apply, ones_apply]

/-- The reciprocal clipped in-degree of node `r`: one over the larger of the in-degree and one. -/
theorem rc_apply (e : IVec S2x1600000 32) (r : Fin 100000) :
    rc e (ix2 r (0 : Fin 1)) = Ideal.div (1 : EReal) (max (cnt e (ix2 r (0 : Fin 1))) (1 : EReal)) :=
  recip_clip_apply (cnt e) (ix2 r (0 : Fin 1))

/-! ## Slices and reshapes read at an index -/

section Reads
variable {α : Type}

/-- A layer's matrix in a stack of four: the slice at the layer with its unit axis dropped, read at row `k`, column `c`. -/
theorem mat_read (o : ℕ) (l : Fin 4) (hl : l.val = o) (x : S4x128x128.Idx → α)
    (h : S4x128x128.Slices ![o, 0, 0] S1x128x128) (h2 : S1x128x128.ShapeCasts S128x128) (k c : Fin 128) :
    shapeCast S128x128 (extractStridedSlice S1x128x128 ![o, 0, 0] x h) h2 (ix2 k c) = x (ix3 l k c) := by
  refine (shapeCast_apply _ h2 (ix2 k c) (ix3 (0 : Fin 1) k c) ?_).trans ?_
  · rw [Shape.rowMajor_val_three, Shape.rowMajor_val_two]
    show ((0 : Fin 1).val * 128 + k.val) * 128 + c.val = k.val * 128 + c.val
    simp
  · refine extractStridedSlice_apply _ x h _ (ix3 l k c) ?_
    intro a
    match a with
    | ⟨0, _⟩ => show l.val = o + (0 : Fin 1).val; simp [hl]
    | ⟨1, _⟩ => show k.val = 0 + k.val; simp
    | ⟨2, _⟩ => show c.val = 0 + c.val; simp

/-- A layer's row in a stack of four rows: the slice at the layer, flattened to a vector and given back a unit leading
    axis, read at column `c`. -/
theorem row_read (o : ℕ) (l : Fin 4) (hl : l.val = o) (x : S4x128.Idx → α)
    (h : S4x128.Slices ![o, 0] S1x128) (h2 : S1x128.ShapeCasts S128) (h3 : S128.ShapeCasts S1x128) (c : Fin 128) :
    shapeCast S1x128 (shapeCast S128 (extractStridedSlice S1x128 ![o, 0] x h) h2) h3 (ix2 (0 : Fin 1) c) = x (ix2 l c) := by
  refine (shapeCast_apply _ h3 (ix2 (0 : Fin 1) c) (ix1 c) ?_).trans ?_
  · rw [Shape.rowMajor_val_one, Shape.rowMajor_val_two]
    show c.val = (0 : Fin 1).val * 128 + c.val
    simp
  refine (shapeCast_apply _ h2 (ix1 c) (ix2 (0 : Fin 1) c) ?_).trans ?_
  · rw [Shape.rowMajor_val_one, Shape.rowMajor_val_two]
    show (0 : Fin 1).val * 128 + c.val = c.val
    simp
  · refine extractStridedSlice_apply _ x h _ (ix2 l c) ?_
    intro a
    match a with
    | ⟨0, _⟩ => show l.val = o + (0 : Fin 1).val; simp [hl]
    | ⟨1, _⟩ => show c.val = 0 + c.val; simp

/-- A vector given a unit leading axis, read at column `c`. -/
theorem vec_read {n : ℕ} (x : (⟨1, ![n]⟩ : Shape).Idx → α) (h : (⟨1, ![n]⟩ : Shape).ShapeCasts ⟨2, ![1, n]⟩) (c : Fin n) :
    shapeCast (⟨2, ![1, n]⟩ : Shape) x h (ix2 (0 : Fin 1) c) = x (ix1 c) := by
  refine shapeCast_apply _ h (ix2 (0 : Fin 1) c) (ix1 c) ?_
  rw [Shape.rowMajor_val_one, Shape.rowMajor_val_two]
  show c.val = (0 : Fin 1).val * n + c.val
  simp

/-- A column flattened to a vector, read at row `r`. -/
theorem col_read {n : ℕ} (x : (⟨2, ![n, 1]⟩ : Shape).Idx → α) (h : (⟨2, ![n, 1]⟩ : Shape).ShapeCasts ⟨1, ![n]⟩) (r : Fin n) :
    shapeCast (⟨1, ![n]⟩ : Shape) x h (ix1 r) = x (ix2 r (0 : Fin 1)) := by
  refine shapeCast_apply _ h (ix1 r) (ix2 r (0 : Fin 1)) ?_
  rw [Shape.rowMajor_val_one, Shape.rowMajor_val_two]
  show r.val * 1 + (0 : Fin 1).val = r.val
  simp

end Reads

open StableHlo

/-! ## The first stretch: index vectors, in-degrees, the first aggregation, layer 0's parameters -/

section Stretch0
variable (W : Valuation τ sig (Elt Ideal))

/-- The vector of sources, from the edge list. -/
theorem v1_0 : (StableHlo.after (hostOps0 (F := Ideal)) W (Proc.devRef .tc main_v1) : IVec S1600000 32) = v1term (W (Proc.devRef .tc main_arg1)) := by
  after_results_simp; rfl
/-- The vector of targets, from the edge list. -/
theorem v3_0 : (StableHlo.after (hostOps0 (F := Ideal)) W (Proc.devRef .tc main_v3) : IVec S1600000 32) = v3term (W (Proc.devRef .tc main_arg1)) := by
  after_results_simp; rfl
/-- The aggregation before layer 0: of the input rows, over the edge list. -/
theorem agg_0 : (StableHlo.after (hostOps0 (F := Ideal)) W (Proc.devRef .tc main_v23) : FVec Ideal S100000x128 .f32)
    = AGG (W (Proc.devRef .tc main_arg1)) (W (Proc.devRef .tc main_arg0)) := by
  after_results_simp; rfl
/-- The reciprocal clipped in-degrees, from the edge list. -/
theorem rc_0 : (StableHlo.after (hostOps0 (F := Ideal)) W (Proc.devRef .tc main_v11) : FVec Ideal S100000x1 .f32) = rc (W (Proc.devRef .tc main_arg1)) := by
  after_results_simp; rfl
/-- Layer 0's matrix for the neighbourhood mean. -/
theorem wl_read_0 (k c : Fin 128) :
    (StableHlo.after (hostOps0 (F := Ideal)) W (Proc.devRef .tc main_v25) : FVec Ideal S128x128 .f32) (ix2 k c)
      = (W (Proc.devRef .tc main_arg2) : FVec Ideal S4x128x128 .f32) (ix3 (0 : Fin 4) k c) := by
  after_results_simp
  exact mat_read 0 0 rfl _ _ _ k c
/-- Layer 0's matrix for the node's own row. -/
theorem wr_read_0 (k c : Fin 128) :
    (StableHlo.after (hostOps0 (F := Ideal)) W (Proc.devRef .tc main_v27) : FVec Ideal S128x128 .f32) (ix2 k c)
      = (W (Proc.devRef .tc main_arg3) : FVec Ideal S4x128x128 .f32) (ix3 (0 : Fin 4) k c) := by
  after_results_simp
  exact mat_read 0 0 rfl _ _ _ k c
/-- Layer 0's bias. -/
theorem b_read_0 (c : Fin 128) :
    (StableHlo.after (hostOps0 (F := Ideal)) W (Proc.devRef .tc main_v38) : FVec Ideal S1x128 .f32) (ix2 (0 : Fin 1) c)
      = (W (Proc.devRef .tc main_arg4) : FVec Ideal S4x128 .f32) (ix2 (0 : Fin 4) c) := by
  after_results_simp
  exact row_read 0 0 rfl _ _ _ _ c
/-- Layer 0's batch-normalisation weight. -/
theorem g_read_0 (c : Fin 128) :
    (StableHlo.after (hostOps0 (F := Ideal)) W (Proc.devRef .tc main_v39) : FVec Ideal S1x128 .f32) (ix2 (0 : Fin 1) c)
      = (W (Proc.devRef .tc main_arg5) : FVec Ideal S4x128 .f32) (ix2 (0 : Fin 4) c) := by
  after_results_simp
  exact row_read 0 0 rfl _ _ _ _ c
/-- Layer 0's batch-normalisation shift. -/
theorem bb_read_0 (c : Fin 128) :
    (StableHlo.after (hostOps0 (F := Ideal)) W (Proc.devRef .tc main_v40) : FVec Ideal S1x128 .f32) (ix2 (0 : Fin 1) c)
      = (W (Proc.devRef .tc main_arg6) : FVec Ideal S4x128 .f32) (ix2 (0 : Fin 4) c) := by
  after_results_simp
  exact row_read 0 0 rfl _ _ _ _ c
/-- Layer 0's running mean. -/
theorem mm_read_0 (c : Fin 128) :
    (StableHlo.after (hostOps0 (F := Ideal)) W (Proc.devRef .tc main_v41) : FVec Ideal S1x128 .f32) (ix2 (0 : Fin 1) c)
      = (W (Proc.devRef .tc main_arg7) : FVec Ideal S4x128 .f32) (ix2 (0 : Fin 4) c) := by
  after_results_simp
  exact row_read 0 0 rfl _ _ _ _ c
/-- Layer 0's running variance. -/
theorem v_read_0 (c : Fin 128) :
    (StableHlo.after (hostOps0 (F := Ideal)) W (Proc.devRef .tc main_v42) : FVec Ideal S1x128 .f32) (ix2 (0 : Fin 1) c)
      = (W (Proc.devRef .tc main_arg8) : FVec Ideal S4x128 .f32) (ix2 (0 : Fin 4) c) := by
  after_results_simp
  exact row_read 0 0 rfl _ _ _ _ c

end Stretch0

/-! ## The stretches before layers 1, 2 and 3 -/

section Stretch1
variable (W : Valuation τ sig (Elt Ideal))
/-- The aggregation before layer 1, over the index vectors the first stretch left. -/
theorem agg_1 :
    (StableHlo.after (hostOps1 (F := Ideal)) W (Proc.devRef .tc main_v55) : FVec Ideal S100000x128 .f32)
      = AGGof (W (Proc.devRef .tc main_v1)) (W (Proc.devRef .tc main_v3)) (W (Proc.devRef .tc main_v43)) := by
  after_results_simp; rfl
/-- The stretch before layer 1 writes neither index vector nor the reciprocal in-degrees. -/
theorem v1_keep_1 : (StableHlo.after (hostOps1 (F := Ideal)) W (Proc.devRef .tc main_v1) : IVec S1600000 32) = W (Proc.devRef .tc main_v1) := by
  after_results_simp
theorem v3_keep_1 : (StableHlo.after (hostOps1 (F := Ideal)) W (Proc.devRef .tc main_v3) : IVec S1600000 32) = W (Proc.devRef .tc main_v3) := by
  after_results_simp
theorem rc_keep_1 : (StableHlo.after (hostOps1 (F := Ideal)) W (Proc.devRef .tc main_v11) : FVec Ideal S100000x1 .f32) = W (Proc.devRef .tc main_v11) := by
  after_results_simp
/-- Layer 1's matrix for the neighbourhood mean. -/
theorem wl_read_1 (k c : Fin 128) :
    (StableHlo.after (hostOps1 (F := Ideal)) W (Proc.devRef .tc main_v57) : FVec Ideal S128x128 .f32) (ix2 k c)
      = (W (Proc.devRef .tc main_arg2) : FVec Ideal S4x128x128 .f32) (ix3 (1 : Fin 4) k c) := by
  after_results_simp
  exact mat_read 1 1 rfl _ _ _ k c
/-- Layer 1's matrix for the node's own row. -/
theorem wr_read_1 (k c : Fin 128) :
    (StableHlo.after (hostOps1 (F := Ideal)) W (Proc.devRef .tc main_v59) : FVec Ideal S128x128 .f32) (ix2 k c)
      = (W (Proc.devRef .tc main_arg3) : FVec Ideal S4x128x128 .f32) (ix3 (1 : Fin 4) k c) := by
  after_results_simp
  exact mat_read 1 1 rfl _ _ _ k c
/-- Layer 1's bias. -/
theorem b_read_1 (c : Fin 128) :
    (StableHlo.after (hostOps1 (F := Ideal)) W (Proc.devRef .tc main_v70) : FVec Ideal S1x128 .f32) (ix2 (0 : Fin 1) c)
      = (W (Proc.devRef .tc main_arg4) : FVec Ideal S4x128 .f32) (ix2 (1 : Fin 4) c) := by
  after_results_simp
  exact row_read 1 1 rfl _ _ _ _ c
/-- Layer 1's batch-normalisation weight. -/
theorem g_read_1 (c : Fin 128) :
    (StableHlo.after (hostOps1 (F := Ideal)) W (Proc.devRef .tc main_v71) : FVec Ideal S1x128 .f32) (ix2 (0 : Fin 1) c)
      = (W (Proc.devRef .tc main_arg5) : FVec Ideal S4x128 .f32) (ix2 (1 : Fin 4) c) := by
  after_results_simp
  exact row_read 1 1 rfl _ _ _ _ c
/-- Layer 1's batch-normalisation shift. -/
theorem bb_read_1 (c : Fin 128) :
    (StableHlo.after (hostOps1 (F := Ideal)) W (Proc.devRef .tc main_v72) : FVec Ideal S1x128 .f32) (ix2 (0 : Fin 1) c)
      = (W (Proc.devRef .tc main_arg6) : FVec Ideal S4x128 .f32) (ix2 (1 : Fin 4) c) := by
  after_results_simp
  exact row_read 1 1 rfl _ _ _ _ c
/-- Layer 1's running mean. -/
theorem mm_read_1 (c : Fin 128) :
    (StableHlo.after (hostOps1 (F := Ideal)) W (Proc.devRef .tc main_v73) : FVec Ideal S1x128 .f32) (ix2 (0 : Fin 1) c)
      = (W (Proc.devRef .tc main_arg7) : FVec Ideal S4x128 .f32) (ix2 (1 : Fin 4) c) := by
  after_results_simp
  exact row_read 1 1 rfl _ _ _ _ c
/-- Layer 1's running variance. -/
theorem v_read_1 (c : Fin 128) :
    (StableHlo.after (hostOps1 (F := Ideal)) W (Proc.devRef .tc main_v74) : FVec Ideal S1x128 .f32) (ix2 (0 : Fin 1) c)
      = (W (Proc.devRef .tc main_arg8) : FVec Ideal S4x128 .f32) (ix2 (1 : Fin 4) c) := by
  after_results_simp
  exact row_read 1 1 rfl _ _ _ _ c

end Stretch1

section Stretch2
variable (W : Valuation τ sig (Elt Ideal))
/-- The aggregation before layer 2, over the index vectors the first stretch left. -/
theorem agg_2 :
    (StableHlo.after (hostOps2 (F := Ideal)) W (Proc.devRef .tc main_v87) : FVec Ideal S100000x128 .f32)
      = AGGof (W (Proc.devRef .tc main_v1)) (W (Proc.devRef .tc main_v3)) (W (Proc.devRef .tc main_v75)) := by
  after_results_simp; rfl
/-- The stretch before layer 2 writes neither index vector nor the reciprocal in-degrees. -/
theorem v1_keep_2 : (StableHlo.after (hostOps2 (F := Ideal)) W (Proc.devRef .tc main_v1) : IVec S1600000 32) = W (Proc.devRef .tc main_v1) := by
  after_results_simp
theorem v3_keep_2 : (StableHlo.after (hostOps2 (F := Ideal)) W (Proc.devRef .tc main_v3) : IVec S1600000 32) = W (Proc.devRef .tc main_v3) := by
  after_results_simp
theorem rc_keep_2 : (StableHlo.after (hostOps2 (F := Ideal)) W (Proc.devRef .tc main_v11) : FVec Ideal S100000x1 .f32) = W (Proc.devRef .tc main_v11) := by
  after_results_simp
/-- Layer 2's matrix for the neighbourhood mean. -/
theorem wl_read_2 (k c : Fin 128) :
    (StableHlo.after (hostOps2 (F := Ideal)) W (Proc.devRef .tc main_v89) : FVec Ideal S128x128 .f32) (ix2 k c)
      = (W (Proc.devRef .tc main_arg2) : FVec Ideal S4x128x128 .f32) (ix3 (2 : Fin 4) k c) := by
  after_results_simp
  exact mat_read 2 2 rfl _ _ _ k c
/-- Layer 2's matrix for the node's own row. -/
theorem wr_read_2 (k c : Fin 128) :
    (StableHlo.after (hostOps2 (F := Ideal)) W (Proc.devRef .tc main_v91) : FVec Ideal S128x128 .f32) (ix2 k c)
      = (W (Proc.devRef .tc main_arg3) : FVec Ideal S4x128x128 .f32) (ix3 (2 : Fin 4) k c) := by
  after_results_simp
  exact mat_read 2 2 rfl _ _ _ k c
/-- Layer 2's bias. -/
theorem b_read_2 (c : Fin 128) :
    (StableHlo.after (hostOps2 (F := Ideal)) W (Proc.devRef .tc main_v102) : FVec Ideal S1x128 .f32) (ix2 (0 : Fin 1) c)
      = (W (Proc.devRef .tc main_arg4) : FVec Ideal S4x128 .f32) (ix2 (2 : Fin 4) c) := by
  after_results_simp
  exact row_read 2 2 rfl _ _ _ _ c
/-- Layer 2's batch-normalisation weight. -/
theorem g_read_2 (c : Fin 128) :
    (StableHlo.after (hostOps2 (F := Ideal)) W (Proc.devRef .tc main_v103) : FVec Ideal S1x128 .f32) (ix2 (0 : Fin 1) c)
      = (W (Proc.devRef .tc main_arg5) : FVec Ideal S4x128 .f32) (ix2 (2 : Fin 4) c) := by
  after_results_simp
  exact row_read 2 2 rfl _ _ _ _ c
/-- Layer 2's batch-normalisation shift. -/
theorem bb_read_2 (c : Fin 128) :
    (StableHlo.after (hostOps2 (F := Ideal)) W (Proc.devRef .tc main_v104) : FVec Ideal S1x128 .f32) (ix2 (0 : Fin 1) c)
      = (W (Proc.devRef .tc main_arg6) : FVec Ideal S4x128 .f32) (ix2 (2 : Fin 4) c) := by
  after_results_simp
  exact row_read 2 2 rfl _ _ _ _ c
/-- Layer 2's running mean. -/
theorem mm_read_2 (c : Fin 128) :
    (StableHlo.after (hostOps2 (F := Ideal)) W (Proc.devRef .tc main_v105) : FVec Ideal S1x128 .f32) (ix2 (0 : Fin 1) c)
      = (W (Proc.devRef .tc main_arg7) : FVec Ideal S4x128 .f32) (ix2 (2 : Fin 4) c) := by
  after_results_simp
  exact row_read 2 2 rfl _ _ _ _ c
/-- Layer 2's running variance. -/
theorem v_read_2 (c : Fin 128) :
    (StableHlo.after (hostOps2 (F := Ideal)) W (Proc.devRef .tc main_v106) : FVec Ideal S1x128 .f32) (ix2 (0 : Fin 1) c)
      = (W (Proc.devRef .tc main_arg8) : FVec Ideal S4x128 .f32) (ix2 (2 : Fin 4) c) := by
  after_results_simp
  exact row_read 2 2 rfl _ _ _ _ c

end Stretch2

section Stretch3
variable (W : Valuation τ sig (Elt Ideal))
/-- The aggregation before layer 3, over the index vectors the first stretch left. -/
theorem agg_3 :
    (StableHlo.after (hostOps3 (F := Ideal)) W (Proc.devRef .tc main_v119) : FVec Ideal S100000x128 .f32)
      = AGGof (W (Proc.devRef .tc main_v1)) (W (Proc.devRef .tc main_v3)) (W (Proc.devRef .tc main_v107)) := by
  after_results_simp; rfl
/-- The stretch before layer 3 writes neither index vector nor the reciprocal in-degrees. -/
theorem v1_keep_3 : (StableHlo.after (hostOps3 (F := Ideal)) W (Proc.devRef .tc main_v1) : IVec S1600000 32) = W (Proc.devRef .tc main_v1) := by
  after_results_simp
theorem v3_keep_3 : (StableHlo.after (hostOps3 (F := Ideal)) W (Proc.devRef .tc main_v3) : IVec S1600000 32) = W (Proc.devRef .tc main_v3) := by
  after_results_simp
theorem rc_keep_3 : (StableHlo.after (hostOps3 (F := Ideal)) W (Proc.devRef .tc main_v11) : FVec Ideal S100000x1 .f32) = W (Proc.devRef .tc main_v11) := by
  after_results_simp
/-- Layer 3's matrix for the neighbourhood mean. -/
theorem wl_read_3 (k c : Fin 128) :
    (StableHlo.after (hostOps3 (F := Ideal)) W (Proc.devRef .tc main_v121) : FVec Ideal S128x128 .f32) (ix2 k c)
      = (W (Proc.devRef .tc main_arg2) : FVec Ideal S4x128x128 .f32) (ix3 (3 : Fin 4) k c) := by
  after_results_simp
  exact mat_read 3 3 rfl _ _ _ k c
/-- Layer 3's matrix for the node's own row. -/
theorem wr_read_3 (k c : Fin 128) :
    (StableHlo.after (hostOps3 (F := Ideal)) W (Proc.devRef .tc main_v123) : FVec Ideal S128x128 .f32) (ix2 k c)
      = (W (Proc.devRef .tc main_arg3) : FVec Ideal S4x128x128 .f32) (ix3 (3 : Fin 4) k c) := by
  after_results_simp
  exact mat_read 3 3 rfl _ _ _ k c
/-- Layer 3's bias. -/
theorem b_read_3 (c : Fin 128) :
    (StableHlo.after (hostOps3 (F := Ideal)) W (Proc.devRef .tc main_v134) : FVec Ideal S1x128 .f32) (ix2 (0 : Fin 1) c)
      = (W (Proc.devRef .tc main_arg4) : FVec Ideal S4x128 .f32) (ix2 (3 : Fin 4) c) := by
  after_results_simp
  exact row_read 3 3 rfl _ _ _ _ c
/-- Layer 3's batch-normalisation weight. -/
theorem g_read_3 (c : Fin 128) :
    (StableHlo.after (hostOps3 (F := Ideal)) W (Proc.devRef .tc main_v135) : FVec Ideal S1x128 .f32) (ix2 (0 : Fin 1) c)
      = (W (Proc.devRef .tc main_arg5) : FVec Ideal S4x128 .f32) (ix2 (3 : Fin 4) c) := by
  after_results_simp
  exact row_read 3 3 rfl _ _ _ _ c
/-- Layer 3's batch-normalisation shift. -/
theorem bb_read_3 (c : Fin 128) :
    (StableHlo.after (hostOps3 (F := Ideal)) W (Proc.devRef .tc main_v136) : FVec Ideal S1x128 .f32) (ix2 (0 : Fin 1) c)
      = (W (Proc.devRef .tc main_arg6) : FVec Ideal S4x128 .f32) (ix2 (3 : Fin 4) c) := by
  after_results_simp
  exact row_read 3 3 rfl _ _ _ _ c
/-- Layer 3's running mean. -/
theorem mm_read_3 (c : Fin 128) :
    (StableHlo.after (hostOps3 (F := Ideal)) W (Proc.devRef .tc main_v137) : FVec Ideal S1x128 .f32) (ix2 (0 : Fin 1) c)
      = (W (Proc.devRef .tc main_arg7) : FVec Ideal S4x128 .f32) (ix2 (3 : Fin 4) c) := by
  after_results_simp
  exact row_read 3 3 rfl _ _ _ _ c
/-- Layer 3's running variance. -/
theorem v_read_3 (c : Fin 128) :
    (StableHlo.after (hostOps3 (F := Ideal)) W (Proc.devRef .tc main_v138) : FVec Ideal S1x128 .f32) (ix2 (0 : Fin 1) c)
      = (W (Proc.devRef .tc main_arg8) : FVec Ideal S4x128 .f32) (ix2 (3 : Fin 4) c) := by
  after_results_simp
  exact row_read 3 3 rfl _ _ _ _ c

/-- The layer normalisation's weight. -/
theorem lng_read (c : Fin 128) :
    (StableHlo.after (hostOps3 (F := Ideal)) W (Proc.devRef .tc main_v139) : FVec Ideal S1x128 .f32) (ix2 (0 : Fin 1) c)
      = (W (Proc.devRef .tc main_arg9) : FVec Ideal S128 .f32) (ix1 c) := by
  after_results_simp
  exact vec_read _ _ c
/-- The layer normalisation's shift. -/
theorem lnb_read (c : Fin 128) :
    (StableHlo.after (hostOps3 (F := Ideal)) W (Proc.devRef .tc main_v140) : FVec Ideal S1x128 .f32) (ix2 (0 : Fin 1) c)
      = (W (Proc.devRef .tc main_arg10) : FVec Ideal S128 .f32) (ix1 c) := by
  after_results_simp
  exact vec_read _ _ c
/-- The head's hidden bias. -/
theorem b1_read (c : Fin 64) :
    (StableHlo.after (hostOps3 (F := Ideal)) W (Proc.devRef .tc main_v141) : FVec Ideal S1x64 .f32) (ix2 (0 : Fin 1) c)
      = (W (Proc.devRef .tc main_arg12) : FVec Ideal S64 .f32) (ix1 c) := by
  after_results_simp
  exact vec_read _ _ c
/-- The head's batch-normalisation weight. -/
theorem bog_read (c : Fin 64) :
    (StableHlo.after (hostOps3 (F := Ideal)) W (Proc.devRef .tc main_v142) : FVec Ideal S1x64 .f32) (ix2 (0 : Fin 1) c)
      = (W (Proc.devRef .tc main_arg13) : FVec Ideal S64 .f32) (ix1 c) := by
  after_results_simp
  exact vec_read _ _ c
/-- The head's batch-normalisation shift. -/
theorem bob_read (c : Fin 64) :
    (StableHlo.after (hostOps3 (F := Ideal)) W (Proc.devRef .tc main_v143) : FVec Ideal S1x64 .f32) (ix2 (0 : Fin 1) c)
      = (W (Proc.devRef .tc main_arg14) : FVec Ideal S64 .f32) (ix1 c) := by
  after_results_simp
  exact vec_read _ _ c
/-- The head's running mean. -/
theorem bom_read (c : Fin 64) :
    (StableHlo.after (hostOps3 (F := Ideal)) W (Proc.devRef .tc main_v144) : FVec Ideal S1x64 .f32) (ix2 (0 : Fin 1) c)
      = (W (Proc.devRef .tc main_arg15) : FVec Ideal S64 .f32) (ix1 c) := by
  after_results_simp
  exact vec_read _ _ c
/-- The head's running variance. -/
theorem bov_read (c : Fin 64) :
    (StableHlo.after (hostOps3 (F := Ideal)) W (Proc.devRef .tc main_v145) : FVec Ideal S1x64 .f32) (ix2 (0 : Fin 1) c)
      = (W (Proc.devRef .tc main_arg16) : FVec Ideal S64 .f32) (ix1 c) := by
  after_results_simp
  exact vec_read _ _ c
/-- The head's output bias. -/
theorem b2_read :
    (StableHlo.after (hostOps3 (F := Ideal)) W (Proc.devRef .tc main_v146) : FVec Ideal S1x1 .f32) (ix2 (0 : Fin 1) (0 : Fin 1))
      = (W (Proc.devRef .tc main_arg18) : FVec Ideal S1 .f32) (ix1 (0 : Fin 1)) := by
  after_results_simp
  exact vec_read _ _ (0 : Fin 1)
end Stretch3

/-! ## The last stretch: the output column flattened -/

section Stretch4
variable (W : Valuation τ sig (Elt Ideal))
/-- The program's result at node `r` is the last kernel's output column at row `r`. -/
theorem out_read (r : Fin 100000) :
    (StableHlo.after (hostOps4 (F := Ideal)) W (Proc.devRef .tc main_v148) : FVec Ideal S100000 .f32) (ix1 r)
      = (W (Proc.devRef .tc main_v147) : FVec Ideal S100000x1 .f32) (ix2 r (0 : Fin 1)) := by
  after_results_simp
  exact col_read _ _ r
end Stretch4

end Cert.KernelIdeal.Lay
-- ==== Proof.BridgeAgg.lean ====
/-
  The two programs aggregate over one operator and count the same in-degrees. Both gather the node rows along the sources of the same edge
  list (a negative source moved up by the number of nodes) and scatter-add them into the targets starting from zero; the kernel program rounds
  the gathered rows to half precision and widens them again, which is the identity on the extended reals. Both count a node's in-degree by
  scatter-adding ones into the targets and clip it below at one; the kernel program then takes the reciprocal.
-/
import proofs.«127730_j83451214562002_2_alg».proof.Proof.RefValue
import proofs.«127730_j83451214562002_2_alg».proof.Proof.KLayout
import proofs.«127730_j83451214562002_2_alg».proof.Proof.Spec

set_option maxRecDepth 16384

noncomputable section

namespace Cert.Bridge

open Idealize.ShloMosaic Idealize.ShloMosaic.ValueIdx Cert.Gnn
open Cert.ReferenceIdeal.ReadP

/-- The two programs aggregate with one operator: the kernel program's rounding of the gathered rows to half precision and back is the
    identity on the extended reals. -/
theorem agg_same (e : IVec Cert.KernelIdeal.S2x1600000 32) (h : Cert.Gnn.Arr) : Cert.KernelIdeal.Lay.AGG e h = Cert.ReferenceIdeal.RefValue.AGG e h := by
  unfold Cert.KernelIdeal.Lay.AGG Cert.KernelIdeal.Lay.AGGof Cert.KernelIdeal.Lay.srcOf Cert.KernelIdeal.Lay.dstOf
    Cert.KernelIdeal.Lay.v1term Cert.KernelIdeal.Lay.v3term Cert.ReferenceIdeal.RefValue.AGG
    val_main_v17 val_main_v18 val_main_v15 val_main_v14 val_main_v13 val_main_v12 val_main_v11 val_main_v10
    val_main_v3 val_main_v2 val_main_v1 val_main_v0 val_main_cst val_main_c val_main_c_0
  rfl

/-- and count the in-degrees alike. -/
theorem cnt_same (e : IVec Cert.KernelIdeal.S2x1600000 32) : Cert.KernelIdeal.Lay.cnt e = val_main_v23 (F := Ideal) e := by
  unfold Cert.KernelIdeal.Lay.cnt Cert.KernelIdeal.Lay.dstOf Cert.KernelIdeal.Lay.v3term
    val_main_v23 val_main_v22 val_main_v21 val_main_v20 val_main_v3 val_main_v2 val_main_cst_1 val_main_cst_2
  rfl

/-- A column clipped below at the reference's column of ones, read at a node. -/
theorem clip_apply (n : FVec Ideal Cert.ReferenceIdeal.S100000x1 .f32) (r : Fin 100000) :
    maximumf n (val_main_v24 (F := Ideal)) (ix2 r (0 : Fin 1)) = max (n (ix2 r (0 : Fin 1))) (1 : EReal) := by
  rw [maximumf_apply]
  refine congrArg (max _) ?_
  unfold val_main_v24 val_main_cst_3
  exact Cert.KernelIdeal.Lay.ones_apply _

/-- The reference's clipped in-degree is the larger of the in-degree and one, -/
theorem mx_eq (e : IVec Cert.KernelIdeal.S2x1600000 32) (r : Fin 100000) :
    Cert.ReferenceIdeal.RefValue.mx e r = max (Cert.KernelIdeal.Lay.cnt e (ix2 r (0 : Fin 1))) (1 : EReal) := by
  unfold Cert.ReferenceIdeal.RefValue.mx val_main_v25
  rw [cnt_same]
  exact clip_apply _ r

/-- so it is at least one, -/
theorem mx_ge (e : IVec Cert.KernelIdeal.S2x1600000 32) (r : Fin 100000) : (1 : EReal) ≤ Cert.ReferenceIdeal.RefValue.mx e r := by
  rw [mx_eq]; exact le_max_right _ _

/-- and the kernel program's reciprocal column is its reciprocal. -/
theorem rc_same (e : IVec Cert.KernelIdeal.S2x1600000 32) (r : Fin 100000) :
    Cert.KernelIdeal.Lay.rc e (ix2 r (0 : Fin 1)) = Ideal.div 1 (Cert.ReferenceIdeal.RefValue.mx e r) := by
  rw [mx_eq]; exact Cert.KernelIdeal.Lay.rc_apply e r

end Cert.Bridge

end
-- ==== Proof.Payload.lean ====
/-
  The four kernels' arithmetic, read at one entry of the block each of them stores.

  Every kernel computes, for each of the 5000 rows of its block, the layer's row: the aggregated row times the row's
  reciprocal clipped in-degree, through one weight matrix; the node's own row through the other; the bias; the
  batch normalisation at running statistics, with the scale a product with a reciprocal square root; the rectifier.
  The first kernel adds the input's entry back; the last goes on, row by row, through the layer normalisation over
  the 128 features and the two-step head, and stores one number per row. Each lemma below says that the stored
  entry is that function of the rows the kernel loaded, spelt with the definitions of the shared specification.

  An elementwise operation reads through at an index; a cast to the same shape is the identity; a one-row array
  broadcast over the rows reads its row, a one-column array broadcast over the lanes reads its column; a sum over
  the lanes is the finite sum over the second coordinate; a block product into zeros is, at an entry, the sum over
  the contracted coordinate of the products of the entries.
-/
import proofs.«127730_j83451214562002_2_alg».proof.Proof.Gen.KernelIdeal.Skeleton
import proofs.«127730_j83451214562002_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.Gnn

/-! ## Layout operations read at an index -/

section Layout
variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## Sums read at an index -/

/-- The sum over the lanes of an `[a, b]` array, read at row `r`. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext c
  apply Fin.ext
  match c with
  | ⟨0, _⟩ => simp [Shape.Reduces.lift_val, Shape.Reduces.liftVal]
  | ⟨1, _⟩ => simp [Shape.Reduces.lift_val, Shape.Reduces.liftVal]

/-- A block product into zeros, read at `(a, b)`: the sum over the contracted coordinate of the entries' products. -/
theorem matmul_zero_ix2 {m k n : ℕ} (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    matmul (⟨[1], [0], [0], [1], [], [], w⟩ : DotDims _ _ _) none A B (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The three block products of the kernels, at an entry. -/
theorem mm_128_128_apply (A : FVec Ideal S5000x128 .f32) (B : FVec Ideal S128x128 .f32) (y : Fin 5000) (c : Fin 128) :
    matmul dot_S5000x128_S128x128_S5000x128_1_0_0_1_n_n none A B (constant S5000x128 .f32 0x00000000#32) (ix2 y c)
      = ∑ k : Fin 128, A (ix2 y k) * B (ix2 k c) :=
  matmul_zero_ix2 _ A B y c

theorem mm_128_64_apply (A : FVec Ideal S5000x128 .f32) (B : FVec Ideal S128x64 .f32) (y : Fin 5000) (j : Fin 64) :
    matmul dot_S5000x128_S128x64_S5000x64_1_0_0_1_n_n none A B (constant S5000x64 .f32 0x00000000#32) (ix2 y j)
      = ∑ k : Fin 128, A (ix2 y k) * B (ix2 k j) :=
  matmul_zero_ix2 _ A B y j

theorem mm_64_1_apply (A : FVec Ideal S5000x64 .f32) (B : FVec Ideal S64x1 .f32) (y : Fin 5000) (u : Fin 1) :
    matmul dot_S5000x64_S64x1_S5000x1_1_0_0_1_n_n none A B (constant S5000x1 .f32 0x00000000#32) (ix2 y u)
      = ∑ k : Fin 64, A (ix2 y k) * B (ix2 k u) :=
  matmul_zero_ix2 _ A B y u

/-- The reciprocal square root, entry by entry. -/
theorem rsqrt_apply {s : Shape} (x : FVec Ideal s .f32) (i : s.Idx) : rsqrt x i = Ideal.rsqrt (x i) := rfl

/-! ## The four kernels' stored values -/

section Regions
variable (agg h resid : Vec Ideal S5000x128 .f32) (rc : Vec Ideal S5000x1 .f32) (wl wr : Vec Ideal S128x128 .f32)
  (b g bb mm v : Vec Ideal S1x128 .f32)

/-- Layer 0: the stored entry is the layer's row entry plus the input's entry (the residual connection). -/
theorem k0_store (y : Fin 5000) (c : Fin 128) :
    k0_pay1 (k0_pay2 agg rc h wl wr b g v mm bb) resid (ix2 y c)
      = rowK (fun k => agg (ix2 y k)) (fun k => h (ix2 y k)) (rc (ix2 y (0 : Fin 1)))
          (fun k c => wl (ix2 k c)) (fun k c => wr (ix2 k c)) (fun c => b (ix2 (0 : Fin 1) c))
          (fun c => g (ix2 (0 : Fin 1) c)) (fun c => bb (ix2 (0 : Fin 1) c)) (fun c => mm (ix2 (0 : Fin 1) c))
          (fun c => v (ix2 (0 : Fin 1) c)) c + resid (ix2 y c) := by
  unfold k0_pay1 k0_pay2 rowK bnRelu lin scaleK eps
  simp only [maximumf_apply, addf_apply, mulf_apply, subf_apply, broadcast_apply, rsqrt_apply, shapeCast_self,
    broadcastTo_1b_ab_apply, broadcastTo_a1_ab_apply, mm_128_128_apply, Ideal.ofBits_def, Ideal.ofBits_zero_f32]

/-- Layer 1: the stored entry is the layer's row entry. -/
theorem k1_store (y : Fin 5000) (c : Fin 128) :
    k1_pay1 (k1_pay2 agg rc h wl wr b g v mm) (k1_pay3 bb) (ix2 y c)
      = rowK (fun k => agg (ix2 y k)) (fun k => h (ix2 y k)) (rc (ix2 y (0 : Fin 1)))
          (fun k c => wl (ix2 k c)) (fun k c => wr (ix2 k c)) (fun c => b (ix2 (0 : Fin 1) c))
          (fun c => g (ix2 (0 : Fin 1) c)) (fun c => bb (ix2 (0 : Fin 1) c)) (fun c => mm (ix2 (0 : Fin 1) c))
          (fun c => v (ix2 (0 : Fin 1) c)) c := by
  unfold k1_pay1 k1_pay2 k1_pay3 rowK bnRelu lin scaleK eps
  simp only [maximumf_apply, addf_apply, mulf_apply, subf_apply, broadcast_apply, rsqrt_apply, shapeCast_self,
    broadcastTo_1b_ab_apply, broadcastTo_a1_ab_apply, mm_128_128_apply, Ideal.ofBits_def, Ideal.ofBits_zero_f32]

/-- Layer 2: the same. -/
theorem k2_store (y : Fin 5000) (c : Fin 128) :
    k2_pay1 (k2_pay2 agg rc h wl wr b g v mm) (k2_pay3 bb) (ix2 y c)
      = rowK (fun k => agg (ix2 y k)) (fun k => h (ix2 y k)) (rc (ix2 y (0 : Fin 1)))
          (fun k c => wl (ix2 k c)) (fun k c => wr (ix2 k c)) (fun c => b (ix2 (0 : Fin 1) c))
          (fun c => g (ix2 (0 : Fin 1) c)) (fun c => bb (ix2 (0 : Fin 1) c)) (fun c => mm (ix2 (0 : Fin 1) c))
          (fun c => v (ix2 (0 : Fin 1) c)) c := by
  unfold k2_pay1 k2_pay2 k2_pay3 rowK bnRelu lin scaleK eps
  simp only [maximumf_apply, addf_apply, mulf_apply, subf_apply, broadcast_apply, rsqrt_apply, shapeCast_self,
    broadcastTo_1b_ab_apply, broadcastTo_a1_ab_apply, mm_128_128_apply, Ideal.ofBits_def, Ideal.ofBits_zero_f32]

/-- Layer 3, before the head: the rectified sum the head starts from is the layer's row entry. -/
theorem k3_row (y : Fin 5000) (c : Fin 128) :
    max (k3_pay2 agg rc h wl wr b g v mm (ix2 y c) + k3_pay3 bb (ix2 y c)) 0
      = rowK (fun k => agg (ix2 y k)) (fun k => h (ix2 y k)) (rc (ix2 y (0 : Fin 1)))
          (fun k c => wl (ix2 k c)) (fun k c => wr (ix2 k c)) (fun c => b (ix2 (0 : Fin 1) c))
          (fun c => g (ix2 (0 : Fin 1) c)) (fun c => bb (ix2 (0 : Fin 1) c)) (fun c => mm (ix2 (0 : Fin 1) c))
          (fun c => v (ix2 (0 : Fin 1) c)) c := by
  unfold k3_pay2 k3_pay3 rowK bnRelu lin scaleK eps
  simp only [maximumf_apply, addf_apply, mulf_apply, subf_apply, broadcast_apply, rsqrt_apply, shapeCast_self,
    broadcastTo_1b_ab_apply, broadcastTo_a1_ab_apply, mm_128_128_apply, Ideal.ofBits_def, Ideal.ofBits_zero_f32]

variable (lng lnb : Vec Ideal S1x128 .f32) (w1 : Vec Ideal S128x64 .f32) (b1 bog bob bom bov : Vec Ideal S1x64 .f32)
  (w2 : Vec Ideal S64x1 .f32) (b2 : Vec Ideal S1x1 .f32)

/-- Layer 3 with the head: the stored entry is the head's output on the layer's row. -/
theorem k3_store (y : Fin 5000) :
    k3_pay1 (k3_pay4 (k3_pay2 agg rc h wl wr b g v mm) (k3_pay3 bb) lng lnb w1 b1) (k3_pay5 bog) (k3_pay6 bov)
        k3_pay7 bom bob w2 b2 (ix2 y (0 : Fin 1))
      = outp (hid scaleK
          (lnK (fun c => rowK (fun k => agg (ix2 y k)) (fun k => h (ix2 y k)) (rc (ix2 y (0 : Fin 1)))
              (fun k c => wl (ix2 k c)) (fun k c => wr (ix2 k c)) (fun c => b (ix2 (0 : Fin 1) c))
              (fun c => g (ix2 (0 : Fin 1) c)) (fun c => bb (ix2 (0 : Fin 1) c)) (fun c => mm (ix2 (0 : Fin 1) c))
              (fun c => v (ix2 (0 : Fin 1) c)) c)
            (fun c => lng (ix2 (0 : Fin 1) c)) (fun c => lnb (ix2 (0 : Fin 1) c)))
          (fun c j => w1 (ix2 c j)) (fun j => b1 (ix2 (0 : Fin 1) j)) (fun j => bog (ix2 (0 : Fin 1) j))
          (fun j => bob (ix2 (0 : Fin 1) j)) (fun j => bom (ix2 (0 : Fin 1) j)) (fun j => bov (ix2 (0 : Fin 1) j)))
        (fun j => w2 (ix2 j (0 : Fin 1))) (b2 (ix2 (0 : Fin 1) (0 : Fin 1))) := by
  unfold k3_pay1 k3_pay4 k3_pay5 k3_pay6 k3_pay7 outp hid lnK var128 mean128 bnRelu scaleK eps c128
  simp only [maximumf_apply, addf_apply, mulf_apply, subf_apply, divf_apply, broadcast_apply, rsqrt_apply,
    shapeCast_self, broadcastTo_1b_ab_apply, broadcastTo_a1_ab_apply, shapeCast_a_a1_apply,
    mm_128_64_apply, mm_64_1_apply, Ideal.ofBits_def, Ideal.ofBits_zero_f32, k3_row]
  repeat
    rw [laneSum_apply]
    try simp only [maximumf_apply, addf_apply, mulf_apply, subf_apply, divf_apply, broadcast_apply, rsqrt_apply,
      shapeCast_self, broadcastTo_1b_ab_apply, broadcastTo_a1_ab_apply, shapeCast_a_a1_apply,
      mm_128_64_apply, mm_64_1_apply, Ideal.ofBits_def, Ideal.ofBits_zero_f32, k3_row]

end Regions

end Cert.KernelIdeal.Pay

end
-- ==== Proof.KValue0.lean ====
/-
  What region 0 leaves in its output array, at the exact instance: row r of the array is the layer's row function of row r of the aggregated array, row r of the node array and node r's reciprocal clipped in-degree.
  A grid point's output block is the body's arithmetic on the point's input blocks; a block of rows starts at 5000 times the point's number and
  the parameter windows are whole arrays, so an entry of an input block is the entry of its array at the same row of the whole array; and the
  twenty output blocks tile the array.
-/
import proofs.«127730_j83451214562002_2_alg».proof.Proof.FrameR0
import proofs.«127730_j83451214562002_2_alg».proof.Proof.Payload
import proofs.«127730_j83451214562002_2_alg».proof.Proof.Spec
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.Fr Cert.Gnn
open Idealize.ShloMosaic Idealize.ShloMosaic.TcCoe Idealize.ShloMosaic.ValueIdx
open Idealize.SL Idealize.SL.Sem
open Idealize.ShloMosaic.Pipeline (Dat Cfg Window)

variable (U : (c : Dev nD) → (b : Ref sig .tc) → Buf (Elt Ideal) ((c : Thread nD τ).loc b))

theorem hz0 : (![0, 0] : Fin 2 → Nat) = fun _ => 0 := funext fun a => by fin_cases a <;> rfl

/-- The printed index maps, decided over the grid: the row-block windows sit at the point's number along the rows, every other coordinate of
    every window is zero. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

/-- Input window 0's block at point `t`, at row `y` of the block, is its array at row `5000 t + y`. -/
theorem read0_0 (c : Dev nD) (t : Fin cfg0.N) (y : Fin 5000) (k : Fin 128) (r : Fin 100000) (hr : r.val = t.val * 5000 + y.val) :
    iblk0 U c 0 t (ix2 y k) = U c main_v23 (ix2 r k) := by
  show U c main_v23 (((cfg0.win 0).blk t).view.emb (ix2 y k)) = U c main_v23 (ix2 r k)
  refine congrArg (U c main_v23) ?_
  have h := idx0 t
  funext a; apply Fin.ext
  match a with
  | ⟨0, _⟩ => show win0_0.index t (0 : Fin 2) * 5000 + 1 * y.val = r.val; omega
  | ⟨1, _⟩ => show win0_0.index t (1 : Fin 2) * 128 + 1 * k.val = k.val; omega
/-- Input window 1's block at point `t`, at row `y` of the block, is its array at row `5000 t + y`. -/
theorem read0_1 (c : Dev nD) (t : Fin cfg0.N) (y : Fin 5000) (k : Fin 128) (r : Fin 100000) (hr : r.val = t.val * 5000 + y.val) :
    iblk0 U c 1 t (ix2 y k) = U c main_arg0 (ix2 r k) := by
  show U c main_arg0 (((cfg0.win 1).blk t).view.emb (ix2 y k)) = U c main_arg0 (ix2 r k)
  refine congrArg (U c main_arg0) ?_
  have h := idx0 t
  funext a; apply Fin.ext
  match a with
  | ⟨0, _⟩ => show win0_1.index t (0 : Fin 2) * 5000 + 1 * y.val = r.val; omega
  | ⟨1, _⟩ => show win0_1.index t (1 : Fin 2) * 128 + 1 * k.val = k.val; omega
/-- Input window 2's block at point `t`, at row `y` of the block, is its array at row `5000 t + y`. -/
theorem read0_2 (c : Dev nD) (t : Fin cfg0.N) (y : Fin 5000) (k : Fin 1) (r : Fin 100000) (hr : r.val = t.val * 5000 + y.val) :
    iblk0 U c 2 t (ix2 y k) = U c main_v11 (ix2 r k) := by
  show U c main_v11 (((cfg0.win 2).blk t).view.emb (ix2 y k)) = U c main_v11 (ix2 r k)
  refine congrArg (U c main_v11) ?_
  have h := idx0 t
  funext a; apply Fin.ext
  match a with
  | ⟨0, _⟩ => show win0_2.index t (0 : Fin 2) * 5000 + 1 * y.val = r.val; omega
  | ⟨1, _⟩ => show win0_2.index t (1 : Fin 2) * 1 + 1 * k.val = k.val; omega
/-- Input window 3's block at point `t`, at row `y` of the block, is its array at row `5000 t + y`. -/
theorem read0_3 (c : Dev nD) (t : Fin cfg0.N) (y : Fin 5000) (k : Fin 128) (r : Fin 100000) (hr : r.val = t.val * 5000 + y.val) :
    iblk0 U c 3 t (ix2 y k) = U c main_arg0 (ix2 r k) := by
  show U c main_arg0 (((cfg0.win 3).blk t).view.emb (ix2 y k)) = U c main_arg0 (ix2 r k)
  refine congrArg (U c main_arg0) ?_
  have h := idx0 t
  funext a; apply Fin.ext
  match a with
  | ⟨0, _⟩ => show win0_3.index t (0 : Fin 2) * 5000 + 1 * y.val = r.val; omega
  | ⟨1, _⟩ => show win0_3.index t (1 : Fin 2) * 128 + 1 * k.val = k.val; omega
/-- Input window 4 is its whole array at every point. -/
theorem read0_4 (c : Dev nD) (t : Fin cfg0.N) (p : Fin 128) (q : Fin 128) :
    iblk0 U c 4 t (ix2 p q) = U c main_v25 (ix2 p q) := by
  show U c main_v25 (((cfg0.win 4).blk t).view.emb (ix2 p q)) = U c main_v25 (ix2 p q)
  refine congrArg (U c main_v25) ?_
  have h := idx0 t
  funext a; apply Fin.ext
  match a with
  | ⟨0, _⟩ => show win0_4.index t (0 : Fin 2) * 128 + 1 * p.val = p.val; omega
  | ⟨1, _⟩ => show win0_4.index t (1 : Fin 2) * 128 + 1 * q.val = q.val; omega
/-- Input window 5 is its whole array at every point. -/
theorem read0_5 (c : Dev nD) (t : Fin cfg0.N) (p : Fin 128) (q : Fin 128) :
    iblk0 U c 5 t (ix2 p q) = U c main_v27 (ix2 p q) := by
  show U c main_v27 (((cfg0.win 5).blk t).view.emb (ix2 p q)) = U c main_v27 (ix2 p q)
  refine congrArg (U c main_v27) ?_
  have h := idx0 t
  funext a; apply Fin.ext
  match a with
  | ⟨0, _⟩ => show win0_5.index t (0 : Fin 2) * 128 + 1 * p.val = p.val; omega
  | ⟨1, _⟩ => show win0_5.index t (1 : Fin 2) * 128 + 1 * q.val = q.val; omega
/-- Input window 6 is its whole array at every point. -/
theorem read0_6 (c : Dev nD) (t : Fin cfg0.N) (p : Fin 1) (q : Fin 128) :
    iblk0 U c 6 t (ix2 p q) = U c main_v38 (ix2 p q) := by
  show U c main_v38 (((cfg0.win 6).blk t).view.emb (ix2 p q)) = U c main_v38 (ix2 p q)
  refine congrArg (U c main_v38) ?_
  have h := idx0 t
  funext a; apply Fin.ext
  match a with
  | ⟨0, _⟩ => show win0_6.index t (0 : Fin 2) * 1 + 1 * p.val = p.val; omega
  | ⟨1, _⟩ => show win0_6.index t (1 : Fin 2) * 128 + 1 * q.val = q.val; omega
/-- Input window 7 is its whole array at every point. -/
theorem read0_7 (c : Dev nD) (t : Fin cfg0.N) (p : Fin 1) (q : Fin 128) :
    iblk0 U c 7 t (ix2 p q) = U c main_v39 (ix2 p q) := by
  show U c main_v39 (((cfg0.win 7).blk t).view.emb (ix2 p q)) = U c main_v39 (ix2 p q)
  refine congrArg (U c main_v39) ?_
  have h := idx0 t
  funext a; apply Fin.ext
  match a with
  | ⟨0, _⟩ => show win0_7.index t (0 : Fin 2) * 1 + 1 * p.val = p.val; omega
  | ⟨1, _⟩ => show win0_7.index t (1 : Fin 2) * 128 + 1 * q.val = q.val; omega
/-- Input window 8 is its whole array at every point. -/
theorem read0_8 (c : Dev nD) (t : Fin cfg0.N) (p : Fin 1) (q : Fin 128) :
    iblk0 U c 8 t (ix2 p q) = U c main_v40 (ix2 p q) := by
  show U c main_v40 (((cfg0.win 8).blk t).view.emb (ix2 p q)) = U c main_v40 (ix2 p q)
  refine congrArg (U c main_v40) ?_
  have h := idx0 t
  funext a; apply Fin.ext
  match a with
  | ⟨0, _⟩ => show win0_8.index t (0 : Fin 2) * 1 + 1 * p.val = p.val; omega
  | ⟨1, _⟩ => show win0_8.index t (1 : Fin 2) * 128 + 1 * q.val = q.val; omega
/-- Input window 9 is its whole array at every point. -/
theorem read0_9 (c : Dev nD) (t : Fin cfg0.N) (p : Fin 1) (q : Fin 128) :
    iblk0 U c 9 t (ix2 p q) = U c main_v41 (ix2 p q) := by
  show U c main_v41 (((cfg0.win 9).blk t).view.emb (ix2 p q)) = U c main_v41 (ix2 p q)
  refine congrArg (U c main_v41) ?_
  have h := idx0 t
  funext a; apply Fin.ext
  match a with
  | ⟨0, _⟩ => show win0_9.index t (0 : Fin 2) * 1 + 1 * p.val = p.val; omega
  | ⟨1, _⟩ => show win0_9.index t (1 : Fin 2) * 128 + 1 * q.val = q.val; omega
/-- Input window 10 is its whole array at every point. -/
theorem read0_10 (c : Dev nD) (t : Fin cfg0.N) (p : Fin 1) (q : Fin 128) :
    iblk0 U c 10 t (ix2 p q) = U c main_v42 (ix2 p q) := by
  show U c main_v42 (((cfg0.win 10).blk t).view.emb (ix2 p q)) = U c main_v42 (ix2 p q)
  refine congrArg (U c main_v42) ?_
  have h := idx0 t
  funext a; apply Fin.ext
  match a with
  | ⟨0, _⟩ => show win0_10.index t (0 : Fin 2) * 1 + 1 * p.val = p.val; omega
  | ⟨1, _⟩ => show win0_10.index t (1 : Fin 2) * 128 + 1 * q.val = q.val; omega

/-- The array region 0 leaves: the layer's row function, row by row, with the node array added back. -/
def G0 (c : Dev nD) : S100000x128.Idx → EReal := fun i =>
  rowK (fun k => U c main_v23 (ix2 (i 0) k)) (fun k => U c main_arg0 (ix2 (i 0) k)) (U c main_v11 (ix2 (i 0) (0 : Fin 1)))
      (fun k c' => U c main_v25 (ix2 k c')) (fun k c' => U c main_v27 (ix2 k c')) (fun c' => U c main_v38 (ix2 (0 : Fin 1) c'))
      (fun c' => U c main_v39 (ix2 (0 : Fin 1) c')) (fun c' => U c main_v40 (ix2 (0 : Fin 1) c')) (fun c' => U c main_v41 (ix2 (0 : Fin 1) c'))
      (fun c' => U c main_v42 (ix2 (0 : Fin 1) c')) (i 1)
    + U c main_arg0 (ix2 (i 0) (i 1))

/-- The body's arithmetic at any entry of the block (the stored value read at an index of the block). -/
theorem store0_at (agg h resid : Vec Ideal S5000x128 .f32) (rc : Vec Ideal S5000x1 .f32) (wl wr : Vec Ideal S128x128 .f32)
    (b g bb mm v : Vec Ideal S1x128 .f32) (j : S5000x128.Idx) :
    k0_pay1 (k0_pay2 agg rc h wl wr b g v mm bb) resid j
      = rowK (fun k => agg (ix2 (j 0) k)) (fun k => h (ix2 (j 0) k)) (rc (ix2 (j 0) (0 : Fin 1)))
          (fun k c => wl (ix2 k c)) (fun k c => wr (ix2 k c)) (fun c => b (ix2 (0 : Fin 1) c))
          (fun c => g (ix2 (0 : Fin 1) c)) (fun c => bb (ix2 (0 : Fin 1) c)) (fun c => mm (ix2 (0 : Fin 1) c))
          (fun c => v (ix2 (0 : Fin 1) c)) (j 1) + resid (ix2 (j 0 : Fin 5000) (j 1 : Fin 128)) := by
  have h0 := Pay.k0_store agg h resid rc wl wr b g bb mm v (j 0) (j 1)
  have hj : j = (ix2 (j 0 : Fin 5000) (j 1 : Fin 128) : S5000x128.Idx) := by
    funext a
    match a with
    | ⟨0, _⟩ => rfl
    | ⟨1, _⟩ => rfl
  exact (congrArg (k0_pay1 (k0_pay2 agg rc h wl wr b g v mm bb) resid) hj).trans h0

/-- WHAT POINT `t` WRITES BACK is block `t` of `G0`. -/
theorem flushed0_eq (c : Dev nD) (t : Fin cfg0.N) :
    (dat0 (F := Ideal) U c).flushed 11 t = ((cfg0.win 11).blk t).view.read (Elt Ideal) (G0 U c) := by
  show (cfg0.win 11).cut (grid0.coords t) ((dat0 U c).after 11 t) = _
  rw [after0_11]
  unfold out0_11
  rw [View.canon_unit_zero hz0]
  simp only [View.ld_unit_zero (S := S5000x128) hz0, View.ld_unit_zero (S := S5000x1) hz0, View.ld_unit_zero (S := S128x128) hz0, View.ld_unit_zero (S := S1x128) hz0]
  funext j
  show k0_pay1 (k0_pay2 (iblk0 U c 0 t) (iblk0 U c 2 t) (iblk0 U c 1 t) (iblk0 U c 4 t) (iblk0 U c 5 t) (iblk0 U c 6 t) (iblk0 U c 7 t) (iblk0 U c 10 t) (iblk0 U c 9 t) (iblk0 U c 8 t)) (iblk0 U c 3 t) j
    = G0 U c (((cfg0.win 11).blk t).view.emb j)
  refine (store0_at (iblk0 U c 0 t) (iblk0 U c 1 t) (iblk0 U c 3 t) (iblk0 U c 2 t) (iblk0 U c 4 t) (iblk0 U c 5 t) (iblk0 U c 6 t) (iblk0 U c 7 t) (iblk0 U c 8 t) (iblk0 U c 9 t) (iblk0 U c 10 t) j).trans ?_
  have hi := idx0 t
  have hr : ((((cfg0.win 11).blk t).view.emb j) 0).val = t.val * 5000 + (j 0).val := by
    show win0_11.index t (0 : Fin 2) * 5000 + 1 * (j 0).val = t.val * 5000 + (j 0).val; omega
  have hc : (((cfg0.win 11).blk t).view.emb j) 1 = j 1 := Fin.ext (by
    show win0_11.index t (1 : Fin 2) * 128 + 1 * (j 1).val = (j 1).val; omega)
  have e0 : ∀ k : Fin 128, iblk0 U c 0 t (ix2 (j 0) k) = U c main_v23 (ix2 ((((cfg0.win 11).blk t).view.emb j) 0) k) :=
    fun k => read0_0 U c t (j 0) k _ hr
  have e1 : ∀ k : Fin 128, iblk0 U c 1 t (ix2 (j 0) k) = U c main_arg0 (ix2 ((((cfg0.win 11).blk t).view.emb j) 0) k) :=
    fun k => read0_1 U c t (j 0) k _ hr
  have e2 : iblk0 U c 2 t (ix2 (j 0) (0 : Fin 1)) = U c main_v11 (ix2 ((((cfg0.win 11).blk t).view.emb j) 0) (0 : Fin 1)) :=
    read0_2 U c t (j 0) 0 _ hr
  have e3 : iblk0 U c 3 t (ix2 (j 0 : Fin 5000) (j 1 : Fin 128)) = U c main_arg0 (ix2 ((((cfg0.win 11).blk t).view.emb j) 0) (j 1)) :=
    read0_3 U c t (j 0) (j 1) _ hr
  unfold G0
  simp only [e0, e1, e2, e3, read0_4 U c t, read0_5 U c t, read0_6 U c t, read0_7 U c t, read0_8 U c t, read0_9 U c t, read0_10 U c t, hc]

/-- An index of the output array is in point `t`'s block iff its row is among the block's 5000 rows. -/
theorem mem_blk0 (t : Fin cfg0.N) (i : S100000x128.Idx) :
    i ∈ ((cfg0.win 11).blk t).view.set ↔ ∀ a : Fin 2, win0_11.index t a * S5000x128.size a ≤ (i a).val ∧ (i a).val < win0_11.index t a * S5000x128.size a + S5000x128.size a := by
  show i ∈ ((View.whole main_v43).slice (win0_11.rect t)).set ↔ _
  rw [View.set_slice_whole, Rect.mem_set_unit]
  exact Iff.rfl

/-- The output window's block at point `t` starts at row `5000 t`. -/
theorem idxo0 : ∀ t : Fin cfg0.N, win0_11.index t (0 : Fin 2) = t.val ∧ win0_11.index t (1 : Fin 2) = 0 :=
  (by decide +kernel : ∀ t : Fin grid0.N, _)

/-- The twenty blocks tile the output array. -/
theorem cover0 (i : S100000x128.Idx) : ∃ t : Fin cfg0.N, (cfg0.win 11).flush t = true ∧ i ∈ ((cfg0.win 11).blk t).view.set := by
  have hi0 : (i 0).val < 100000 := (i 0).isLt
  have hi1 : (i 1).val < 128 := (i 1).isLt
  refine ⟨⟨(i 0).val / 5000, by show (i 0).val / 5000 < 20; omega⟩, flush0_11 _, ?_⟩
  rw [mem_blk0]
  obtain ⟨h0, h1⟩ := idxo0 ⟨(i 0).val / 5000, by show (i 0).val / 5000 < 20; omega⟩
  have h0' : win0_11.index ⟨(i 0).val / 5000, by show (i 0).val / 5000 < 20; omega⟩ (0 : Fin 2) = (i 0).val / 5000 := h0
  intro a
  match a with
  | ⟨0, _⟩ => show win0_11.index _ (0 : Fin 2) * 5000 ≤ (i 0).val ∧ (i 0).val < win0_11.index _ (0 : Fin 2) * 5000 + 5000; omega
  | ⟨1, _⟩ => show win0_11.index _ (1 : Fin 2) * 128 ≤ (i 1).val ∧ (i 1).val < win0_11.index _ (1 : Fin 2) * 128 + 128; omega

/-- THE ARRAY after the region: `G0` of the entry contents. -/
theorem final0 (c : Dev nD) : (dat0 (F := Ideal) U c).arrAt 11 cfg0.N = G0 U c :=
  (dat0 (F := Ideal) U c).arrAt_eq_of_cover 11 (G0 U c) (fun t _ => flushed0_eq U c t) (cover0)

end Cert.KernelIdeal.KV

end
-- ==== Proof.KValue1.lean ====
/-
  What region 1 leaves in its output array, at the exact instance: row r of the array is the layer's row function of row r of the aggregated array, row r of the node array and node r's reciprocal clipped in-degree.
  A grid point's output block is the body's arithmetic on the point's input blocks; a block of rows starts at 5000 times the point's number and
  the parameter windows are whole arrays, so an entry of an input block is the entry of its array at the same row of the whole array; and the
  twenty output blocks tile the array.
-/
import proofs.«127730_j83451214562002_2_alg».proof.Proof.FrameR1
import proofs.«127730_j83451214562002_2_alg».proof.Proof.Payload
import proofs.«127730_j83451214562002_2_alg».proof.Proof.Spec
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.Fr Cert.Gnn
open Idealize.ShloMosaic Idealize.ShloMosaic.TcCoe Idealize.ShloMosaic.ValueIdx
open Idealize.SL Idealize.SL.Sem
open Idealize.ShloMosaic.Pipeline (Dat Cfg Window)

variable (U : (c : Dev nD) → (b : Ref sig .tc) → Buf (Elt Ideal) ((c : Thread nD τ).loc b))

theorem hz1 : (![0, 0] : Fin 2 → Nat) = fun _ => 0 := funext fun a => by fin_cases a <;> rfl

/-- The printed index maps, decided over the grid: the row-block windows sit at the point's number along the rows, every other coordinate of
    every window is zero. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

/-- Input window 0's block at point `t`, at row `y` of the block, is its array at row `5000 t + y`. -/
theorem read1_0 (c : Dev nD) (t : Fin cfg1.N) (y : Fin 5000) (k : Fin 128) (r : Fin 100000) (hr : r.val = t.val * 5000 + y.val) :
    iblk1 U c 0 t (ix2 y k) = U c main_v55 (ix2 r k) := by
  show U c main_v55 (((cfg1.win 0).blk t).view.emb (ix2 y k)) = U c main_v55 (ix2 r k)
  refine congrArg (U c main_v55) ?_
  have h := idx1 t
  funext a; apply Fin.ext
  match a with
  | ⟨0, _⟩ => show win1_0.index t (0 : Fin 2) * 5000 + 1 * y.val = r.val; omega
  | ⟨1, _⟩ => show win1_0.index t (1 : Fin 2) * 128 + 1 * k.val = k.val; omega
/-- Input window 1's block at point `t`, at row `y` of the block, is its array at row `5000 t + y`. -/
theorem read1_1 (c : Dev nD) (t : Fin cfg1.N) (y : Fin 5000) (k : Fin 128) (r : Fin 100000) (hr : r.val = t.val * 5000 + y.val) :
    iblk1 U c 1 t (ix2 y k) = U c main_v43 (ix2 r k) := by
  show U c main_v43 (((cfg1.win 1).blk t).view.emb (ix2 y k)) = U c main_v43 (ix2 r k)
  refine congrArg (U c main_v43) ?_
  have h := idx1 t
  funext a; apply Fin.ext
  match a with
  | ⟨0, _⟩ => show win1_1.index t (0 : Fin 2) * 5000 + 1 * y.val = r.val; omega
  | ⟨1, _⟩ => show win1_1.index t (1 : Fin 2) * 128 + 1 * k.val = k.val; omega
/-- Input window 2's block at point `t`, at row `y` of the block, is its array at row `5000 t + y`. -/
theorem read1_2 (c : Dev nD) (t : Fin cfg1.N) (y : Fin 5000) (k : Fin 1) (r : Fin 100000) (hr : r.val = t.val * 5000 + y.val) :
    iblk1 U c 2 t (ix2 y k) = U c main_v11 (ix2 r k) := by
  show U c main_v11 (((cfg1.win 2).blk t).view.emb (ix2 y k)) = U c main_v11 (ix2 r k)
  refine congrArg (U c main_v11) ?_
  have h := idx1 t
  funext a; apply Fin.ext
  match a with
  | ⟨0, _⟩ => show win1_2.index t (0 : Fin 2) * 5000 + 1 * y.val = r.val; omega
  | ⟨1, _⟩ => show win1_2.index t (1 : Fin 2) * 1 + 1 * k.val = k.val; omega
/-- Input window 3 is its whole array at every point. -/
theorem read1_3 (c : Dev nD) (t : Fin cfg1.N) (p : Fin 128) (q : Fin 128) :
    iblk1 U c 3 t (ix2 p q) = U c main_v57 (ix2 p q) := by
  show U c main_v57 (((cfg1.win 3).blk t).view.emb (ix2 p q)) = U c main_v57 (ix2 p q)
  refine congrArg (U c main_v57) ?_
  have h := idx1 t
  funext a; apply Fin.ext
  match a with
  | ⟨0, _⟩ => show win1_3.index t (0 : Fin 2) * 128 + 1 * p.val = p.val; omega
  | ⟨1, _⟩ => show win1_3.index t (1 : Fin 2) * 128 + 1 * q.val = q.val; omega
/-- Input window 4 is its whole array at every point. -/
theorem read1_4 (c : Dev nD) (t : Fin cfg1.N) (p : Fin 128) (q : Fin 128) :
    iblk1 U c 4 t (ix2 p q) = U c main_v59 (ix2 p q) := by
  show U c main_v59 (((cfg1.win 4).blk t).view.emb (ix2 p q)) = U c main_v59 (ix2 p q)
  refine congrArg (U c main_v59) ?_
  have h := idx1 t
  funext a; apply Fin.ext
  match a with
  | ⟨0, _⟩ => show win1_4.index t (0 : Fin 2) * 128 + 1 * p.val = p.val; omega
  | ⟨1, _⟩ => show win1_4.index t (1 : Fin 2) * 128 + 1 * q.val = q.val; omega
/-- Input window 5 is its whole array at every point. -/
theorem read1_5 (c : Dev nD) (t : Fin cfg1.N) (p : Fin 1) (q : Fin 128) :
    iblk1 U c 5 t (ix2 p q) = U c main_v70 (ix2 p q) := by
  show U c main_v70 (((cfg1.win 5).blk t).view.emb (ix2 p q)) = U c main_v70 (ix2 p q)
  refine congrArg (U c main_v70) ?_
  have h := idx1 t
  funext a; apply Fin.ext
  match a with
  | ⟨0, _⟩ => show win1_5.index t (0 : Fin 2) * 1 + 1 * p.val = p.val; omega
  | ⟨1, _⟩ => show win1_5.index t (1 : Fin 2) * 128 + 1 * q.val = q.val; omega
/-- Input window 6 is its whole array at every point. -/
theorem read1_6 (c : Dev nD) (t : Fin cfg1.N) (p : Fin 1) (q : Fin 128) :
    iblk1 U c 6 t (ix2 p q) = U c main_v71 (ix2 p q) := by
  show U c main_v71 (((cfg1.win 6).blk t).view.emb (ix2 p q)) = U c main_v71 (ix2 p q)
  refine congrArg (U c main_v71) ?_
  have h := idx1 t
  funext a; apply Fin.ext
  match a with
  | ⟨0, _⟩ => show win1_6.index t (0 : Fin 2) * 1 + 1 * p.val = p.val; omega
  | ⟨1, _⟩ => show win1_6.index t (1 : Fin 2) * 128 + 1 * q.val = q.val; omega
/-- Input window 7 is its whole array at every point. -/
theorem read1_7 (c : Dev nD) (t : Fin cfg1.N) (p : Fin 1) (q : Fin 128) :
    iblk1 U c 7 t (ix2 p q) = U c main_v72 (ix2 p q) := by
  show U c main_v72 (((cfg1.win 7).blk t).view.emb (ix2 p q)) = U c main_v72 (ix2 p q)
  refine congrArg (U c main_v72) ?_
  have h := idx1 t
  funext a; apply Fin.ext
  match a with
  | ⟨0, _⟩ => show win1_7.index t (0 : Fin 2) * 1 + 1 * p.val = p.val; omega
  | ⟨1, _⟩ => show win1_7.index t (1 : Fin 2) * 128 + 1 * q.val = q.val; omega
/-- Input window 8 is its whole array at every point. -/
theorem read1_8 (c : Dev nD) (t : Fin cfg1.N) (p : Fin 1) (q : Fin 128) :
    iblk1 U c 8 t (ix2 p q) = U c main_v73 (ix2 p q) := by
  show U c main_v73 (((cfg1.win 8).blk t).view.emb (ix2 p q)) = U c main_v73 (ix2 p q)
  refine congrArg (U c main_v73) ?_
  have h := idx1 t
  funext a; apply Fin.ext
  match a with
  | ⟨0, _⟩ => show win1_8.index t (0 : Fin 2) * 1 + 1 * p.val = p.val; omega
  | ⟨1, _⟩ => show win1_8.index t (1 : Fin 2) * 128 + 1 * q.val = q.val; omega
/-- Input window 9 is its whole array at every point. -/
theorem read1_9 (c : Dev nD) (t : Fin cfg1.N) (p : Fin 1) (q : Fin 128) :
    iblk1 U c 9 t (ix2 p q) = U c main_v74 (ix2 p q) := by
  show U c main_v74 (((cfg1.win 9).blk t).view.emb (ix2 p q)) = U c main_v74 (ix2 p q)
  refine congrArg (U c main_v74) ?_
  have h := idx1 t
  funext a; apply Fin.ext
  match a with
  | ⟨0, _⟩ => show win1_9.index t (0 : Fin 2) * 1 + 1 * p.val = p.val; omega
  | ⟨1, _⟩ => show win1_9.index t (1 : Fin 2) * 128 + 1 * q.val = q.val; omega

/-- The array region 1 leaves: the layer's row function, row by row. -/
def G1 (c : Dev nD) : S100000x128.Idx → EReal := fun i =>
  rowK (fun k => U c main_v55 (ix2 (i 0) k)) (fun k => U c main_v43 (ix2 (i 0) k)) (U c main_v11 (ix2 (i 0) (0 : Fin 1)))
      (fun k c' => U c main_v57 (ix2 k c')) (fun k c' => U c main_v59 (ix2 k c')) (fun c' => U c main_v70 (ix2 (0 : Fin 1) c'))
      (fun c' => U c main_v71 (ix2 (0 : Fin 1) c')) (fun c' => U c main_v72 (ix2 (0 : Fin 1) c')) (fun c' => U c main_v73 (ix2 (0 : Fin 1) c'))
      (fun c' => U c main_v74 (ix2 (0 : Fin 1) c')) (i 1)

/-- The body's arithmetic at any entry of the block (the stored value read at an index of the block). -/
theorem store1_at (agg h : Vec Ideal S5000x128 .f32) (rc : Vec Ideal S5000x1 .f32) (wl wr : Vec Ideal S128x128 .f32)
    (b g bb mm v : Vec Ideal S1x128 .f32) (j : S5000x128.Idx) :
    k1_pay1 (k1_pay2 agg rc h wl wr b g v mm) (k1_pay3 bb) j
      = rowK (fun k => agg (ix2 (j 0) k)) (fun k => h (ix2 (j 0) k)) (rc (ix2 (j 0) (0 : Fin 1)))
          (fun k c => wl (ix2 k c)) (fun k c => wr (ix2 k c)) (fun c => b (ix2 (0 : Fin 1) c))
          (fun c => g (ix2 (0 : Fin 1) c)) (fun c => bb (ix2 (0 : Fin 1) c)) (fun c => mm (ix2 (0 : Fin 1) c))
          (fun c => v (ix2 (0 : Fin 1) c)) (j 1) := by
  have h0 := Pay.k1_store agg h rc wl wr b g bb mm v (j 0) (j 1)
  have hj : j = (ix2 (j 0 : Fin 5000) (j 1 : Fin 128) : S5000x128.Idx) := by
    funext a
    match a with
    | ⟨0, _⟩ => rfl
    | ⟨1, _⟩ => rfl
  exact (congrArg (k1_pay1 (k1_pay2 agg rc h wl wr b g v mm) (k1_pay3 bb)) hj).trans h0

/-- WHAT POINT `t` WRITES BACK is block `t` of `G1`. -/
theorem flushed1_eq (c : Dev nD) (t : Fin cfg1.N) :
    (dat1 (F := Ideal) U c).flushed 10 t = ((cfg1.win 10).blk t).view.read (Elt Ideal) (G1 U c) := by
  show (cfg1.win 10).cut (grid1.coords t) ((dat1 U c).after 10 t) = _
  rw [after1_10]
  unfold out1_10
  rw [View.canon_unit_zero hz1]
  simp only [View.ld_unit_zero (S := S5000x128) hz1, View.ld_unit_zero (S := S5000x1) hz1, View.ld_unit_zero (S := S128x128) hz1, View.ld_unit_zero (S := S1x128) hz1]
  funext j
  show k1_pay1 (k1_pay2 (iblk1 U c 0 t) (iblk1 U c 2 t) (iblk1 U c 1 t) (iblk1 U c 3 t) (iblk1 U c 4 t) (iblk1 U c 5 t) (iblk1 U c 6 t) (iblk1 U c 9 t) (iblk1 U c 8 t)) (k1_pay3 (iblk1 U c 7 t)) j
    = G1 U c (((cfg1.win 10).blk t).view.emb j)
  refine (store1_at (iblk1 U c 0 t) (iblk1 U c 1 t) (iblk1 U c 2 t) (iblk1 U c 3 t) (iblk1 U c 4 t) (iblk1 U c 5 t) (iblk1 U c 6 t) (iblk1 U c 7 t) (iblk1 U c 8 t) (iblk1 U c 9 t) j).trans ?_
  have hi := idx1 t
  have hr : ((((cfg1.win 10).blk t).view.emb j) 0).val = t.val * 5000 + (j 0).val := by
    show win1_10.index t (0 : Fin 2) * 5000 + 1 * (j 0).val = t.val * 5000 + (j 0).val; omega
  have hc : (((cfg1.win 10).blk t).view.emb j) 1 = j 1 := Fin.ext (by
    show win1_10.index t (1 : Fin 2) * 128 + 1 * (j 1).val = (j 1).val; omega)
  have e0 : ∀ k : Fin 128, iblk1 U c 0 t (ix2 (j 0) k) = U c main_v55 (ix2 ((((cfg1.win 10).blk t).view.emb j) 0) k) :=
    fun k => read1_0 U c t (j 0) k _ hr
  have e1 : ∀ k : Fin 128, iblk1 U c 1 t (ix2 (j 0) k) = U c main_v43 (ix2 ((((cfg1.win 10).blk t).view.emb j) 0) k) :=
    fun k => read1_1 U c t (j 0) k _ hr
  have e2 : iblk1 U c 2 t (ix2 (j 0) (0 : Fin 1)) = U c main_v11 (ix2 ((((cfg1.win 10).blk t).view.emb j) 0) (0 : Fin 1)) :=
    read1_2 U c t (j 0) 0 _ hr
  unfold G1
  simp only [e0, e1, e2, read1_3 U c t, read1_4 U c t, read1_5 U c t, read1_6 U c t, read1_7 U c t, read1_8 U c t, read1_9 U c t, hc]

/-- An index of the output array is in point `t`'s block iff its row is among the block's 5000 rows. -/
theorem mem_blk1 (t : Fin cfg1.N) (i : S100000x128.Idx) :
    i ∈ ((cfg1.win 10).blk t).view.set ↔ ∀ a : Fin 2, win1_10.index t a * S5000x128.size a ≤ (i a).val ∧ (i a).val < win1_10.index t a * S5000x128.size a + S5000x128.size a := by
  show i ∈ ((View.whole main_v75).slice (win1_10.rect t)).set ↔ _
  rw [View.set_slice_whole, Rect.mem_set_unit]
  exact Iff.rfl

/-- The output window's block at point `t` starts at row `5000 t`. -/
theorem idxo1 : ∀ t : Fin cfg1.N, win1_10.index t (0 : Fin 2) = t.val ∧ win1_10.index t (1 : Fin 2) = 0 :=
  (by decide +kernel : ∀ t : Fin grid1.N, _)

/-- The twenty blocks tile the output array. -/
theorem cover1 (i : S100000x128.Idx) : ∃ t : Fin cfg1.N, (cfg1.win 10).flush t = true ∧ i ∈ ((cfg1.win 10).blk t).view.set := by
  have hi0 : (i 0).val < 100000 := (i 0).isLt
  have hi1 : (i 1).val < 128 := (i 1).isLt
  refine ⟨⟨(i 0).val / 5000, by show (i 0).val / 5000 < 20; omega⟩, flush1_10 _, ?_⟩
  rw [mem_blk1]
  obtain ⟨h0, h1⟩ := idxo1 ⟨(i 0).val / 5000, by show (i 0).val / 5000 < 20; omega⟩
  have h0' : win1_10.index ⟨(i 0).val / 5000, by show (i 0).val / 5000 < 20; omega⟩ (0 : Fin 2) = (i 0).val / 5000 := h0
  intro a
  match a with
  | ⟨0, _⟩ => show win1_10.index _ (0 : Fin 2) * 5000 ≤ (i 0).val ∧ (i 0).val < win1_10.index _ (0 : Fin 2) * 5000 + 5000; omega
  | ⟨1, _⟩ => show win1_10.index _ (1 : Fin 2) * 128 ≤ (i 1).val ∧ (i 1).val < win1_10.index _ (1 : Fin 2) * 128 + 128; omega

/-- THE ARRAY after the region: `G1` of the entry contents. -/
theorem final1 (c : Dev nD) : (dat1 (F := Ideal) U c).arrAt 10 cfg1.N = G1 U c :=
  (dat1 (F := Ideal) U c).arrAt_eq_of_cover 10 (G1 U c) (fun t _ => flushed1_eq U c t) (cover1)

end Cert.KernelIdeal.KV

end
-- ==== Proof.KValue2.lean ====
/-
  What region 2 leaves in its output array, at the exact instance: row r of the array is the layer's row function of row r of the aggregated array, row r of the node array and node r's reciprocal clipped in-degree.
  A grid point's output block is the body's arithmetic on the point's input blocks; a block of rows starts at 5000 times the point's number and
  the parameter windows are whole arrays, so an entry of an input block is the entry of its array at the same row of the whole array; and the
  twenty output blocks tile the array.
-/
import proofs.«127730_j83451214562002_2_alg».proof.Proof.FrameR2
import proofs.«127730_j83451214562002_2_alg».proof.Proof.Payload
import proofs.«127730_j83451214562002_2_alg».proof.Proof.Spec
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.Fr Cert.Gnn
open Idealize.ShloMosaic Idealize.ShloMosaic.TcCoe Idealize.ShloMosaic.ValueIdx
open Idealize.SL Idealize.SL.Sem
open Idealize.ShloMosaic.Pipeline (Dat Cfg Window)

variable (U : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: the row-block windows sit at the point's number along the rows, every other coordinate of
    every window is zero. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = t.val ∧ win2_10.index t (1 : Fin 2) = 0 :=
  (by decide +kernel : ∀ t : Fin grid2.N, _)

/-- Input window 0's block at point `t`, at row `y` of the block, is its array at row `5000 t + y`. -/
theorem read2_0 (c : Dev nD) (t : Fin cfg2.N) (y : Fin 5000) (k : Fin 128) (r : Fin 100000) (hr : r.val = t.val * 5000 + y.val) :
    iblk2 U c 0 t (ix2 y k) = U c main_v87 (ix2 r k) := by
  show U c main_v87 (((cfg2.win 0).blk t).view.emb (ix2 y k)) = U c main_v87 (ix2 r k)
  refine congrArg (U c main_v87) ?_
  have h := idx2 t
  funext a; apply Fin.ext
  match a with
  | ⟨0, _⟩ => show win2_0.index t (0 : Fin 2) * 5000 + 1 * y.val = r.val; omega
  | ⟨1, _⟩ => show win2_0.index t (1 : Fin 2) * 128 + 1 * k.val = k.val; omega
/-- Input window 1's block at point `t`, at row `y` of the block, is its array at row `5000 t + y`. -/
theorem read2_1 (c : Dev nD) (t : Fin cfg2.N) (y : Fin 5000) (k : Fin 128) (r : Fin 100000) (hr : r.val = t.val * 5000 + y.val) :
    iblk2 U c 1 t (ix2 y k) = U c main_v75 (ix2 r k) := by
  show U c main_v75 (((cfg2.win 1).blk t).view.emb (ix2 y k)) = U c main_v75 (ix2 r k)
  refine congrArg (U c main_v75) ?_
  have h := idx2 t
  funext a; apply Fin.ext
  match a with
  | ⟨0, _⟩ => show win2_1.index t (0 : Fin 2) * 5000 + 1 * y.val = r.val; omega
  | ⟨1, _⟩ => show win2_1.index t (1 : Fin 2) * 128 + 1 * k.val = k.val; omega
/-- Input window 2's block at point `t`, at row `y` of the block, is its array at row `5000 t + y`. -/
theorem read2_2 (c : Dev nD) (t : Fin cfg2.N) (y : Fin 5000) (k : Fin 1) (r : Fin 100000) (hr : r.val = t.val * 5000 + y.val) :
    iblk2 U c 2 t (ix2 y k) = U c main_v11 (ix2 r k) := by
  show U c main_v11 (((cfg2.win 2).blk t).view.emb (ix2 y k)) = U c main_v11 (ix2 r k)
  refine congrArg (U c main_v11) ?_
  have h := idx2 t
  funext a; apply Fin.ext
  match a with
  | ⟨0, _⟩ => show win2_2.index t (0 : Fin 2) * 5000 + 1 * y.val = r.val; omega
  | ⟨1, _⟩ => show win2_2.index t (1 : Fin 2) * 1 + 1 * k.val = k.val; omega
/-- Input window 3 is its whole array at every point. -/
theorem read2_3 (c : Dev nD) (t : Fin cfg2.N) (p : Fin 128) (q : Fin 128) :
    iblk2 U c 3 t (ix2 p q) = U c main_v89 (ix2 p q) := by
  show U c main_v89 (((cfg2.win 3).blk t).view.emb (ix2 p q)) = U c main_v89 (ix2 p q)
  refine congrArg (U c main_v89) ?_
  have h := idx2 t
  funext a; apply Fin.ext
  match a with
  | ⟨0, _⟩ => show win2_3.index t (0 : Fin 2) * 128 + 1 * p.val = p.val; omega
  | ⟨1, _⟩ => show win2_3.index t (1 : Fin 2) * 128 + 1 * q.val = q.val; omega
/-- Input window 4 is its whole array at every point. -/
theorem read2_4 (c : Dev nD) (t : Fin cfg2.N) (p : Fin 128) (q : Fin 128) :
    iblk2 U c 4 t (ix2 p q) = U c main_v91 (ix2 p q) := by
  show U c main_v91 (((cfg2.win 4).blk t).view.emb (ix2 p q)) = U c main_v91 (ix2 p q)
  refine congrArg (U c main_v91) ?_
  have h := idx2 t
  funext a; apply Fin.ext
  match a with
  | ⟨0, _⟩ => show win2_4.index t (0 : Fin 2) * 128 + 1 * p.val = p.val; omega
  | ⟨1, _⟩ => show win2_4.index t (1 : Fin 2) * 128 + 1 * q.val = q.val; omega
/-- Input window 5 is its whole array at every point. -/
theorem read2_5 (c : Dev nD) (t : Fin cfg2.N) (p : Fin 1) (q : Fin 128) :
    iblk2 U c 5 t (ix2 p q) = U c main_v102 (ix2 p q) := by
  show U c main_v102 (((cfg2.win 5).blk t).view.emb (ix2 p q)) = U c main_v102 (ix2 p q)
  refine congrArg (U c main_v102) ?_
  have h := idx2 t
  funext a; apply Fin.ext
  match a with
  | ⟨0, _⟩ => show win2_5.index t (0 : Fin 2) * 1 + 1 * p.val = p.val; omega
  | ⟨1, _⟩ => show win2_5.index t (1 : Fin 2) * 128 + 1 * q.val = q.val; omega
/-- Input window 6 is its whole array at every point. -/
theorem read2_6 (c : Dev nD) (t : Fin cfg2.N) (p : Fin 1) (q : Fin 128) :
    iblk2 U c 6 t (ix2 p q) = U c main_v103 (ix2 p q) := by
  show U c main_v103 (((cfg2.win 6).blk t).view.emb (ix2 p q)) = U c main_v103 (ix2 p q)
  refine congrArg (U c main_v103) ?_
  have h := idx2 t
  funext a; apply Fin.ext
  match a with
  | ⟨0, _⟩ => show win2_6.index t (0 : Fin 2) * 1 + 1 * p.val = p.val; omega
  | ⟨1, _⟩ => show win2_6.index t (1 : Fin 2) * 128 + 1 * q.val = q.val; omega
/-- Input window 7 is its whole array at every point. -/
theorem read2_7 (c : Dev nD) (t : Fin cfg2.N) (p : Fin 1) (q : Fin 128) :
    iblk2 U c 7 t (ix2 p q) = U c main_v104 (ix2 p q) := by
  show U c main_v104 (((cfg2.win 7).blk t).view.emb (ix2 p q)) = U c main_v104 (ix2 p q)
  refine congrArg (U c main_v104) ?_
  have h := idx2 t
  funext a; apply Fin.ext
  match a with
  | ⟨0, _⟩ => show win2_7.index t (0 : Fin 2) * 1 + 1 * p.val = p.val; omega
  | ⟨1, _⟩ => show win2_7.index t (1 : Fin 2) * 128 + 1 * q.val = q.val; omega
/-- Input window 8 is its whole array at every point. -/
theorem read2_8 (c : Dev nD) (t : Fin cfg2.N) (p : Fin 1) (q : Fin 128) :
    iblk2 U c 8 t (ix2 p q) = U c main_v105 (ix2 p q) := by
  show U c main_v105 (((cfg2.win 8).blk t).view.emb (ix2 p q)) = U c main_v105 (ix2 p q)
  refine congrArg (U c main_v105) ?_
  have h := idx2 t
  funext a; apply Fin.ext
  match a with
  | ⟨0, _⟩ => show win2_8.index t (0 : Fin 2) * 1 + 1 * p.val = p.val; omega
  | ⟨1, _⟩ => show win2_8.index t (1 : Fin 2) * 128 + 1 * q.val = q.val; omega
/-- Input window 9 is its whole array at every point. -/
theorem read2_9 (c : Dev nD) (t : Fin cfg2.N) (p : Fin 1) (q : Fin 128) :
    iblk2 U c 9 t (ix2 p q) = U c main_v106 (ix2 p q) := by
  show U c main_v106 (((cfg2.win 9).blk t).view.emb (ix2 p q)) = U c main_v106 (ix2 p q)
  refine congrArg (U c main_v106) ?_
  have h := idx2 t
  funext a; apply Fin.ext
  match a with
  | ⟨0, _⟩ => show win2_9.index t (0 : Fin 2) * 1 + 1 * p.val = p.val; omega
  | ⟨1, _⟩ => show win2_9.index t (1 : Fin 2) * 128 + 1 * q.val = q.val; omega

/-- The array region 2 leaves: the layer's row function, row by row. -/
def G2 (c : Dev nD) : S100000x128.Idx → EReal := fun i =>
  rowK (fun k => U c main_v87 (ix2 (i 0) k)) (fun k => U c main_v75 (ix2 (i 0) k)) (U c main_v11 (ix2 (i 0) (0 : Fin 1)))
      (fun k c' => U c main_v89 (ix2 k c')) (fun k c' => U c main_v91 (ix2 k c')) (fun c' => U c main_v102 (ix2 (0 : Fin 1) c'))
      (fun c' => U c main_v103 (ix2 (0 : Fin 1) c')) (fun c' => U c main_v104 (ix2 (0 : Fin 1) c')) (fun c' => U c main_v105 (ix2 (0 : Fin 1) c'))
      (fun c' => U c main_v106 (ix2 (0 : Fin 1) c')) (i 1)

/-- The body's arithmetic at any entry of the block (the stored value read at an index of the block). -/
theorem store2_at (agg h : Vec Ideal S5000x128 .f32) (rc : Vec Ideal S5000x1 .f32) (wl wr : Vec Ideal S128x128 .f32)
    (b g bb mm v : Vec Ideal S1x128 .f32) (j : S5000x128.Idx) :
    k2_pay1 (k2_pay2 agg rc h wl wr b g v mm) (k2_pay3 bb) j
      = rowK (fun k => agg (ix2 (j 0) k)) (fun k => h (ix2 (j 0) k)) (rc (ix2 (j 0) (0 : Fin 1)))
          (fun k c => wl (ix2 k c)) (fun k c => wr (ix2 k c)) (fun c => b (ix2 (0 : Fin 1) c))
          (fun c => g (ix2 (0 : Fin 1) c)) (fun c => bb (ix2 (0 : Fin 1) c)) (fun c => mm (ix2 (0 : Fin 1) c))
          (fun c => v (ix2 (0 : Fin 1) c)) (j 1) := by
  have h0 := Pay.k2_store agg h rc wl wr b g bb mm v (j 0) (j 1)
  have hj : j = (ix2 (j 0 : Fin 5000) (j 1 : Fin 128) : S5000x128.Idx) := by
    funext a
    match a with
    | ⟨0, _⟩ => rfl
    | ⟨1, _⟩ => rfl
  exact (congrArg (k2_pay1 (k2_pay2 agg rc h wl wr b g v mm) (k2_pay3 bb)) hj).trans h0

/-- WHAT POINT `t` WRITES BACK is block `t` of `G2`. -/
theorem flushed2_eq (c : Dev nD) (t : Fin cfg2.N) :
    (dat2 (F := Ideal) U c).flushed 10 t = ((cfg2.win 10).blk t).view.read (Elt Ideal) (G2 U c) := by
  show (cfg2.win 10).cut (grid2.coords t) ((dat2 U c).after 10 t) = _
  rw [after2_10]
  unfold out2_10
  rw [View.canon_unit_zero hz2]
  simp only [View.ld_unit_zero (S := S5000x128) hz2, View.ld_unit_zero (S := S5000x1) hz2, View.ld_unit_zero (S := S128x128) hz2, View.ld_unit_zero (S := S1x128) hz2]
  funext j
  show k2_pay1 (k2_pay2 (iblk2 U c 0 t) (iblk2 U c 2 t) (iblk2 U c 1 t) (iblk2 U c 3 t) (iblk2 U c 4 t) (iblk2 U c 5 t) (iblk2 U c 6 t) (iblk2 U c 9 t) (iblk2 U c 8 t)) (k2_pay3 (iblk2 U c 7 t)) j
    = G2 U c (((cfg2.win 10).blk t).view.emb j)
  refine (store2_at (iblk2 U c 0 t) (iblk2 U c 1 t) (iblk2 U c 2 t) (iblk2 U c 3 t) (iblk2 U c 4 t) (iblk2 U c 5 t) (iblk2 U c 6 t) (iblk2 U c 7 t) (iblk2 U c 8 t) (iblk2 U c 9 t) j).trans ?_
  have hi := idx2 t
  have hr : ((((cfg2.win 10).blk t).view.emb j) 0).val = t.val * 5000 + (j 0).val := by
    show win2_10.index t (0 : Fin 2) * 5000 + 1 * (j 0).val = t.val * 5000 + (j 0).val; omega
  have hc : (((cfg2.win 10).blk t).view.emb j) 1 = j 1 := Fin.ext (by
    show win2_10.index t (1 : Fin 2) * 128 + 1 * (j 1).val = (j 1).val; omega)
  have e0 : ∀ k : Fin 128, iblk2 U c 0 t (ix2 (j 0) k) = U c main_v87 (ix2 ((((cfg2.win 10).blk t).view.emb j) 0) k) :=
    fun k => read2_0 U c t (j 0) k _ hr
  have e1 : ∀ k : Fin 128, iblk2 U c 1 t (ix2 (j 0) k) = U c main_v75 (ix2 ((((cfg2.win 10).blk t).view.emb j) 0) k) :=
    fun k => read2_1 U c t (j 0) k _ hr
  have e2 : iblk2 U c 2 t (ix2 (j 0) (0 : Fin 1)) = U c main_v11 (ix2 ((((cfg2.win 10).blk t).view.emb j) 0) (0 : Fin 1)) :=
    read2_2 U c t (j 0) 0 _ hr
  unfold G2
  simp only [e0, e1, e2, read2_3 U c t, read2_4 U c t, read2_5 U c t, read2_6 U c t, read2_7 U c t, read2_8 U c t, read2_9 U c t, hc]

/-- An index of the output array is in point `t`'s block iff its row is among the block's 5000 rows. -/
theorem mem_blk2 (t : Fin cfg2.N) (i : S100000x128.Idx) :
    i ∈ ((cfg2.win 10).blk t).view.set ↔ ∀ a : Fin 2, win2_10.index t a * S5000x128.size a ≤ (i a).val ∧ (i a).val < win2_10.index t a * S5000x128.size a + S5000x128.size a := by
  show i ∈ ((View.whole main_v107).slice (win2_10.rect t)).set ↔ _
  rw [View.set_slice_whole, Rect.mem_set_unit]
  exact Iff.rfl

/-- The output window's block at point `t` starts at row `5000 t`. -/
theorem idxo2 : ∀ t : Fin cfg2.N, win2_10.index t (0 : Fin 2) = t.val ∧ win2_10.index t (1 : Fin 2) = 0 :=
  (by decide +kernel : ∀ t : Fin grid2.N, _)

/-- The twenty blocks tile the output array. -/
theorem cover2 (i : S100000x128.Idx) : ∃ t : Fin cfg2.N, (cfg2.win 10).flush t = true ∧ i ∈ ((cfg2.win 10).blk t).view.set := by
  have hi0 : (i 0).val < 100000 := (i 0).isLt
  have hi1 : (i 1).val < 128 := (i 1).isLt
  refine ⟨⟨(i 0).val / 5000, by show (i 0).val / 5000 < 20; omega⟩, flush2_10 _, ?_⟩
  rw [mem_blk2]
  obtain ⟨h0, h1⟩ := idxo2 ⟨(i 0).val / 5000, by show (i 0).val / 5000 < 20; omega⟩
  have h0' : win2_10.index ⟨(i 0).val / 5000, by show (i 0).val / 5000 < 20; omega⟩ (0 : Fin 2) = (i 0).val / 5000 := h0
  intro a
  match a with
  | ⟨0, _⟩ => show win2_10.index _ (0 : Fin 2) * 5000 ≤ (i 0).val ∧ (i 0).val < win2_10.index _ (0 : Fin 2) * 5000 + 5000; omega
  | ⟨1, _⟩ => show win2_10.index _ (1 : Fin 2) * 128 ≤ (i 1).val ∧ (i 1).val < win2_10.index _ (1 : Fin 2) * 128 + 128; omega

/-- THE ARRAY after the region: `G2` of the entry contents. -/
theorem final2 (c : Dev nD) : (dat2 (F := Ideal) U c).arrAt 10 cfg2.N = G2 U c :=
  (dat2 (F := Ideal) U c).arrAt_eq_of_cover 10 (G2 U c) (fun t _ => flushed2_eq U c t) (cover2)

end Cert.KernelIdeal.KV

end
-- ==== Proof.KValue3.lean ====
/-
  What region 3 leaves in its output array, at the exact instance: entry r of the column is the last layer, the layer normalisation and the head applied to row r of the aggregated array, row r of the node array and node r's reciprocal clipped in-degree.
  A grid point's output block is the body's arithmetic on the point's input blocks; a block of rows starts at 5000 times the point's number and
  the parameter windows are whole arrays, so an entry of an input block is the entry of its array at the same row of the whole array; and the
  twenty output blocks tile the array.
-/
import proofs.«127730_j83451214562002_2_alg».proof.Proof.FrameR3
import proofs.«127730_j83451214562002_2_alg».proof.Proof.Payload
import proofs.«127730_j83451214562002_2_alg».proof.Proof.Spec
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.Fr Cert.Gnn
open Idealize.ShloMosaic Idealize.ShloMosaic.TcCoe Idealize.ShloMosaic.ValueIdx
open Idealize.SL Idealize.SL.Sem
open Idealize.ShloMosaic.Pipeline (Dat Cfg Window)

variable (U : (c : Dev nD) → (b : Ref sig .tc) → Buf (Elt Ideal) ((c : Thread nD τ).loc b))

theorem hz3 : (![0, 0] : Fin 2 → Nat) = fun _ => 0 := funext fun a => by fin_cases a <;> rfl

/-- The printed index maps, decided over the grid: the row-block windows sit at the point's number along the rows, every other coordinate of
    every window is zero. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0
    ∧ win3_11.index t (0 : Fin 2) = 0 ∧ win3_11.index t (1 : Fin 2) = 0
    ∧ win3_12.index t (0 : Fin 2) = 0 ∧ win3_12.index t (1 : Fin 2) = 0
    ∧ win3_13.index t (0 : Fin 2) = 0 ∧ win3_13.index t (1 : Fin 2) = 0
    ∧ win3_14.index t (0 : Fin 2) = 0 ∧ win3_14.index t (1 : Fin 2) = 0
    ∧ win3_15.index t (0 : Fin 2) = 0 ∧ win3_15.index t (1 : Fin 2) = 0
    ∧ win3_16.index t (0 : Fin 2) = 0 ∧ win3_16.index t (1 : Fin 2) = 0
    ∧ win3_17.index t (0 : Fin 2) = 0 ∧ win3_17.index t (1 : Fin 2) = 0
    ∧ win3_18.index t (0 : Fin 2) = 0 ∧ win3_18.index t (1 : Fin 2) = 0
    ∧ win3_19.index t (0 : Fin 2) = 0 ∧ win3_19.index t (1 : Fin 2) = 0
    ∧ win3_20.index t (0 : Fin 2) = t.val ∧ win3_20.index t (1 : Fin 2) = 0 :=
  (by decide +kernel : ∀ t : Fin grid3.N, _)

/-- Input window 0's block at point `t`, at row `y` of the block, is its array at row `5000 t + y`. -/
theorem read3_0 (c : Dev nD) (t : Fin cfg3.N) (y : Fin 5000) (k : Fin 128) (r : Fin 100000) (hr : r.val = t.val * 5000 + y.val) :
    iblk3 U c 0 t (ix2 y k) = U c main_v119 (ix2 r k) := by
  show U c main_v119 (((cfg3.win 0).blk t).view.emb (ix2 y k)) = U c main_v119 (ix2 r k)
  refine congrArg (U c main_v119) ?_
  have h := idx3 t
  funext a; apply Fin.ext
  match a with
  | ⟨0, _⟩ => show win3_0.index t (0 : Fin 2) * 5000 + 1 * y.val = r.val; omega
  | ⟨1, _⟩ => show win3_0.index t (1 : Fin 2) * 128 + 1 * k.val = k.val; omega
/-- Input window 1's block at point `t`, at row `y` of the block, is its array at row `5000 t + y`. -/
theorem read3_1 (c : Dev nD) (t : Fin cfg3.N) (y : Fin 5000) (k : Fin 128) (r : Fin 100000) (hr : r.val = t.val * 5000 + y.val) :
    iblk3 U c 1 t (ix2 y k) = U c main_v107 (ix2 r k) := by
  show U c main_v107 (((cfg3.win 1).blk t).view.emb (ix2 y k)) = U c main_v107 (ix2 r k)
  refine congrArg (U c main_v107) ?_
  have h := idx3 t
  funext a; apply Fin.ext
  match a with
  | ⟨0, _⟩ => show win3_1.index t (0 : Fin 2) * 5000 + 1 * y.val = r.val; omega
  | ⟨1, _⟩ => show win3_1.index t (1 : Fin 2) * 128 + 1 * k.val = k.val; omega
/-- Input window 2's block at point `t`, at row `y` of the block, is its array at row `5000 t + y`. -/
theorem read3_2 (c : Dev nD) (t : Fin cfg3.N) (y : Fin 5000) (k : Fin 1) (r : Fin 100000) (hr : r.val = t.val * 5000 + y.val) :
    iblk3 U c 2 t (ix2 y k) = U c main_v11 (ix2 r k) := by
  show U c main_v11 (((cfg3.win 2).blk t).view.emb (ix2 y k)) = U c main_v11 (ix2 r k)
  refine congrArg (U c main_v11) ?_
  have h := idx3 t
  funext a; apply Fin.ext
  match a with
  | ⟨0, _⟩ => show win3_2.index t (0 : Fin 2) * 5000 + 1 * y.val = r.val; omega
  | ⟨1, _⟩ => show win3_2.index t (1 : Fin 2) * 1 + 1 * k.val = k.val; omega
/-- Input window 3 is its whole array at every point. -/
theorem read3_3 (c : Dev nD) (t : Fin cfg3.N) (p : Fin 128) (q : Fin 128) :
    iblk3 U c 3 t (ix2 p q) = U c main_v121 (ix2 p q) := by
  show U c main_v121 (((cfg3.win 3).blk t).view.emb (ix2 p q)) = U c main_v121 (ix2 p q)
  refine congrArg (U c main_v121) ?_
  have h := idx3 t
  funext a; apply Fin.ext
  match a with
  | ⟨0, _⟩ => show win3_3.index t (0 : Fin 2) * 128 + 1 * p.val = p.val; omega
  | ⟨1, _⟩ => show win3_3.index t (1 : Fin 2) * 128 + 1 * q.val = q.val; omega
/-- Input window 4 is its whole array at every point. -/
theorem read3_4 (c : Dev nD) (t : Fin cfg3.N) (p : Fin 128) (q : Fin 128) :
    iblk3 U c 4 t (ix2 p q) = U c main_v123 (ix2 p q) := by
  show U c main_v123 (((cfg3.win 4).blk t).view.emb (ix2 p q)) = U c main_v123 (ix2 p q)
  refine congrArg (U c main_v123) ?_
  have h := idx3 t
  funext a; apply Fin.ext
  match a with
  | ⟨0, _⟩ => show win3_4.index t (0 : Fin 2) * 128 + 1 * p.val = p.val; omega
  | ⟨1, _⟩ => show win3_4.index t (1 : Fin 2) * 128 + 1 * q.val = q.val; omega
/-- Input window 5 is its whole array at every point. -/
theorem read3_5 (c : Dev nD) (t : Fin cfg3.N) (p : Fin 1) (q : Fin 128) :
    iblk3 U c 5 t (ix2 p q) = U c main_v134 (ix2 p q) := by
  show U c main_v134 (((cfg3.win 5).blk t).view.emb (ix2 p q)) = U c main_v134 (ix2 p q)
  refine congrArg (U c main_v134) ?_
  have h := idx3 t
  funext a; apply Fin.ext
  match a with
  | ⟨0, _⟩ => show win3_5.index t (0 : Fin 2) * 1 + 1 * p.val = p.val; omega
  | ⟨1, _⟩ => show win3_5.index t (1 : Fin 2) * 128 + 1 * q.val = q.val; omega
/-- Input window 6 is its whole array at every point. -/
theorem read3_6 (c : Dev nD) (t : Fin cfg3.N) (p : Fin 1) (q : Fin 128) :
    iblk3 U c 6 t (ix2 p q) = U c main_v135 (ix2 p q) := by
  show U c main_v135 (((cfg3.win 6).blk t).view.emb (ix2 p q)) = U c main_v135 (ix2 p q)
  refine congrArg (U c main_v135) ?_
  have h := idx3 t
  funext a; apply Fin.ext
  match a with
  | ⟨0, _⟩ => show win3_6.index t (0 : Fin 2) * 1 + 1 * p.val = p.val; omega
  | ⟨1, _⟩ => show win3_6.index t (1 : Fin 2) * 128 + 1 * q.val = q.val; omega
/-- Input window 7 is its whole array at every point. -/
theorem read3_7 (c : Dev nD) (t : Fin cfg3.N) (p : Fin 1) (q : Fin 128) :
    iblk3 U c 7 t (ix2 p q) = U c main_v136 (ix2 p q) := by
  show U c main_v136 (((cfg3.win 7).blk t).view.emb (ix2 p q)) = U c main_v136 (ix2 p q)
  refine congrArg (U c main_v136) ?_
  have h := idx3 t
  funext a; apply Fin.ext
  match a with
  | ⟨0, _⟩ => show win3_7.index t (0 : Fin 2) * 1 + 1 * p.val = p.val; omega
  | ⟨1, _⟩ => show win3_7.index t (1 : Fin 2) * 128 + 1 * q.val = q.val; omega
/-- Input window 8 is its whole array at every point. -/
theorem read3_8 (c : Dev nD) (t : Fin cfg3.N) (p : Fin 1) (q : Fin 128) :
    iblk3 U c 8 t (ix2 p q) = U c main_v137 (ix2 p q) := by
  show U c main_v137 (((cfg3.win 8).blk t).view.emb (ix2 p q)) = U c main_v137 (ix2 p q)
  refine congrArg (U c main_v137) ?_
  have h := idx3 t
  funext a; apply Fin.ext
  match a with
  | ⟨0, _⟩ => show win3_8.index t (0 : Fin 2) * 1 + 1 * p.val = p.val; omega
  | ⟨1, _⟩ => show win3_8.index t (1 : Fin 2) * 128 + 1 * q.val = q.val; omega
/-- Input window 9 is its whole array at every point. -/
theorem read3_9 (c : Dev nD) (t : Fin cfg3.N) (p : Fin 1) (q : Fin 128) :
    iblk3 U c 9 t (ix2 p q) = U c main_v138 (ix2 p q) := by
  show U c main_v138 (((cfg3.win 9).blk t).view.emb (ix2 p q)) = U c main_v138 (ix2 p q)
  refine congrArg (U c main_v138) ?_
  have h := idx3 t
  funext a; apply Fin.ext
  match a with
  | ⟨0, _⟩ => show win3_9.index t (0 : Fin 2) * 1 + 1 * p.val = p.val; omega
  | ⟨1, _⟩ => show win3_9.index t (1 : Fin 2) * 128 + 1 * q.val = q.val; omega
/-- Input window 10 is its whole array at every point. -/
theorem read3_10 (c : Dev nD) (t : Fin cfg3.N) (p : Fin 1) (q : Fin 128) :
    iblk3 U c 10 t (ix2 p q) = U c main_v139 (ix2 p q) := by
  show U c main_v139 (((cfg3.win 10).blk t).view.emb (ix2 p q)) = U c main_v139 (ix2 p q)
  refine congrArg (U c main_v139) ?_
  have h := idx3 t
  funext a; apply Fin.ext
  match a with
  | ⟨0, _⟩ => show win3_10.index t (0 : Fin 2) * 1 + 1 * p.val = p.val; omega
  | ⟨1, _⟩ => show win3_10.index t (1 : Fin 2) * 128 + 1 * q.val = q.val; omega
/-- Input window 11 is its whole array at every point. -/
theorem read3_11 (c : Dev nD) (t : Fin cfg3.N) (p : Fin 1) (q : Fin 128) :
    iblk3 U c 11 t (ix2 p q) = U c main_v140 (ix2 p q) := by
  show U c main_v140 (((cfg3.win 11).blk t).view.emb (ix2 p q)) = U c main_v140 (ix2 p q)
  refine congrArg (U c main_v140) ?_
  have h := idx3 t
  funext a; apply Fin.ext
  match a with
  | ⟨0, _⟩ => show win3_11.index t (0 : Fin 2) * 1 + 1 * p.val = p.val; omega
  | ⟨1, _⟩ => show win3_11.index t (1 : Fin 2) * 128 + 1 * q.val = q.val; omega
/-- Input window 12 is its whole array at every point. -/
theorem read3_12 (c : Dev nD) (t : Fin cfg3.N) (p : Fin 128) (q : Fin 64) :
    iblk3 U c 12 t (ix2 p q) = U c main_arg11 (ix2 p q) := by
  show U c main_arg11 (((cfg3.win 12).blk t).view.emb (ix2 p q)) = U c main_arg11 (ix2 p q)
  refine congrArg (U c main_arg11) ?_
  have h := idx3 t
  funext a; apply Fin.ext
  match a with
  | ⟨0, _⟩ => show win3_12.index t (0 : Fin 2) * 128 + 1 * p.val = p.val; omega
  | ⟨1, _⟩ => show win3_12.index t (1 : Fin 2) * 64 + 1 * q.val = q.val; omega
/-- Input window 13 is its whole array at every point. -/
theorem read3_13 (c : Dev nD) (t : Fin cfg3.N) (p : Fin 1) (q : Fin 64) :
    iblk3 U c 13 t (ix2 p q) = U c main_v141 (ix2 p q) := by
  show U c main_v141 (((cfg3.win 13).blk t).view.emb (ix2 p q)) = U c main_v141 (ix2 p q)
  refine congrArg (U c main_v141) ?_
  have h := idx3 t
  funext a; apply Fin.ext
  match a with
  | ⟨0, _⟩ => show win3_13.index t (0 : Fin 2) * 1 + 1 * p.val = p.val; omega
  | ⟨1, _⟩ => show win3_13.index t (1 : Fin 2) * 64 + 1 * q.val = q.val; omega
/-- Input window 14 is its whole array at every point. -/
theorem read3_14 (c : Dev nD) (t : Fin cfg3.N) (p : Fin 1) (q : Fin 64) :
    iblk3 U c 14 t (ix2 p q) = U c main_v142 (ix2 p q) := by
  show U c main_v142 (((cfg3.win 14).blk t).view.emb (ix2 p q)) = U c main_v142 (ix2 p q)
  refine congrArg (U c main_v142) ?_
  have h := idx3 t
  funext a; apply Fin.ext
  match a with
  | ⟨0, _⟩ => show win3_14.index t (0 : Fin 2) * 1 + 1 * p.val = p.val; omega
  | ⟨1, _⟩ => show win3_14.index t (1 : Fin 2) * 64 + 1 * q.val = q.val; omega
/-- Input window 15 is its whole array at every point. -/
theorem read3_15 (c : Dev nD) (t : Fin cfg3.N) (p : Fin 1) (q : Fin 64) :
    iblk3 U c 15 t (ix2 p q) = U c main_v143 (ix2 p q) := by
  show U c main_v143 (((cfg3.win 15).blk t).view.emb (ix2 p q)) = U c main_v143 (ix2 p q)
  refine congrArg (U c main_v143) ?_
  have h := idx3 t
  funext a; apply Fin.ext
  match a with
  | ⟨0, _⟩ => show win3_15.index t (0 : Fin 2) * 1 + 1 * p.val = p.val; omega
  | ⟨1, _⟩ => show win3_15.index t (1 : Fin 2) * 64 + 1 * q.val = q.val; omega
/-- Input window 16 is its whole array at every point. -/
theorem read3_16 (c : Dev nD) (t : Fin cfg3.N) (p : Fin 1) (q : Fin 64) :
    iblk3 U c 16 t (ix2 p q) = U c main_v144 (ix2 p q) := by
  show U c main_v144 (((cfg3.win 16).blk t).view.emb (ix2 p q)) = U c main_v144 (ix2 p q)
  refine congrArg (U c main_v144) ?_
  have h := idx3 t
  funext a; apply Fin.ext
  match a with
  | ⟨0, _⟩ => show win3_16.index t (0 : Fin 2) * 1 + 1 * p.val = p.val; omega
  | ⟨1, _⟩ => show win3_16.index t (1 : Fin 2) * 64 + 1 * q.val = q.val; omega
/-- Input window 17 is its whole array at every point. -/
theorem read3_17 (c : Dev nD) (t : Fin cfg3.N) (p : Fin 1) (q : Fin 64) :
    iblk3 U c 17 t (ix2 p q) = U c main_v145 (ix2 p q) := by
  show U c main_v145 (((cfg3.win 17).blk t).view.emb (ix2 p q)) = U c main_v145 (ix2 p q)
  refine congrArg (U c main_v145) ?_
  have h := idx3 t
  funext a; apply Fin.ext
  match a with
  | ⟨0, _⟩ => show win3_17.index t (0 : Fin 2) * 1 + 1 * p.val = p.val; omega
  | ⟨1, _⟩ => show win3_17.index t (1 : Fin 2) * 64 + 1 * q.val = q.val; omega
/-- Input window 18 is its whole array at every point. -/
theorem read3_18 (c : Dev nD) (t : Fin cfg3.N) (p : Fin 64) (q : Fin 1) :
    iblk3 U c 18 t (ix2 p q) = U c main_arg17 (ix2 p q) := by
  show U c main_arg17 (((cfg3.win 18).blk t).view.emb (ix2 p q)) = U c main_arg17 (ix2 p q)
  refine congrArg (U c main_arg17) ?_
  have h := idx3 t
  funext a; apply Fin.ext
  match a with
  | ⟨0, _⟩ => show win3_18.index t (0 : Fin 2) * 64 + 1 * p.val = p.val; omega
  | ⟨1, _⟩ => show win3_18.index t (1 : Fin 2) * 1 + 1 * q.val = q.val; omega
/-- Input window 19 is its whole array at every point. -/
theorem read3_19 (c : Dev nD) (t : Fin cfg3.N) (p : Fin 1) (q : Fin 1) :
    iblk3 U c 19 t (ix2 p q) = U c main_v146 (ix2 p q) := by
  show U c main_v146 (((cfg3.win 19).blk t).view.emb (ix2 p q)) = U c main_v146 (ix2 p q)
  refine congrArg (U c main_v146) ?_
  have h := idx3 t
  funext a; apply Fin.ext
  match a with
  | ⟨0, _⟩ => show win3_19.index t (0 : Fin 2) * 1 + 1 * p.val = p.val; omega
  | ⟨1, _⟩ => show win3_19.index t (1 : Fin 2) * 1 + 1 * q.val = q.val; omega

/-- The column region 3 leaves: the last layer, the layer normalisation and the head, row by row. -/
def G3 (c : Dev nD) : S100000x1.Idx → EReal := fun i =>
  outp (hid scaleK
      (lnK (fun c' => rowK (fun k => U c main_v119 (ix2 (i 0) k)) (fun k => U c main_v107 (ix2 (i 0) k)) (U c main_v11 (ix2 (i 0) (0 : Fin 1)))
          (fun k c' => U c main_v121 (ix2 k c')) (fun k c' => U c main_v123 (ix2 k c')) (fun c' => U c main_v134 (ix2 (0 : Fin 1) c'))
          (fun c' => U c main_v135 (ix2 (0 : Fin 1) c')) (fun c' => U c main_v136 (ix2 (0 : Fin 1) c')) (fun c' => U c main_v137 (ix2 (0 : Fin 1) c'))
          (fun c' => U c main_v138 (ix2 (0 : Fin 1) c')) c')
        (fun c' => U c main_v139 (ix2 (0 : Fin 1) c')) (fun c' => U c main_v140 (ix2 (0 : Fin 1) c')))
      (fun c' j => U c main_arg11 (ix2 c' j)) (fun j => U c main_v141 (ix2 (0 : Fin 1) j)) (fun j => U c main_v142 (ix2 (0 : Fin 1) j))
      (fun j => U c main_v143 (ix2 (0 : Fin 1) j)) (fun j => U c main_v144 (ix2 (0 : Fin 1) j)) (fun j => U c main_v145 (ix2 (0 : Fin 1) j)))
    (fun j => U c main_arg17 (ix2 j (0 : Fin 1))) (U c main_v146 (ix2 (0 : Fin 1) (0 : Fin 1)))

/-- The body's arithmetic at any entry of the output block. -/
theorem store3_at (agg h : Vec Ideal S5000x128 .f32) (rc : Vec Ideal S5000x1 .f32) (wl wr : Vec Ideal S128x128 .f32)
    (b g bb mm v lng lnb : Vec Ideal S1x128 .f32) (w1 : Vec Ideal S128x64 .f32) (b1 bog bob bom bov : Vec Ideal S1x64 .f32)
    (w2 : Vec Ideal S64x1 .f32) (b2 : Vec Ideal S1x1 .f32) (j : S5000x1.Idx) :
    k3_pay1 (k3_pay4 (k3_pay2 agg rc h wl wr b g v mm) (k3_pay3 bb) lng lnb w1 b1) (k3_pay5 bog) (k3_pay6 bov)
        k3_pay7 bom bob w2 b2 j
      = outp (hid scaleK
          (lnK (fun c => rowK (fun k => agg (ix2 (j 0) k)) (fun k => h (ix2 (j 0) k)) (rc (ix2 (j 0) (0 : Fin 1)))
              (fun k c => wl (ix2 k c)) (fun k c => wr (ix2 k c)) (fun c => b (ix2 (0 : Fin 1) c))
              (fun c => g (ix2 (0 : Fin 1) c)) (fun c => bb (ix2 (0 : Fin 1) c)) (fun c => mm (ix2 (0 : Fin 1) c))
              (fun c => v (ix2 (0 : Fin 1) c)) c)
            (fun c => lng (ix2 (0 : Fin 1) c)) (fun c => lnb (ix2 (0 : Fin 1) c)))
          (fun c j => w1 (ix2 c j)) (fun j => b1 (ix2 (0 : Fin 1) j)) (fun j => bog (ix2 (0 : Fin 1) j))
          (fun j => bob (ix2 (0 : Fin 1) j)) (fun j => bom (ix2 (0 : Fin 1) j)) (fun j => bov (ix2 (0 : Fin 1) j)))
        (fun j => w2 (ix2 j (0 : Fin 1))) (b2 (ix2 (0 : Fin 1) (0 : Fin 1))) := by
  have h0 := Pay.k3_store agg h rc wl wr b g bb mm v lng lnb w1 b1 bog bob bom bov w2 b2 (j 0)
  have hj1 : (j 1).val < 1 := (j 1).isLt
  have hj : j = (ix2 (j 0 : Fin 5000) (0 : Fin 1) : S5000x1.Idx) := by
    funext a
    match a with
    | ⟨0, _⟩ => rfl
    | ⟨1, _⟩ => exact Fin.ext (by show (j 1).val = 0; omega)
  exact (congrArg (k3_pay1 (k3_pay4 (k3_pay2 agg rc h wl wr b g v mm) (k3_pay3 bb) lng lnb w1 b1) (k3_pay5 bog) (k3_pay6 bov)
    k3_pay7 bom bob w2 b2) hj).trans h0

/-- WHAT POINT `t` WRITES BACK is block `t` of `G3`. -/
theorem flushed3_eq (c : Dev nD) (t : Fin cfg3.N) :
    (dat3 (F := Ideal) U c).flushed 20 t = ((cfg3.win 20).blk t).view.read (Elt Ideal) (G3 U c) := by
  show (cfg3.win 20).cut (grid3.coords t) ((dat3 U c).after 20 t) = _
  rw [after3_20]
  unfold out3_20
  rw [View.canon_unit_zero hz3]
  simp only [View.ld_unit_zero (S := S5000x128) hz3, View.ld_unit_zero (S := S5000x1) hz3, View.ld_unit_zero (S := S128x128) hz3, View.ld_unit_zero (S := S1x128) hz3, View.ld_unit_zero (S := S128x64) hz3, View.ld_unit_zero (S := S1x64) hz3, View.ld_unit_zero (S := S64x1) hz3, View.ld_unit_zero (S := S1x1) hz3]
  funext j
  show k3_pay1 (k3_pay4 (k3_pay2 (iblk3 U c 0 t) (iblk3 U c 2 t) (iblk3 U c 1 t) (iblk3 U c 3 t) (iblk3 U c 4 t) (iblk3 U c 5 t) (iblk3 U c 6 t) (iblk3 U c 9 t) (iblk3 U c 8 t)) (k3_pay3 (iblk3 U c 7 t)) (iblk3 U c 10 t) (iblk3 U c 11 t) (iblk3 U c 12 t) (iblk3 U c 13 t)) (k3_pay5 (iblk3 U c 14 t)) (k3_pay6 (iblk3 U c 17 t)) (k3_pay7 (F := Ideal)) (iblk3 U c 16 t) (iblk3 U c 15 t) (iblk3 U c 18 t) (iblk3 U c 19 t) j
    = G3 U c (((cfg3.win 20).blk t).view.emb j)
  refine (store3_at (iblk3 U c 0 t) (iblk3 U c 1 t) (iblk3 U c 2 t) (iblk3 U c 3 t) (iblk3 U c 4 t) (iblk3 U c 5 t) (iblk3 U c 6 t) (iblk3 U c 7 t) (iblk3 U c 8 t) (iblk3 U c 9 t) (iblk3 U c 10 t) (iblk3 U c 11 t) (iblk3 U c 12 t) (iblk3 U c 13 t) (iblk3 U c 14 t) (iblk3 U c 15 t) (iblk3 U c 16 t) (iblk3 U c 17 t) (iblk3 U c 18 t) (iblk3 U c 19 t) j).trans ?_
  have hi := idx3 t
  have hr : ((((cfg3.win 20).blk t).view.emb j) 0).val = t.val * 5000 + (j 0).val := by
    show win3_20.index t (0 : Fin 2) * 5000 + 1 * (j 0).val = t.val * 5000 + (j 0).val; omega
  have e0 : ∀ k : Fin 128, iblk3 U c 0 t (ix2 (j 0) k) = U c main_v119 (ix2 ((((cfg3.win 20).blk t).view.emb j) 0) k) :=
    fun k => read3_0 U c t (j 0) k _ hr
  have e1 : ∀ k : Fin 128, iblk3 U c 1 t (ix2 (j 0) k) = U c main_v107 (ix2 ((((cfg3.win 20).blk t).view.emb j) 0) k) :=
    fun k => read3_1 U c t (j 0) k _ hr
  have e2 : iblk3 U c 2 t (ix2 (j 0) (0 : Fin 1)) = U c main_v11 (ix2 ((((cfg3.win 20).blk t).view.emb j) 0) (0 : Fin 1)) :=
    read3_2 U c t (j 0) 0 _ hr
  unfold G3
  simp only [e0, e1, e2, read3_3 U c t, read3_4 U c t, read3_5 U c t, read3_6 U c t, read3_7 U c t, read3_8 U c t, read3_9 U c t, read3_10 U c t, read3_11 U c t, read3_12 U c t, read3_13 U c t, read3_14 U c t, read3_15 U c t, read3_16 U c t, read3_17 U c t, read3_18 U c t, read3_19 U c t]

/-- An index of the output column is in point `t`'s block iff its row is among the block's 5000 rows. -/
theorem mem_blk3 (t : Fin cfg3.N) (i : S100000x1.Idx) :
    i ∈ ((cfg3.win 20).blk t).view.set ↔ ∀ a : Fin 2, win3_20.index t a * S5000x1.size a ≤ (i a).val ∧ (i a).val < win3_20.index t a * S5000x1.size a + S5000x1.size a := by
  show i ∈ ((View.whole main_v147).slice (win3_20.rect t)).set ↔ _
  rw [View.set_slice_whole, Rect.mem_set_unit]
  exact Iff.rfl

/-- The output window's block at point `t` starts at row `5000 t`. -/
theorem idxo3 : ∀ t : Fin cfg3.N, win3_20.index t (0 : Fin 2) = t.val ∧ win3_20.index t (1 : Fin 2) = 0 :=
  (by decide +kernel : ∀ t : Fin grid3.N, _)

/-- The twenty blocks tile the output column. -/
theorem cover3 (i : S100000x1.Idx) : ∃ t : Fin cfg3.N, (cfg3.win 20).flush t = true ∧ i ∈ ((cfg3.win 20).blk t).view.set := by
  have hi0 : (i 0).val < 100000 := (i 0).isLt
  have hi1 : (i 1).val < 1 := (i 1).isLt
  refine ⟨⟨(i 0).val / 5000, by show (i 0).val / 5000 < 20; omega⟩, flush3_20 _, ?_⟩
  rw [mem_blk3]
  obtain ⟨h0, h1⟩ := idxo3 ⟨(i 0).val / 5000, by show (i 0).val / 5000 < 20; omega⟩
  have h0' : win3_20.index ⟨(i 0).val / 5000, by show (i 0).val / 5000 < 20; omega⟩ (0 : Fin 2) = (i 0).val / 5000 := h0
  intro a
  match a with
  | ⟨0, _⟩ => show win3_20.index _ (0 : Fin 2) * 5000 ≤ (i 0).val ∧ (i 0).val < win3_20.index _ (0 : Fin 2) * 5000 + 5000; omega
  | ⟨1, _⟩ => show win3_20.index _ (1 : Fin 2) * 1 ≤ (i 1).val ∧ (i 1).val < win3_20.index _ (1 : Fin 2) * 1 + 1; omega

/-- THE COLUMN after the region: `G3` of the entry contents. -/
theorem final3 (c : Dev nD) : (dat3 (F := Ideal) U c).arrAt 20 cfg3.N = G3 U c :=
  (dat3 (F := Ideal) U c).arrAt_eq_of_cover 20 (G3 U c) (fun t _ => flushed3_eq U c t) (cover3)

end Cert.KernelIdeal.KV

end
-- ==== Proof.KChain.lean ====
/-
  The kernel program's result as the network of the specification. Following the buffers' contents from the launch memory through the five
  host stretches and the four kernel regions: the first stretch leaves the index vectors, the reciprocal clipped in-degrees, the aggregation of
  the input rows and layer 0's parameters; region 0 leaves layer 0's rows with the input added back; each later stretch aggregates the rows the
  region before it left and slices out its layer's parameters, touching neither the index vectors nor the in-degrees nor any argument; region 3
  leaves the head's output column, which the last stretch flattens. Read entry by entry this is the specification's network in its multiplying
  arrangement, over the program's own aggregation operator.
-/
import proofs.«127730_j83451214562002_2_alg».proof.Proof.FrameRun
import proofs.«127730_j83451214562002_2_alg».proof.Proof.KValue0
import proofs.«127730_j83451214562002_2_alg».proof.Proof.KValue1
import proofs.«127730_j83451214562002_2_alg».proof.Proof.KValue2
import proofs.«127730_j83451214562002_2_alg».proof.Proof.KValue3
import proofs.«127730_j83451214562002_2_alg».proof.Proof.KLayout
import proofs.«127730_j83451214562002_2_alg».proof.Proof.Spec

set_option maxRecDepth 16384

noncomputable section

namespace Cert.KernelIdeal.KC

open Cert.KernelIdeal Cert.KernelIdeal.Gen Cert.KernelIdeal.Fr Cert.KernelIdeal.KV Cert.KernelIdeal.Lay Cert.Gnn
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- The edge list, the input rows and the parameters, as launched. -/
abbrev ee : IVec S2x1600000 32 := m ((c : Thread nD τ).loc main_arg1)
abbrev xx : Arr := m ((c : Thread nD τ).loc main_arg0)
def PP : Params := mkParams (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
/-- The nodes' reciprocal clipped in-degrees. -/
def rcf : Fin 100000 → EReal := fun r => rc (ee m c) (ix2 r (0 : Fin 1))

/-! ## What is carried from boundary to boundary -/

theorem lvl2 (b : Ref sig .tc) (h0 : b ∉ hostOps0_W) (hn0 : b ≠ main_v43) : W2 m ρ c (Proc.devRef .tc b) = m ((c : Thread nD τ).loc b) :=
  (W2_keep m ρ c b hn0).trans (StableHlo.after_of_writes_sub hostOps0 _ hostOps0_writes h0)
theorem carry1 (b : Ref sig .tc) (h1 : b ∉ hostOps1_W) (hn1 : b ≠ main_v75) : W4 m ρ c (Proc.devRef .tc b) = W2 m ρ c (Proc.devRef .tc b) :=
  (W4_keep m ρ c b hn1).trans (StableHlo.after_of_writes_sub hostOps1 _ hostOps1_writes h1)
theorem carry2 (b : Ref sig .tc) (h2 : b ∉ hostOps2_W) (hn2 : b ≠ main_v107) : W6 m ρ c (Proc.devRef .tc b) = W4 m ρ c (Proc.devRef .tc b) :=
  (W6_keep m ρ c b hn2).trans (StableHlo.after_of_writes_sub hostOps2 _ hostOps2_writes h2)
theorem lvl4 (b : Ref sig .tc) (h0 : b ∉ hostOps0_W) (h1 : b ∉ hostOps1_W) (hn0 : b ≠ main_v43) (hn1 : b ≠ main_v75) :
    W4 m ρ c (Proc.devRef .tc b) = m ((c : Thread nD τ).loc b) := (carry1 m ρ c b h1 hn1).trans (lvl2 m ρ c b h0 hn0)
theorem lvl6 (b : Ref sig .tc) (h0 : b ∉ hostOps0_W) (h1 : b ∉ hostOps1_W) (h2 : b ∉ hostOps2_W) (hn0 : b ≠ main_v43) (hn1 : b ≠ main_v75)
    (hn2 : b ≠ main_v107) : W6 m ρ c (Proc.devRef .tc b) = m ((c : Thread nD τ).loc b) := (carry2 m ρ c b h2 hn2).trans (lvl4 m ρ c b h0 h1 hn0 hn1)

/-- The index vectors and the reciprocal in-degrees after region 0, -/
theorem s2_v1 : (W2 m ρ c (Proc.devRef .tc main_v1) : IVec S1600000 32) = v1term (ee m c) := (W2_keep m ρ c main_v1 (by decide)).trans (v1_0 (W0 m ρ c))
theorem s2_v3 : (W2 m ρ c (Proc.devRef .tc main_v3) : IVec S1600000 32) = v3term (ee m c) := (W2_keep m ρ c main_v3 (by decide)).trans (v3_0 (W0 m ρ c))
theorem s2_rc : (W2 m ρ c (Proc.devRef .tc main_v11) : FVec Ideal S100000x1 .f32) = rc (ee m c) := (W2_keep m ρ c main_v11 (by decide)).trans (rc_0 (W0 m ρ c))
/-- after region 1, -/
theorem s4_v1 : (W4 m ρ c (Proc.devRef .tc main_v1) : IVec S1600000 32) = v1term (ee m c) := (carry1 m ρ c main_v1 (by decide) (by decide)).trans (s2_v1 m ρ c)
theorem s4_v3 : (W4 m ρ c (Proc.devRef .tc main_v3) : IVec S1600000 32) = v3term (ee m c) := (carry1 m ρ c main_v3 (by decide) (by decide)).trans (s2_v3 m ρ c)
theorem s4_rc : (W4 m ρ c (Proc.devRef .tc main_v11) : FVec Ideal S100000x1 .f32) = rc (ee m c) := (carry1 m ρ c main_v11 (by decide) (by decide)).trans (s2_rc m ρ c)
/-- and after region 2. -/
theorem s6_v1 : (W6 m ρ c (Proc.devRef .tc main_v1) : IVec S1600000 32) = v1term (ee m c) := (carry2 m ρ c main_v1 (by decide) (by decide)).trans (s4_v1 m ρ c)
theorem s6_v3 : (W6 m ρ c (Proc.devRef .tc main_v3) : IVec S1600000 32) = v3term (ee m c) := (carry2 m ρ c main_v3 (by decide) (by decide)).trans (s4_v3 m ρ c)
theorem s6_rc : (W6 m ρ c (Proc.devRef .tc main_v11) : FVec Ideal S100000x1 .f32) = rc (ee m c) := (carry2 m ρ c main_v11 (by decide) (by decide)).trans (s4_rc m ρ c)

/-! ## Layer 0 -/

/-- Region 0 leaves layer 0's rows with the input added back. -/
theorem after0 : (W2 m ρ c (Proc.devRef .tc main_v43) : Arr)
    = resid (layerK (AGG (ee m c)) (rcf m c) (PP m c) 0 (xx m c)) (xx m c) := by
  rw [show W2 m ρ c (Proc.devRef .tc main_v43) = (dat0 (U1 m ρ) c).arrAt 11 cfg0.N from W2_arr m ρ c 11, final0]
  have hagg : U1 m ρ c main_v23 = AGG (ee m c) (xx m c) := agg_0 (W0 m ρ c)
  have hx : U1 m ρ c main_arg0 = xx m c := StableHlo.after_of_writes_sub hostOps0 _ hostOps0_writes (by decide)
  have hrc : U1 m ρ c main_v11 = rc (ee m c) := rc_0 (W0 m ρ c)
  have hwl : ∀ k c', U1 m ρ c main_v25 (ix2 k c') = (m ((c : Thread nD τ).loc main_arg2) : FVec Ideal S4x128x128 .f32) (ix3 (0 : Fin 4) k c') := fun k c' => wl_read_0 (W0 m ρ c) k c'
  have hwr : ∀ k c', U1 m ρ c main_v27 (ix2 k c') = (m ((c : Thread nD τ).loc main_arg3) : FVec Ideal S4x128x128 .f32) (ix3 (0 : Fin 4) k c') := fun k c' => wr_read_0 (W0 m ρ c) k c'
  have hb : ∀ c', U1 m ρ c main_v38 (ix2 (0 : Fin 1) c') = (m ((c : Thread nD τ).loc main_arg4) : FVec Ideal S4x128 .f32) (ix2 (0 : Fin 4) c') := fun c' => b_read_0 (W0 m ρ c) c'
  have hg : ∀ c', U1 m ρ c main_v39 (ix2 (0 : Fin 1) c') = (m ((c : Thread nD τ).loc main_arg5) : FVec Ideal S4x128 .f32) (ix2 (0 : Fin 4) c') := fun c' => g_read_0 (W0 m ρ c) c'
  have hbb : ∀ c', U1 m ρ c main_v40 (ix2 (0 : Fin 1) c') = (m ((c : Thread nD τ).loc main_arg6) : FVec Ideal S4x128 .f32) (ix2 (0 : Fin 4) c') := fun c' => bb_read_0 (W0 m ρ c) c'
  have hmm : ∀ c', U1 m ρ c main_v41 (ix2 (0 : Fin 1) c') = (m ((c : Thread nD τ).loc main_arg7) : FVec Ideal S4x128 .f32) (ix2 (0 : Fin 4) c') := fun c' => mm_read_0 (W0 m ρ c) c'
  have hv : ∀ c', U1 m ρ c main_v42 (ix2 (0 : Fin 1) c') = (m ((c : Thread nD τ).loc main_arg8) : FVec Ideal S4x128 .f32) (ix2 (0 : Fin 4) c') := fun c' => v_read_0 (W0 m ρ c) c'
  funext i
  obtain ⟨r, cc, rfl⟩ : ∃ (r : Fin 100000) (cc : Fin 128), i = ix2 r cc := ⟨i 0, i 1, eq_ix2 i⟩
  unfold G0
  simp only [hagg, hx, hrc, hwl, hwr, hb, hg, hbb, hmm, hv]
  rfl

/-! ## Layer 1 -/

/-- Region 1 leaves layer 1's rows of the rows the region before it left. -/
theorem after1 : (W4 m ρ c (Proc.devRef .tc main_v75) : Arr)
    = layerK (AGG (ee m c)) (rcf m c) (PP m c) 1 (W2 m ρ c (Proc.devRef .tc main_v43) : Arr) := by
  rw [show W4 m ρ c (Proc.devRef .tc main_v75) = (dat1 (U3 m ρ) c).arrAt 10 cfg1.N from W4_arr m ρ c 10, final1]
  have hagg : U3 m ρ c main_v55 = AGG (ee m c) (W2 m ρ c (Proc.devRef .tc main_v43) : Arr) := by
    refine (agg_1 (W2 m ρ c)).trans ?_
    rw [s2_v1 m ρ c, s2_v3 m ρ c]; rfl
  have hh : U3 m ρ c main_v43 = (W2 m ρ c (Proc.devRef .tc main_v43) : Arr) := StableHlo.after_of_writes_sub hostOps1 _ hostOps1_writes (by decide)
  have hrc : U3 m ρ c main_v11 = rc (ee m c) := (rc_keep_1 (W2 m ρ c)).trans (s2_rc m ρ c)
  have hwl : ∀ k c', U3 m ρ c main_v57 (ix2 k c') = (m ((c : Thread nD τ).loc main_arg2) : FVec Ideal S4x128x128 .f32) (ix3 (1 : Fin 4) k c') := fun k c' =>
    (wl_read_1 (W2 m ρ c) k c').trans (congrFun (lvl2 m ρ c main_arg2 (by decide) (by decide)) _)
  have hwr : ∀ k c', U3 m ρ c main_v59 (ix2 k c') = (m ((c : Thread nD τ).loc main_arg3) : FVec Ideal S4x128x128 .f32) (ix3 (1 : Fin 4) k c') := fun k c' =>
    (wr_read_1 (W2 m ρ c) k c').trans (congrFun (lvl2 m ρ c main_arg3 (by decide) (by decide)) _)
  have hb : ∀ c', U3 m ρ c main_v70 (ix2 (0 : Fin 1) c') = (m ((c : Thread nD τ).loc main_arg4) : FVec Ideal S4x128 .f32) (ix2 (1 : Fin 4) c') := fun c' =>
    (b_read_1 (W2 m ρ c) c').trans (congrFun (lvl2 m ρ c main_arg4 (by decide) (by decide)) _)
  have hg : ∀ c', U3 m ρ c main_v71 (ix2 (0 : Fin 1) c') = (m ((c : Thread nD τ).loc main_arg5) : FVec Ideal S4x128 .f32) (ix2 (1 : Fin 4) c') := fun c' =>
    (g_read_1 (W2 m ρ c) c').trans (congrFun (lvl2 m ρ c main_arg5 (by decide) (by decide)) _)
  have hbb : ∀ c', U3 m ρ c main_v72 (ix2 (0 : Fin 1) c') = (m ((c : Thread nD τ).loc main_arg6) : FVec Ideal S4x128 .f32) (ix2 (1 : Fin 4) c') := fun c' =>
    (bb_read_1 (W2 m ρ c) c').trans (congrFun (lvl2 m ρ c main_arg6 (by decide) (by decide)) _)
  have hmm : ∀ c', U3 m ρ c main_v73 (ix2 (0 : Fin 1) c') = (m ((c : Thread nD τ).loc main_arg7) : FVec Ideal S4x128 .f32) (ix2 (1 : Fin 4) c') := fun c' =>
    (mm_read_1 (W2 m ρ c) c').trans (congrFun (lvl2 m ρ c main_arg7 (by decide) (by decide)) _)
  have hv : ∀ c', U3 m ρ c main_v74 (ix2 (0 : Fin 1) c') = (m ((c : Thread nD τ).loc main_arg8) : FVec Ideal S4x128 .f32) (ix2 (1 : Fin 4) c') := fun c' =>
    (v_read_1 (W2 m ρ c) c').trans (congrFun (lvl2 m ρ c main_arg8 (by decide) (by decide)) _)
  funext i
  unfold G1
  simp only [hagg, hh, hrc, hwl, hwr, hb, hg, hbb, hmm, hv]
  rfl

/-! ## Layer 2 -/

/-- Region 2 leaves layer 2's rows of the rows the region before it left. -/
theorem after2 : (W6 m ρ c (Proc.devRef .tc main_v107) : Arr)
    = layerK (AGG (ee m c)) (rcf m c) (PP m c) 2 (W4 m ρ c (Proc.devRef .tc main_v75) : Arr) := by
  rw [show W6 m ρ c (Proc.devRef .tc main_v107) = (dat2 (U5 m ρ) c).arrAt 10 cfg2.N from W6_arr m ρ c 10, final2]
  have hagg : U5 m ρ c main_v87 = AGG (ee m c) (W4 m ρ c (Proc.devRef .tc main_v75) : Arr) := by
    refine (agg_2 (W4 m ρ c)).trans ?_
    rw [s4_v1 m ρ c, s4_v3 m ρ c]; rfl
  have hh : U5 m ρ c main_v75 = (W4 m ρ c (Proc.devRef .tc main_v75) : Arr) := StableHlo.after_of_writes_sub hostOps2 _ hostOps2_writes (by decide)
  have hrc : U5 m ρ c main_v11 = rc (ee m c) := (rc_keep_2 (W4 m ρ c)).trans (s4_rc m ρ c)
  have hwl : ∀ k c', U5 m ρ c main_v89 (ix2 k c') = (m ((c : Thread nD τ).loc main_arg2) : FVec Ideal S4x128x128 .f32) (ix3 (2 : Fin 4) k c') := fun k c' =>
    (wl_read_2 (W4 m ρ c) k c').trans (congrFun (lvl4 m ρ c main_arg2 (by decide) (by decide) (by decide) (by decide)) _)
  have hwr : ∀ k c', U5 m ρ c main_v91 (ix2 k c') = (m ((c : Thread nD τ).loc main_arg3) : FVec Ideal S4x128x128 .f32) (ix3 (2 : Fin 4) k c') := fun k c' =>
    (wr_read_2 (W4 m ρ c) k c').trans (congrFun (lvl4 m ρ c main_arg3 (by decide) (by decide) (by decide) (by decide)) _)
  have hb : ∀ c', U5 m ρ c main_v102 (ix2 (0 : Fin 1) c') = (m ((c : Thread nD τ).loc main_arg4) : FVec Ideal S4x128 .f32) (ix2 (2 : Fin 4) c') := fun c' =>
    (b_read_2 (W4 m ρ c) c').trans (congrFun (lvl4 m ρ c main_arg4 (by decide) (by decide) (by decide) (by decide)) _)
  have hg : ∀ c', U5 m ρ c main_v103 (ix2 (0 : Fin 1) c') = (m ((c : Thread nD τ).loc main_arg5) : FVec Ideal S4x128 .f32) (ix2 (2 : Fin 4) c') := fun c' =>
    (g_read_2 (W4 m ρ c) c').trans (congrFun (lvl4 m ρ c main_arg5 (by decide) (by decide) (by decide) (by decide)) _)
  have hbb : ∀ c', U5 m ρ c main_v104 (ix2 (0 : Fin 1) c') = (m ((c : Thread nD τ).loc main_arg6) : FVec Ideal S4x128 .f32) (ix2 (2 : Fin 4) c') := fun c' =>
    (bb_read_2 (W4 m ρ c) c').trans (congrFun (lvl4 m ρ c main_arg6 (by decide) (by decide) (by decide) (by decide)) _)
  have hmm : ∀ c', U5 m ρ c main_v105 (ix2 (0 : Fin 1) c') = (m ((c : Thread nD τ).loc main_arg7) : FVec Ideal S4x128 .f32) (ix2 (2 : Fin 4) c') := fun c' =>
    (mm_read_2 (W4 m ρ c) c').trans (congrFun (lvl4 m ρ c main_arg7 (by decide) (by decide) (by decide) (by decide)) _)
  have hv : ∀ c', U5 m ρ c main_v106 (ix2 (0 : Fin 1) c') = (m ((c : Thread nD τ).loc main_arg8) : FVec Ideal S4x128 .f32) (ix2 (2 : Fin 4) c') := fun c' =>
    (v_read_2 (W4 m ρ c) c').trans (congrFun (lvl4 m ρ c main_arg8 (by decide) (by decide) (by decide) (by decide)) _)
  funext i
  unfold G2
  simp only [hagg, hh, hrc, hwl, hwr, hb, hg, hbb, hmm, hv]
  rfl

/-! ## Layer 3, the layer normalisation and the head -/

/-- Region 3 leaves, node by node, the head of layer 3's row of the rows region 2 left. -/
theorem after3 : (W8 m ρ c (Proc.devRef .tc main_v147) : S100000x1.Idx → EReal)
    = fun i => headK (PP m c) (row (layerK (AGG (ee m c)) (rcf m c) (PP m c) 3 (W6 m ρ c (Proc.devRef .tc main_v107) : Arr)) (i 0)) := by
  rw [show W8 m ρ c (Proc.devRef .tc main_v147) = (dat3 (U7 m ρ) c).arrAt 20 cfg3.N from W8_arr m ρ c 20, final3]
  have hagg : U7 m ρ c main_v119 = AGG (ee m c) (W6 m ρ c (Proc.devRef .tc main_v107) : Arr) := by
    refine (agg_3 (W6 m ρ c)).trans ?_
    rw [s6_v1 m ρ c, s6_v3 m ρ c]; rfl
  have hh : U7 m ρ c main_v107 = (W6 m ρ c (Proc.devRef .tc main_v107) : Arr) := StableHlo.after_of_writes_sub hostOps3 _ hostOps3_writes (by decide)
  have hrc : U7 m ρ c main_v11 = rc (ee m c) := (rc_keep_3 (W6 m ρ c)).trans (s6_rc m ρ c)
  have hwl : ∀ k c', U7 m ρ c main_v121 (ix2 k c') = (m ((c : Thread nD τ).loc main_arg2) : FVec Ideal S4x128x128 .f32) (ix3 (3 : Fin 4) k c') := fun k c' =>
    (wl_read_3 (W6 m ρ c) k c').trans (congrFun (lvl6 m ρ c main_arg2 (by decide) (by decide) (by decide) (by decide) (by decide) (by decide)) _)
  have hwr : ∀ k c', U7 m ρ c main_v123 (ix2 k c') = (m ((c : Thread nD τ).loc main_arg3) : FVec Ideal S4x128x128 .f32) (ix3 (3 : Fin 4) k c') := fun k c' =>
    (wr_read_3 (W6 m ρ c) k c').trans (congrFun (lvl6 m ρ c main_arg3 (by decide) (by decide) (by decide) (by decide) (by decide) (by decide)) _)
  have hb : ∀ c', U7 m ρ c main_v134 (ix2 (0 : Fin 1) c') = (m ((c : Thread nD τ).loc main_arg4) : FVec Ideal S4x128 .f32) (ix2 (3 : Fin 4) c') := fun c' =>
    (b_read_3 (W6 m ρ c) c').trans (congrFun (lvl6 m ρ c main_arg4 (by decide) (by decide) (by decide) (by decide) (by decide) (by decide)) _)
  have hg : ∀ c', U7 m ρ c main_v135 (ix2 (0 : Fin 1) c') = (m ((c : Thread nD τ).loc main_arg5) : FVec Ideal S4x128 .f32) (ix2 (3 : Fin 4) c') := fun c' =>
    (g_read_3 (W6 m ρ c) c').trans (congrFun (lvl6 m ρ c main_arg5 (by decide) (by decide) (by decide) (by decide) (by decide) (by decide)) _)
  have hbb : ∀ c', U7 m ρ c main_v136 (ix2 (0 : Fin 1) c') = (m ((c : Thread nD τ).loc main_arg6) : FVec Ideal S4x128 .f32) (ix2 (3 : Fin 4) c') := fun c' =>
    (bb_read_3 (W6 m ρ c) c').trans (congrFun (lvl6 m ρ c main_arg6 (by decide) (by decide) (by decide) (by decide) (by decide) (by decide)) _)
  have hmm : ∀ c', U7 m ρ c main_v137 (ix2 (0 : Fin 1) c') = (m ((c : Thread nD τ).loc main_arg7) : FVec Ideal S4x128 .f32) (ix2 (3 : Fin 4) c') := fun c' =>
    (mm_read_3 (W6 m ρ c) c').trans (congrFun (lvl6 m ρ c main_arg7 (by decide) (by decide) (by decide) (by decide) (by decide) (by decide)) _)
  have hv : ∀ c', U7 m ρ c main_v138 (ix2 (0 : Fin 1) c') = (m ((c : Thread nD τ).loc main_arg8) : FVec Ideal S4x128 .f32) (ix2 (3 : Fin 4) c') := fun c' =>
    (v_read_3 (W6 m ρ c) c').trans (congrFun (lvl6 m ρ c main_arg8 (by decide) (by decide) (by decide) (by decide) (by decide) (by decide)) _)
  have hlng : ∀ j, U7 m ρ c main_v139 (ix2 (0 : Fin 1) j) = (m ((c : Thread nD τ).loc main_arg9) : FVec Ideal S128 .f32) (ix1 j) := fun j =>
    (lng_read (W6 m ρ c) j).trans (congrFun (lvl6 m ρ c main_arg9 (by decide) (by decide) (by decide) (by decide) (by decide) (by decide)) _)
  have hlnb : ∀ j, U7 m ρ c main_v140 (ix2 (0 : Fin 1) j) = (m ((c : Thread nD τ).loc main_arg10) : FVec Ideal S128 .f32) (ix1 j) := fun j =>
    (lnb_read (W6 m ρ c) j).trans (congrFun (lvl6 m ρ c main_arg10 (by decide) (by decide) (by decide) (by decide) (by decide) (by decide)) _)
  have hw1 : U7 m ρ c main_arg11 = m ((c : Thread nD τ).loc main_arg11) :=
    (StableHlo.after_of_writes_sub hostOps3 _ hostOps3_writes (by decide)).trans (lvl6 m ρ c main_arg11 (by decide) (by decide) (by decide) (by decide) (by decide) (by decide))
  have hb1 : ∀ j, U7 m ρ c main_v141 (ix2 (0 : Fin 1) j) = (m ((c : Thread nD τ).loc main_arg12) : FVec Ideal S64 .f32) (ix1 j) := fun j =>
    (b1_read (W6 m ρ c) j).trans (congrFun (lvl6 m ρ c main_arg12 (by decide) (by decide) (by decide) (by decide) (by decide) (by decide)) _)
  have hbog : ∀ j, U7 m ρ c main_v142 (ix2 (0 : Fin 1) j) = (m ((c : Thread nD τ).loc main_arg13) : FVec Ideal S64 .f32) (ix1 j) := fun j =>
    (bog_read (W6 m ρ c) j).trans (congrFun (lvl6 m ρ c main_arg13 (by decide) (by decide) (by decide) (by decide) (by decide) (by decide)) _)
  have hbob : ∀ j, U7 m ρ c main_v143 (ix2 (0 : Fin 1) j) = (m ((c : Thread nD τ).loc main_arg14) : FVec Ideal S64 .f32) (ix1 j) := fun j =>
    (bob_read (W6 m ρ c) j).trans (congrFun (lvl6 m ρ c main_arg14 (by decide) (by decide) (by decide) (by decide) (by decide) (by decide)) _)
  have hbom : ∀ j, U7 m ρ c main_v144 (ix2 (0 : Fin 1) j) = (m ((c : Thread nD τ).loc main_arg15) : FVec Ideal S64 .f32) (ix1 j) := fun j =>
    (bom_read (W6 m ρ c) j).trans (congrFun (lvl6 m ρ c main_arg15 (by decide) (by decide) (by decide) (by decide) (by decide) (by decide)) _)
  have hbov : ∀ j, U7 m ρ c main_v145 (ix2 (0 : Fin 1) j) = (m ((c : Thread nD τ).loc main_arg16) : FVec Ideal S64 .f32) (ix1 j) := fun j =>
    (bov_read (W6 m ρ c) j).trans (congrFun (lvl6 m ρ c main_arg16 (by decide) (by decide) (by decide) (by decide) (by decide) (by decide)) _)
  have hw2 : U7 m ρ c main_arg17 = m ((c : Thread nD τ).loc main_arg17) :=
    (StableHlo.after_of_writes_sub hostOps3 _ hostOps3_writes (by decide)).trans (lvl6 m ρ c main_arg17 (by decide) (by decide) (by decide) (by decide) (by decide) (by decide))
  have hb2 : U7 m ρ c main_v146 (ix2 (0 : Fin 1) (0 : Fin 1)) = (m ((c : Thread nD τ).loc main_arg18) : FVec Ideal S1 .f32) (ix1 (0 : Fin 1)) :=
    (b2_read (W6 m ρ c)).trans (congrFun (lvl6 m ρ c main_arg18 (by decide) (by decide) (by decide) (by decide) (by decide) (by decide)) _)
  funext i
  unfold G3
  simp only [hagg, hh, hrc, hwl, hwr, hb, hg, hbb, hmm, hv, hlng, hlnb, hw1, hb1, hbog, hbob, hbom, hbov, hw2, hb2]
  rfl

/-! ## The result -/

/-- THE KERNEL PROGRAM'S RESULT at the return: the specification's network, multiplying arrangement, node by node. -/
theorem result : (W9 m ρ c (Proc.devRef .tc main_v148) : S100000.Idx → EReal)
    = fun i => netK (AGG (ee m c)) (rcf m c) (PP m c) (xx m c) (i 0) := by
  funext i
  obtain ⟨r, rfl⟩ : ∃ r : Fin 100000, i = ix1 r := ⟨i 0, eq_ix1 i⟩
  refine (out_read (W8 m ρ c) r).trans ?_
  rw [after3 m ρ c, after2 m ρ c, after1 m ρ c, after0 m ρ c]
  rfl

end Cert.KernelIdeal.KC

end
-- ==== Proof.Algebra.lean ====
/-
  The two arrangements of the network's arithmetic agree.

  The stabiliser under each square root is a positive real, so a non-negative variance plus the stabiliser is a
  positive real or plus infinity: there the reciprocal square root is the reciprocal of the square root, and a
  product with it is the quotient by the square root. A clipped in-degree is at least one, hence not zero, and a
  quotient by it is the product with its reciprocal. A mean of squares is non-negative on the extended reals
  whatever the row holds, so the layer normalisation needs no hypothesis.
-/
import proofs.«127730_j83451214562002_2_alg».proof.Proof.Spec

noncomputable section

namespace Cert.Gnn

open Idealize.ShloMosaic Idealize.ShloMosaic.ValueIdx

/-- The stabiliser is a positive real. -/
theorem eps_pos_real : ∃ e : ℝ, 0 < e ∧ eps = (e : EReal) := by
  unfold eps
  simp [Ideal.ofBits, Ideal.ieee, -EReal.coe_mul]

/-- The feature count is the real 128. -/
theorem c128_eq : c128 = ((128 : ℝ) : EReal) := by
  unfold c128
  simp [Ideal.ofBits, Ideal.ieee, -EReal.coe_mul]
  norm_num

/-- At a positive real, and at plus infinity, a product with the reciprocal square root is the quotient by the
    square root. -/
theorem mul_rsqrt_eq_div_sqrt {g v : EReal} (hv : 0 ≤ v) :
    g * Ideal.rsqrt (v + eps) = Ideal.div g (Ideal.sqrt (v + eps)) := by
  obtain ⟨e, he, hE⟩ := eps_pos_real
  rw [hE]
  induction v using EReal.rec with
  | bot => exact absurd hv (by simp)
  | top =>
    rw [EReal.top_add_coe, Ideal.rsqrt_top, Ideal.sqrt_top, Ideal.div, if_neg EReal.top_ne_zero, EReal.inv_top]
  | coe r =>
    have hr : 0 ≤ r := EReal.coe_nonneg.mp hv
    have hpos : 0 < r + e := by linarith
    have hs : Real.sqrt (r + e) ≠ 0 := (Real.sqrt_pos.mpr hpos).ne'
    rw [← EReal.coe_add, Ideal.rsqrt_coe, Ideal.sqrt_coe, if_neg (not_lt.mpr hpos.le), if_neg hpos.ne',
      if_neg (not_lt.mpr hpos.le), Ideal.div, if_neg (by exact_mod_cast hs), EReal.coe_inv]

theorem scaleK_eq_scaleR {g v : EReal} (hv : 0 ≤ v) : scaleK g v = scaleR g v :=
  mul_rsqrt_eq_div_sqrt hv

/-- A quotient by a number that is at least one is the product with its reciprocal. -/
theorem div_eq_mul_recip (a mx : EReal) (h : 1 ≤ mx) : Ideal.div a mx = a * Ideal.div 1 mx := by
  have hne : mx ≠ 0 := fun e => by rw [e] at h; exact absurd h (by simp)
  unfold Ideal.div
  rw [if_neg hne, if_neg hne, one_mul]

/-- The square of an extended real is not negative. -/
theorem mul_self_nonneg' (a : EReal) : 0 ≤ a * a := by
  rcases le_total 0 a with h | h
  · exact EReal.mul_nonneg_iff.mpr (.inl ⟨h, h⟩)
  · exact EReal.mul_nonneg_iff.mpr (.inr ⟨h, h⟩)

/-- The mean of a row of non-negative entries is not negative. -/
theorem mean128_nonneg {x : Fin 128 → EReal} (h : ∀ c, 0 ≤ x c) : 0 ≤ mean128 x := by
  unfold mean128
  rw [c128_eq, Ideal.div_coe (by norm_num)]
  exact EReal.mul_nonneg (Finset.sum_nonneg fun c _ => h c) (EReal.coe_nonneg.mpr (by norm_num))

theorem var128_nonneg (x : Fin 128 → EReal) : 0 ≤ var128 x :=
  mean128_nonneg fun _ => mul_self_nonneg' _

theorem lnK_eq_lnR (x lng lnb : Fin 128 → EReal) : lnK x lng lnb = lnR x lng lnb := by
  funext c
  unfold lnK lnR
  rw [mul_rsqrt_eq_div_sqrt (var128_nonneg x)]

theorem rowK_eq_rowR (agg h : Fin 128 → EReal) (mx : EReal) (wl wr : Fin 128 → Fin 128 → EReal)
    (b g bb mm v : Fin 128 → EReal) (c : Fin 128) (hmx : 1 ≤ mx) (hv : ∀ c, 0 ≤ v c) :
    rowK agg h (Ideal.div 1 mx) wl wr b g bb mm v c = rowR agg h mx wl wr b g bb mm v c := by
  unfold rowK rowR
  rw [scaleK_eq_scaleR (hv c)]
  congr 2
  funext k
  exact (div_eq_mul_recip (agg k) mx hmx).symm

/-- One layer, array by array. -/
theorem layerK_eq_layerR (AGG : Arr → Arr) (mx : Fin 100000 → EReal) (P : Params) (l : Fin 4) (h : Arr)
    (hmx : ∀ r, 1 ≤ mx r) (hv : ∀ l c, 0 ≤ P.v l c) :
    layerK AGG (fun r => Ideal.div 1 (mx r)) P l h = layerR AGG mx P l h := by
  funext i
  unfold layerK layerR
  exact rowK_eq_rowR _ _ _ _ _ _ _ _ _ _ _ (hmx _) (hv l)

/-- The head, row by row. -/
theorem headK_eq_headR (P : Params) (x : Fin 128 → EReal) (hbov : ∀ j, 0 ≤ P.bov j) : headK P x = headR P x := by
  unfold headK headR
  rw [lnK_eq_lnR]
  congr 1
  funext j
  unfold hid
  rw [scaleK_eq_scaleR (hbov j)]

theorem netK_eq_netR (AGG : Arr → Arr) (mx : Fin 100000 → EReal) (P : Params) (x : Arr) (r : Fin 100000)
    (hmx : ∀ r, 1 ≤ mx r) (hv : ∀ l c, 0 ≤ P.v l c) (hbov : ∀ j, 0 ≤ P.bov j) :
    netK AGG (fun r => Ideal.div 1 (mx r)) P x r = netR AGG mx P x r := by
  unfold netK netR
  rw [layerK_eq_layerR AGG mx P 0 x hmx hv, layerK_eq_layerR AGG mx P 1 _ hmx hv,
    layerK_eq_layerR AGG mx P 2 _ hmx hv, layerK_eq_layerR AGG mx P 3 _ hmx hv]
  exact headK_eq_headR P _ hbov

end Cert.Gnn

end
-- ==== Proof.PreFacts.lean ====
/-
  What the precondition says of the two variance arrays.

  The precondition is a conjunction of twenty "every entry satisfies …" tests, each a reduction by `and` of an array
  of one-bit comparison results into a single bit, and the conjunction is the bit 1. A conjunction of bits is 1 only
  if both are; a reduction by `and` from 1 that came out 1 met a 1 at every entry. The last two tests compare the
  batch normalisations' running variances (the layers' and the head's) with zero by "at least": on the extended reals
  that comparison is the order, and the zero literal is the number zero. So every entry of either array is at least
  zero.
-/
import proofs.«127730_j83451214562002_2_alg».proof.Pre_finite_inputs
import Idealize.ShloMosaic.Lib.ReduceAll
import Idealize.ShloMosaic.Lib.ValueIdx
import Idealize.ShloMosaic.PureOps.Ideal.Laws

noncomputable section

namespace Cert.PreFacts

open Idealize.ShloMosaic Idealize.ShloMosaic.ValueIdx Cert.Pre_finite_inputs

variable [Cert.Pre_finite_inputs.Facts]

/-- The scalar shape has one index. -/
instance : Subsingleton S_.Idx := ⟨fun _ _ => funext fun d => d.elim0⟩

/-- An "at least" comparison with the zero literal that came out 1: the number is at least zero. -/
theorem nonneg_of_cmp_oge {x : EReal} (h : FloatOps.cmpf (F := Ideal) (φ := .f32) .oge x (Ideal.ofBits .f32 0x00000000#32) = 1#1) :
    0 ≤ x := by
  rw [Ideal.cmpf_def, Ideal.ofBits_zero_f32] at h
  by_contra hx
  simp [Ideal.cmp, hx] at h

/-- The last part of the printed conjunction: if it is 1, the two arrays it tests are entrywise at least zero. -/
theorem part5_nonneg (a8 : FVec Ideal S4x128 .f32) (a16 : FVec Ideal S64 .f32) (v83 : IVec S_ 1)
    (v84 : FVec Ideal S1 .f32) (c32 : FVec Ideal S_ .f32)
    (h : fn_part5 (F := Ideal) a8 a16 v83 v84 c32 = fun _ => 1#1) :
    (∀ i : S4x128.Idx, 0 ≤ a8 i) ∧ (∀ i : S64.Idx, 0 ≤ a16 i) := by
  have e : fn_part5 (F := Ideal) a8 a16 v83 v84 c32 ix0 = 1#1 := congrFun h ix0
  obtain ⟨e1, e95⟩ := IntOp.andi_eq_one.1 e
  obtain ⟨-, e91⟩ := IntOp.andi_eq_one.1 e1
  exact ⟨fun i => nonneg_of_cmp_oge (Host.reduce_andi_all _ _ _ _ ix0 e91 i),
    fun i => nonneg_of_cmp_oge (Host.reduce_andi_all _ _ _ _ ix0 e95 i)⟩

section Main
variable (a0 : FVec Ideal S100000x128 .f32) (a1 : IVec S2x1600000 32) (a2 a3 : FVec Ideal S4x128x128 .f32)
  (a4 a5 a6 a7 a8 : FVec Ideal S4x128 .f32) (a9 a10 : FVec Ideal S128 .f32) (a11 : FVec Ideal S128x64 .f32)
  (a12 a13 a14 a15 a16 : FVec Ideal S64 .f32) (a17 : FVec Ideal S64x1 .f32) (a18 : FVec Ideal S1 .f32)

/-- The whole conjunction ends in that last part, at the two arrays themselves. -/
theorem both_nonneg
    (h : fn (F := Ideal) a0 a1 a2 a3 a4 a5 a6 a7 a8 a9 a10 a11 a12 a13 a14 a15 a16 a17 a18 = fun _ => 1#1) :
    (∀ i : S4x128.Idx, 0 ≤ a8 i) ∧ (∀ i : S64.Idx, 0 ≤ a16 i) :=
  part5_nonneg a8 a16 _ _ _ h

/-- The layers' running variances are at least zero. -/
theorem bnv_nonneg
    (h : fn (F := Ideal) a0 a1 a2 a3 a4 a5 a6 a7 a8 a9 a10 a11 a12 a13 a14 a15 a16 a17 a18 = fun _ => 1#1) :
    ∀ (l : Fin 4) (c : Fin 128), 0 ≤ a8 (ix2 l c) :=
  fun l c => (both_nonneg a0 a1 a2 a3 a4 a5 a6 a7 a8 a9 a10 a11 a12 a13 a14 a15 a16 a17 a18 h).1 (ix2 l c)

/-- The head's running variances are at least zero. -/
theorem bov_nonneg
    (h : fn (F := Ideal) a0 a1 a2 a3 a4 a5 a6 a7 a8 a9 a10 a11 a12 a13 a14 a15 a16 a17 a18 = fun _ => 1#1) :
    ∀ j : Fin 64, 0 ≤ a16 (ix1 j) :=
  fun j => (both_nonneg a0 a1 a2 a3 a4 a5 a6 a7 a8 a9 a10 a11 a12 a13 a14 a15 a16 a17 a18 h).2 (ix1 j)

end Main

end Cert.PreFacts

end
-- ==== Proof.Bridge.lean ====
/-
  The two programs' results are one function of the arguments. The kernel program's result is the specification's network with products by
  reciprocal square roots and by the reciprocal clipped in-degree; the reference's is the same network with quotients by square roots and by
  the clipped in-degree. They aggregate over the same operator — the same gather along the sources and scatter-add into the targets of the
  same edge list, the kernel program's passage through half precision being the identity on the extended reals — and count the same
  in-degrees. Under the precondition the running variances are non-negative, so every quantity under a square root is positive and the two
  arrangements agree.
-/
import proofs.«127730_j83451214562002_2_alg».proof.Defs
import proofs.«127730_j83451214562002_2_alg».proof.Proof.BridgeAgg
import proofs.«127730_j83451214562002_2_alg».proof.Proof.KChain
import proofs.«127730_j83451214562002_2_alg».proof.Proof.Algebra
import proofs.«127730_j83451214562002_2_alg».proof.Proof.PreFacts
import proofs.«127730_j83451214562002_2_alg».proof.Proof.Gen.KernelIdeal
import proofs.«127730_j83451214562002_2_alg».proof.Proof.Gen.ReferenceIdeal
import proofs.«127730_j83451214562002_2_alg».proof.Proof.Gen.Pre_finite_inputs

set_option maxRecDepth 16384

noncomputable section

namespace Cert.Bridge

open Idealize.ShloMosaic Idealize.ShloMosaic.TcCoe Idealize.ShloMosaic.ValueIdx Idealize.SL.Sem Cert.Gnn

/-- THE VALUE CLAIM. From memories agreeing on the arguments both programs run; the kernel program ends with the specification's network in
    its multiplying arrangement, the reference with the dividing one, over one aggregation operator; the precondition makes every running
    variance non-negative, the clipped in-degree is at least one, and the two arrangements are then one function. -/
theorem algebraic : Cert.algebraic_KernelIdeal_ReferenceIdeal := by
  intro m ρ m' ρ' hpre hagree
  refine ⟨fun c => Cert.KernelIdeal.Fr.W9 m ρ c (Proc.devRef .tc Cert.KernelIdeal.main_v148), Cert.KernelIdeal.Fr.frame (F := Ideal) m ρ, ?_⟩
  refine (θ_run Cert.ReferenceIdeal.defs _ _).mono (fun r h c => ⟨(h c).1.trans ?_, (h c).2⟩)
    (Cert.ReferenceIdeal.ValueP.run (F := Ideal) m' ρ')
  obtain ⟨e0, e1, e2, e3, e4, e5, e6, e7, e8, e9, e10, e11, e12, e13, e14, e15, e16, e17, e18⟩ := hagree c
  rw [Cert.ReferenceIdeal.ReadP.val_main_v259_eq, e0, e1, e2, e3, e4, e5, e6, e7, e8, e9, e10, e11, e12, e13, e14, e15, e16, e17, e18, Cert.ReferenceIdeal.RefValue.ref_eq]
  refine Eq.trans ?_ (Cert.KernelIdeal.KC.result m ρ c).symm
  funext i
  have hv := Cert.PreFacts.bnv_nonneg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (hpre c)
  have hbov := Cert.PreFacts.bov_nonneg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (hpre c)
  have hK : Cert.KernelIdeal.KC.rcf m c = fun r => Ideal.div 1 (Cert.ReferenceIdeal.RefValue.mx (Cert.KernelIdeal.KC.ee m c) r) := funext fun r => rc_same _ r
  have hA : Cert.KernelIdeal.Lay.AGG (Cert.KernelIdeal.KC.ee m c) = Cert.ReferenceIdeal.RefValue.AGG (Cert.KernelIdeal.KC.ee m c) := funext fun h => agg_same _ h
  rw [hK, hA]
  exact (Cert.Gnn.netK_eq_netR _ _ _ _ _ (fun r => mx_ge _ r) hv hbov).symm

end Cert.Bridge

end
-- ==== Proof.lean ====
/-
  A four-layer SAGE graph network (neighbourhood mean, batch normalisation with running statistics, rectifier, one residual), a layer
  normalisation and a two-step head, computed for 100000 nodes of 128 features over 1600000 edges: the kernel program runs the gather along
  the edges and the scatter-add on the host and the dense part of each layer as a kernel over twenty blocks of 5000 node rows, the last kernel
  fused with the normalisation and the head; the reference does everything on the host.

  The three frames. The reference is a straight run of host operations. The kernel program's run follows every unscoped buffer from the launch
  memory through five host stretches and four kernel regions; no stretch writes an argument and a region writes only its output array, so the
  arguments end as launched (the node array is read by the first kernel through two windows, which share it half and half).

  The values. At the exact instance a block of output rows is the layer's row function of the same rows of the aggregated array and of the node
  array, the reciprocal clipped in-degree and the layer's parameters, so the kernel program computes the specification's network with products
  by reciprocal square roots and by the reciprocal in-degree, and the reference the same network with quotients by square roots and by the
  in-degree, both over one and the same aggregation operator. The two arrangements agree because every running variance is non-negative (the
  precondition), the in-degree clipped at one is at least one, and a variance of a row is a mean of squares.
-/
import proofs.«127730_j83451214562002_2_alg».proof.Defs
import proofs.«127730_j83451214562002_2_alg».proof.Proof.Gen.Kernel
import proofs.«127730_j83451214562002_2_alg».proof.Proof.Gen.KernelIdeal
import proofs.«127730_j83451214562002_2_alg».proof.Proof.Gen.ReferenceIdeal
import proofs.«127730_j83451214562002_2_alg».proof.Proof.Gen.Pre_finite_inputs
import proofs.«127730_j83451214562002_2_alg».proof.Proof.KFrameRun
import proofs.«127730_j83451214562002_2_alg».proof.Proof.FrameRun
import proofs.«127730_j83451214562002_2_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed: it runs, and its arguments end as launched. -/
theorem frame_k : Cert.frame_Kernel := fun m ρ _ =>
  (θ_run Cert.Kernel.defs _ _).mono (fun _ h c => (h c).2) (Cert.Kernel.Fr.frame (F := Bits) m ρ)

/-- The same at the exact instance. -/
theorem frame_ki : Cert.frame_KernelIdeal := fun m ρ _ =>
  (θ_run Cert.KernelIdeal.defs _ _).mono (fun _ h c => (h c).2) (Cert.KernelIdeal.Fr.frame (F := Ideal) m ρ)

/-- The reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
